-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S4x2048x128 : Shape := ⟨3, ![4, 2048, 128]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_

variable [Facts]

def fn {F : FTy → Type} [FloatOps F] (main_arg0 : FVec F S4x128x64x64 .f32) (main_arg1 : FVec F S4x2048x128 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  main_v8
-- ==== Kernel.lean ====
abbrev S4x128x64x64 : Shape := ⟨4, ![4, 128, 64, 64]⟩
abbrev S4x2048x128 : Shape := ⟨3, ![4, 2048, 128]⟩
abbrev S4x128x4096 : Shape := ⟨3, ![4, 128, 4096]⟩
abbrev S4x1x2048 : Shape := ⟨3, ![4, 1, 2048]⟩
abbrev S1x128x512 : Shape := ⟨3, ![1, 128, 512]⟩
abbrev S1x2048x128 : Shape := ⟨3, ![1, 2048, 128]⟩
abbrev S1x1x2048 : Shape := ⟨3, ![1, 1, 2048]⟩
abbrev S1x2048 : Shape := ⟨2, ![1, 2048]⟩
abbrev S2048x128 : Shape := ⟨2, ![2048, 128]⟩
abbrev S128x512 : Shape := ⟨2, ![128, 512]⟩
abbrev S512x2048 : Shape := ⟨2, ![512, 2048]⟩
abbrev S2048 : Shape := ⟨1, ![2048]⟩
abbrev S2048x1 : Shape := ⟨2, ![2048, 1]⟩

abbrev nBuf : Space → Nat
  | .hbm => 8
  | .vmem => 16
  | .smem => 0
  | _ => 0

abbrev bufTy : (tb : Table) → Fin (tcTables nBuf tb) → BufTy
  | .hbm, ⟨0, _⟩ => ⟨S4x128x64x64, .f32⟩
  | .hbm, ⟨1, _⟩ => ⟨S4x2048x128, .f32⟩
  | .hbm, ⟨2, _⟩ => ⟨S4x128x4096, .f32⟩
  | .hbm, ⟨3, _⟩ => ⟨S4x2048x128, .bf16⟩
  | .hbm, ⟨4, _⟩ => ⟨S4x2048x128, .f32⟩
  | .hbm, ⟨5, _⟩ => ⟨S4x1x2048, .f32⟩
  | .hbm, ⟨6, _⟩ => ⟨S4x128x4096, .f32⟩
  | .hbm, ⟨7, _⟩ => ⟨S4x128x64x64, .f32⟩
  | .local _ .vmem, ⟨0, _⟩ => ⟨S1x128x512, .f32⟩
  | .local _ .vmem, ⟨1, _⟩ => ⟨S1x128x512, .f32⟩
  | .local _ .vmem, ⟨2, _⟩ => ⟨S1x2048x128, .bf16⟩
  | .local _ .vmem, ⟨3, _⟩ => ⟨S1x2048x128, .f32⟩
  | .local _ .vmem, ⟨4, _⟩ => ⟨S1x2048x128, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S2048x128, .f32⟩
  | .local _ .vmem, ⟨10, _⟩ => ⟨S1x128x512, .f32⟩
  | .local _ .vmem, ⟨11, _⟩ => ⟨S1x128x512, .f32⟩
  | .local _ .vmem, ⟨12, _⟩ => ⟨S1x2048x128, .bf16⟩
  | .local _ .vmem, ⟨13, _⟩ => ⟨S1x1x2048, .f32⟩
  | .local _ .vmem, ⟨14, _⟩ => ⟨S1x128x512, .f32⟩
  | .local _ .vmem, ⟨15, _⟩ => ⟨S1x128x512, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_24 : BitVec 32 := 0#32
  let v44 : BitVec 1 := Scalar.cmpi .ne v43 c0_i32_24
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x128x64x64_S4x128x4096 : S4x128x64x64.ShapeCasts S4x128x4096
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S512x2048_S2048 : S512x2048.Reduces [0] S2048
  shapeCasts_S2048_S1x2048 : S2048.ShapeCasts S1x2048
  broadcasts_S1x2048_S512x2048 : S1x2048.Broadcasts S512x2048
  transposes_S1x2048_p1_0_S2048x1 : S1x2048.Transposes [1, 0] S2048x1
  broadcasts_S2048x1_S2048x128 : S2048x1.Broadcasts S2048x128
  shapeCasts_S2048x128_S1x2048x128 : S2048x128.ShapeCasts S1x2048x128
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S128x512_S1x128x512 : S128x512.ShapeCasts S1x128x512
  shapeCasts_S4x128x4096_S4x128x64x64 : S4x128x4096.ShapeCasts S4x128x64x64
  dot_S128x512_S2048x128_S512x2048_0_1_1_0_n_n_wf : DotDims.WF S128x512 S2048x128 S512x2048 [0] [1] [1] [0] [] []
  dot_S512x2048_S128x512_S2048x128_0_1_1_0_n_n_wf : DotDims.WF S512x2048 S128x512 S2048x128 [0] [1] [1] [0] [] []
  dot_S2048x128_S512x2048_S128x512_0_1_1_0_n_n_wf : DotDims.WF S2048x128 S512x2048 S128x512 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S4x128x4096.size a
  hwx0_0 : ∀ i : grid0.Coords, EltTy.bits .f32 = 32 ∨ (Rect.block (s := S4x128x4096) S1x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x128.size a
  hwx0_1 : ∀ i : grid0.Coords, EltTy.bits .bf16 = 32 ∨ (Rect.block (s := S4x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x128.size a
  hwx0_2 : ∀ i : grid0.Coords, EltTy.bits .f32 = 32 ∨ (Rect.block (s := S4x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x512.size a ≤ S4x128x4096.size a
  hwx1_0 : ∀ i : grid1.Coords, EltTy.bits .f32 = 32 ∨ (Rect.block (s := S4x128x4096) S1x128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x128.size a
  hwx1_1 : ∀ i : grid1.Coords, EltTy.bits .bf16 = 32 ∨ (Rect.block (s := S4x2048x128) S1x2048x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S4x1x2048.size a
  hwx1_2 : ∀ i : grid1.Coords, EltTy.bits .f32 = 32 ∨ (Rect.block (s := S4x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x512.size a ≤ S4x128x4096.size a
  hwx1_3 : ∀ i : grid1.Coords, EltTy.bits .f32 = 32 ∨ (Rect.block (s := S4x128x4096) S1x128x512.size (cc1_transform_3 i) (hinb1_3 i)).WholeWords (EltTy.packing .f32)

variable [Facts₀]

def dot_S128x512_S2048x128_S512x2048_0_1_1_0_n_n : DotDims S128x512 S2048x128 S512x2048 where
  lhsContracting := [0]
  rhsContracting := [1]
  lhsNonContracting := [1]
  rhsNonContracting := [0]
  lhsBatch := []
  rhsBatch := []
  wf := dot_S128x512_S2048x128_S512x2048_0_1_1_0_n_n_wf
def dot_S512x2048_S128x512_S2048x128_0_1_1_0_n_n : DotDims S512x2048 S128x512 S2048x128 where
  lhsContracting := [0]
  rhsContracting := [1]
  lhsNonContracting := [1]
  rhsNonContracting := [0]
  lhsBatch := []
  rhsBatch := []
  wf := dot_S512x2048_S128x512_S2048x128_0_1_1_0_n_n_wf
def dot_S2048x128_S512x2048_S128x512_0_1_1_0_n_n : DotDims S2048x128 S512x2048 S128x512 where
  lhsContracting := [0]
  rhsContracting := [1]
  lhsNonContracting := [1]
  rhsNonContracting := [0]
  lhsBatch := []
  rhsBatch := []
  wf := dot_S2048x128_S512x2048_S128x512_0_1_1_0_n_n_wf

abbrev win0_0 : Pipeline.Window sig grid0 :=
  Pipeline.Window.ofSpec (Memref.whole main_v0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1x1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x128x64x64 : Shape := ⟨4, ![4, 128, 64, 64]⟩
abbrev S4x2048x128 : Shape := ⟨3, ![4, 2048, 128]⟩
abbrev S4x64x64x128 : Shape := ⟨4, ![4, 64, 64, 128]⟩
abbrev S4x4096x128 : Shape := ⟨3, ![4, 4096, 128]⟩
abbrev S4x4096x2048 : Shape := ⟨3, ![4, 4096, 2048]⟩
abbrev S_ : Shape := ⟨0, ![]⟩
abbrev S4x2048 : Shape := ⟨2, ![4, 2048]⟩
abbrev S4x1x2048 : Shape := ⟨3, ![4, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S4x2048x128, .f32⟩
  | .hbm, ⟨2, _⟩ => ⟨S4x64x64x128, .f32⟩
  | .hbm, ⟨3, _⟩ => ⟨S4x4096x128, .f32⟩
  | .hbm, ⟨4, _⟩ => ⟨S4x4096x2048, .f32⟩
  | .hbm, ⟨5, _⟩ => ⟨S_, .f32⟩
  | .hbm, ⟨6, _⟩ => ⟨S_, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x2048, .f32⟩
  | .hbm, ⟨20, _⟩ => ⟨S4x1x2048, .f32⟩
  | .hbm, ⟨21, _⟩ => ⟨S4x4096x2048, .f32⟩
  | .hbm, ⟨22, _⟩ => ⟨S4x4096x2048, .f32⟩
  | .hbm, ⟨23, _⟩ => ⟨S4x2048x128, .f32⟩
  | .hbm, ⟨24, _⟩ => ⟨S4x4096x128, .f32⟩
  | .hbm, ⟨25, _⟩ => ⟨S4x64x64x128, .f32⟩
  | .hbm, ⟨26, _⟩ => ⟨S4x128x64x64, .f32⟩
  | .hbm, ⟨27, _⟩ => ⟨S4x128x64x64, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  transposes_S4x128x64x64_S4x64x64x128_0_2_3_1 : S4x128x64x64.Transposes [0, 2, 3, 1] S4x64x64x128
  shapeCasts_S4x64x64x128_S4x4096x128 : S4x64x64x128.ShapeCasts S4x4096x128
  bcast_S_S4x4096x2048 : S_.BroadcastsInDim S4x4096x2048 (![] : Fin 0 → Fin S4x4096x2048.rank)
  reducesTo_S4x4096x2048_S4x2048_d1 : S4x4096x2048.ReducesTo [1] S4x2048
  h_S_ : 0 < S_.numel
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  bcast_S4x1x2048_S4x4096x2048_0_1_2 : S4x1x2048.BroadcastsInDim S4x4096x2048 (![0, 1, 2] : Fin 3 → Fin S4x4096x2048.rank)
  shapeCasts_S4x4096x128_S4x64x64x128 : S4x4096x128.ShapeCasts S4x64x64x128
  transposes_S4x64x64x128_S4x128x64x64_0_3_1_2 : S4x64x64x128.Transposes [0, 3, 1, 2] S4x128x64x64
  dot_S4x4096x128_S4x2048x128_S4x4096x2048_2_2_1_1_0_0_wf : DotDims.WF S4x4096x128 S4x2048x128 S4x4096x2048 [2] [2] [1] [1] [0] [0]
  dot_S4x4096x2048_S4x4096x128_S4x2048x128_1_1_2_2_0_0_wf : DotDims.WF S4x4096x2048 S4x4096x128 S4x2048x128 [1] [1] [2] [2] [0] [0]
  dot_S4x4096x2048_S4x2048x128_S4x4096x128_2_1_1_2_0_0_wf : DotDims.WF S4x4096x2048 S4x2048x128 S4x4096x128 [2] [1] [1] [2] [0] [0]

variable [Facts₀]

def dot_S4x4096x128_S4x2048x128_S4x4096x2048_2_2_1_1_0_0 : DotDims S4x4096x128 S4x2048x128 S4x4096x2048 where
  lhsContracting := [2]
  rhsContracting := [2]
  lhsNonContracting := [1]
  rhsNonContracting := [1]
  lhsBatch := [0]
  rhsBatch := [0]
  wf := dot_S4x4096x128_S4x2048x128_S4x4096x2048_2_2_1_1_0_0_wf
def dot_S4x4096x2048_S4x4096x128_S4x2048x128_1_1_2_2_0_0 : DotDims S4x4096x2048 S4x4096x128 S4x2048x128 where
  lhsContracting := [1]
  rhsContracting := [1]
  lhsNonContracting := [2]
  rhsNonContracting := [2]
  lhsBatch := [0]
  rhsBatch := [0]
  wf := dot_S4x4096x2048_S4x4096x128_S4x2048x128_1_1_2_2_0_0_wf
def dot_S4x4096x2048_S4x2048x128_S4x4096x128_2_1_1_2_0_0 : DotDims S4x4096x2048 S4x2048x128 S4x4096x128 where
  lhsContracting := [2]
  rhsContracting := [1]
  lhsNonContracting := [1]
  rhsNonContracting := [2]
  lhsBatch := [0]
  rhsBatch := [0]
  wf := dot_S4x4096x2048_S4x2048x128_S4x4096x128_2_1_1_2_0_0_wf

class Facts : Prop extends Facts₀ where

variable [Facts]
-- ==== Proof.K0Conds.lean ====
/-
  The first kernel's two branch conditions as propositions of the grid coordinates, and where on the grid of
  4 batches by 8 tiles (32 points, tile index fastest) they hold: the scratch is reset at the first tile of a
  batch, the two results are stored at its last tile, and only there are their blocks written back.
-/
import proofs.«159953_j57449482551604_2_alg».proof.Proof.Gen.KernelIdeal.Launch
import proofs.«159953_j57449482551604_2_alg».proof.Proof.Gen.KernelIdeal.Skeleton
import proofs.«159953_j57449482551604_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first tile of its batch": the condition under which the running state is reset. -/
abbrev cFirst (i : grid0.Coords) : Prop := (Scalar.cmpi .ne (Scalar.extui (Scalar.cmpi .eq (BitVec.ofNat 32 (i 1).val) 0#32)) 0#32) = 1#1
theorem hFirst : ∀ t : Fin cfg0.N, cFirst (grid0.coords t) ↔ t.val % 8 = 0 :=
  (by decide +kernel : ∀ t : Fin grid0.N, cFirst (grid0.coords t) ↔ t.val % 8 = 0)

/-- "This is the last tile of its batch": the condition under which the two results are stored. -/
abbrev cLast (i : grid0.Coords) : Prop := k0_cond2 i = 1#1
theorem hLast : ∀ t : Fin cfg0.N, cLast (grid0.coords t) ↔ t.val % 8 = 7 :=
  (by decide +kernel : ∀ t : Fin grid0.N, cLast (grid0.coords t) ↔ t.val % 8 = 7)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- Away from a batch's last tile the two result windows are idle and not written back. -/
theorem idle0_2 : ∀ t : Fin cfg0.N, ¬cLast (grid0.coords t) → cfg0.idle 2 (grid0.coords t) = true := by decide +kernel
theorem idle0_3 : ∀ t : Fin cfg0.N, ¬cLast (grid0.coords t) → cfg0.idle 3 (grid0.coords t) = true := by decide +kernel
theorem noFlush0_2 : ∀ t : Fin cfg0.N, ¬cLast (grid0.coords t) → (cfg0.win 2).flush t = false := by decide +kernel
theorem noFlush0_3 : ∀ t : Fin cfg0.N, ¬cLast (grid0.coords t) → (cfg0.win 3).flush t = false := by decide +kernel
/-- At a batch's last tile they are live. -/
theorem live0_2 : ∀ t : Fin cfg0.N, cLast (grid0.coords t) → cfg0.idle 2 (grid0.coords t) = false := by decide +kernel
theorem live0_3 : ∀ t : Fin cfg0.N, cLast (grid0.coords t) → cfg0.idle 3 (grid0.coords t) = false := by decide +kernel

/-- The three scratch buffers as whole memrefs: running maximum, running denominator, running weighted sum. -/
abbrev scM : Memref sig .tc .vmem S1x2048 .f32 := Memref.whole cc0_scratch0
abbrev scL : Memref sig .tc .vmem S1x2048 .f32 := Memref.whole cc0_scratch1
abbrev scA : Memref sig .tc .vmem S2048x128 .f32 := Memref.whole cc0_scratch2

end Cert.KernelIdeal.Hand

end
-- ==== Proof.K0RunMid.lean ====
/-
  The first kernel's body run once at a tile that is neither the first nor the last of its batch: the running
  maximum, denominator and weighted sum are read from the three scratch buffers and stored back updated; the two
  result buffers are not touched.
-/
import proofs.«159953_j57449482551604_2_alg».proof.Proof.K0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the spatial tile at x, the text block at f, the three scratch buffers at (m0, l0, a0) — the body
    runs to its return leaving the inputs as they were and each scratch buffer with the pieces its stores wrote
    (last first), which the run finds. -/
noncomputable def runMid (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : ¬cFirst i) (hc1 : ¬cLast i)
    (x : Vec F S1x128x512 .f32) (f : Vec F S1x2048x128 .bf16) (m0 l0 : Vec F S1x2048 .f32) (a0 : Vec F S2048x128 .f32) :
    Σ' (LM : List (View.Piece (Elt F) S1x2048 .f32)) (LL : List (View.Piece (Elt F) S1x2048 .f32)), { LA : List (View.Piece (Elt F) S2048x128 .f32) //
      ∀ (E : Set ℕ) (K : PUnit → sProp 𝕄),
        iprop(owns (c : Thread nD τ) arg2 fullShare x ∗ owns (c : Thread nD τ) arg3 fullShare f ∗ owns (c : Thread nD τ) arg6 fullShare m0 ∗ owns (c : Thread nD τ) arg7 fullShare l0 ∗ owns (c : Thread nD τ) arg8 fullShare a0
            ∗ (iprop(owns (c : Thread nD τ) arg2 fullShare x ∗ owns (c : Thread nD τ) arg3 fullShare f ∗ (∃ g, arg6.view.loc (c : Thread nD τ) ↦[arg6.view.set]{fullShare} arg6.view.writes (Elt F) g LM) ∗ (∃ g, arg7.view.loc (c : Thread nD τ) ↦[arg7.view.set]{fullShare} arg7.view.writes (Elt F) g LL) ∗ (∃ g, arg8.view.loc (c : Thread nD τ) ↦[arg8.view.set]{fullShare} arg8.view.writes (Elt F) g LA)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%f6, %hf6, H6⟩, ⟨%f7, %hf7, H7⟩, ⟨%f8, %hf8, H8⟩, Hk⟩
    obtain rfl := harg2.eq_unread hf2; obtain rfl := harg3.eq_unread hf3; obtain rfl := harg6.eq_unread hf6
    obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H6]; · iexists _; iexact H6
    isplitl [H7]; · iexists _; iexact H7
    iexists _; iexact H8

end Cert.KernelIdeal.Hand

end
-- ==== Proof.K0RunFirst.lean ====
/-
  The first kernel's body run once at the first tile of a batch: the three scratch buffers, whatever they hold, are
  reset (minus infinity, zero, zero) and then updated by the tile; the two result buffers are not touched.
-/
import proofs.«159953_j57449482551604_2_alg».proof.Proof.K0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the spatial tile at x, the text block at f, the three scratch buffers at anything — the body runs
    to its return leaving the inputs as they were and each scratch buffer with the pieces its stores wrote (last first),
    which the run finds. -/
noncomputable def runFirst (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : cFirst i) (hc1 : ¬cLast i)
    (x : Vec F S1x128x512 .f32) (f : Vec F S1x2048x128 .bf16) :
    Σ' (LM : List (View.Piece (Elt F) S1x2048 .f32)) (LL : List (View.Piece (Elt F) S1x2048 .f32)), { LA : List (View.Piece (Elt F) S2048x128 .f32) //
      ∀ (E : Set ℕ) (K : PUnit → sProp 𝕄),
        iprop(owns (c : Thread nD τ) arg2 fullShare x ∗ owns (c : Thread nD τ) arg3 fullShare f ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x ∗ owns (c : Thread nD τ) arg3 fullShare f ∗ (∃ g, arg6.view.loc (c : Thread nD τ) ↦[arg6.view.set]{fullShare} arg6.view.writes (Elt F) g LM) ∗ (∃ g, arg7.view.loc (c : Thread nD τ) ↦[arg7.view.set]{fullShare} arg7.view.writes (Elt F) g LL) ∗ (∃ g, arg8.view.loc (c : Thread nD τ) ↦[arg8.view.set]{fullShare} arg8.view.writes (Elt F) g LA)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%d6, %f6, -, H6⟩, ⟨%d7, %f7, -, H7⟩, ⟨%d8, %f8, -, H8⟩, Hk⟩
    obtain rfl := harg2.eq_unread hf2; obtain rfl := harg3.eq_unread hf3
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H6]; · iexists _; iexact H6
    isplitl [H7]; · iexists _; iexact H7
    iexists _; iexact H8

end Cert.KernelIdeal.Hand

end
-- ==== Proof.K0RunLast.lean ====
/-
  The first kernel's body run once at the last tile of a batch: the running state is read from the three scratch
  buffers and stored back updated, and then the two results are stored whole into their buffers: the weighted sum
  over the denominator, and the maximum plus the logarithm of the denominator.
-/
import proofs.«159953_j57449482551604_2_alg».proof.Proof.K0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the spatial tile at x, the text block at f, the two result buffers at anything, the three
    scratch buffers at (m0, l0, a0) — the body runs to its return leaving the inputs as they were and each other buffer
    with the pieces its stores wrote (last first), which the run finds. -/
noncomputable def runLast (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : ¬cFirst i) (hc1 : cLast i)
    (x : Vec F S1x128x512 .f32) (f : Vec F S1x2048x128 .bf16) (m0 l0 : Vec F S1x2048 .f32) (a0 : Vec F S2048x128 .f32) :
    Σ' (LO : List (View.Piece (Elt F) S1x2048x128 .f32)) (LE : List (View.Piece (Elt F) S1x1x2048 .f32)) (LM : List (View.Piece (Elt F) S1x2048 .f32)) (LL : List (View.Piece (Elt F) S1x2048 .f32)), { LA : List (View.Piece (Elt F) S2048x128 .f32) //
      ∀ (E : Set ℕ) (K : PUnit → sProp 𝕄),
        iprop(owns (c : Thread nD τ) arg2 fullShare x ∗ owns (c : Thread nD τ) arg3 fullShare f ∗ (∃ d, owns (c : Thread nD τ) arg4 fullShare d) ∗ (∃ d, owns (c : Thread nD τ) arg5 fullShare d) ∗ owns (c : Thread nD τ) arg6 fullShare m0 ∗ owns (c : Thread nD τ) arg7 fullShare l0 ∗ owns (c : Thread nD τ) arg8 fullShare a0
            ∗ (iprop(owns (c : Thread nD τ) arg2 fullShare x ∗ owns (c : Thread nD τ) arg3 fullShare f ∗ (∃ g, arg4.view.loc (c : Thread nD τ) ↦[arg4.view.set]{fullShare} arg4.view.writes (Elt F) g LO) ∗ (∃ g, arg5.view.loc (c : Thread nD τ) ↦[arg5.view.set]{fullShare} arg5.view.writes (Elt F) g LE) ∗ (∃ g, arg6.view.loc (c : Thread nD τ) ↦[arg6.view.set]{fullShare} arg6.view.writes (Elt F) g LM) ∗ (∃ g, arg7.view.loc (c : Thread nD τ) ↦[arg7.view.set]{fullShare} arg7.view.writes (Elt F) g LL) ∗ (∃ g, arg8.view.loc (c : Thread nD τ) ↦[arg8.view.set]{fullShare} arg8.view.writes (Elt F) g LA)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
    obtain rfl := harg2.eq_unread hf2; obtain rfl := harg3.eq_unread hf3; obtain rfl := harg6.eq_unread hf6
    obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.KernelIdeal.Hand

end
-- ==== Proof.K0Pieces.lean ====
/-
  What the first kernel's body leaves in each buffer it stores into, read back whole: every store of this body
  covers its whole buffer, so a buffer ends at its last store's payload, and a load after a store reads that store's
  payload. The running state after a tile is therefore one function (stepF) of the tile, the text block and the
  state before; the two results are functions (out2F, out3F) of the state after the batch's last tile.
-/
import proofs.«159953_j57449482551604_2_alg».proof.Proof.K0RunMid
import proofs.«159953_j57449482551604_2_alg».proof.Proof.K0RunFirst
import proofs.«159953_j57449482551604_2_alg».proof.Proof.K0RunLast
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The running state: maximum [1,2048], denominator [1,2048], weighted sum [2048,128]. -/
abbrev St (F : FTy → Type) [FloatOps F] : Type := Vec F S1x2048 .f32 × Vec F S1x2048 .f32 × Vec F S2048x128 .f32

/-- The state a batch starts from: minus infinity, zero, zero. -/
def initF : St F := (k0_pay5 (F := F), k0_pay6 (F := F), k0_pay7 (F := F))

/-- One tile's update of the state. -/
def stepF (x : Vec F S1x128x512 .f32) (f : Vec F S1x2048x128 .bf16) (s : St F) : St F :=
  (k0_pay2 (k0_pay10 x f s.1), k0_pay13 x f s.1 s.1 s.2.1, k0_pay1 (k0_pay14 x f s.1) (k0_pay15 x f s.1 s.1) s.2.2)

/-- The first result's block from the state after the last tile: the weighted sum over the denominator. -/
def out2F (s : St F) : Vec F S1x2048x128 .f32 := k0_pay3 s.2.1 s.2.2
/-- The second result's block: the maximum plus the logarithm of the denominator. -/
def out3F (s : St F) : Vec F S1x1x2048 .f32 := k0_pay4 s.1 s.2.1

section Mid
variable (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : ¬cFirst i) (hc1 : ¬cLast i) (x : Vec F S1x128x512 .f32) (f : Vec F S1x2048x128 .bf16) (m0 l0 : Vec F S1x2048 .f32) (a0 : Vec F S2048x128 .f32)

theorem midM (g) : arg6.view.read (Elt F) (arg6.view.writes (Elt F) g (runMid c i arg2 harg2 arg3 harg3 arg4 harg4 arg5 harg5 arg6 harg6 arg7 harg7 arg8 harg8 hc0 hc1 x f m0 l0 a0).1) = (stepF x f (m0, l0, a0)).1 := by
  unfold runMid stepF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2]

theorem midL (g) : arg7.view.read (Elt F) (arg7.view.writes (Elt F) g (runMid c i arg2 harg2 arg3 harg3 arg4 harg4 arg5 harg5 arg6 harg6 arg7 harg7 arg8 harg8 hc0 hc1 x f m0 l0 a0).2.1) = (stepF x f (m0, l0, a0)).2.1 := by
  unfold runMid stepF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2]

theorem midA (g) : arg8.view.read (Elt F) (arg8.view.writes (Elt F) g (runMid c i arg2 harg2 arg3 harg3 arg4 harg4 arg5 harg5 arg6 harg6 arg7 harg7 arg8 harg8 hc0 hc1 x f m0 l0 a0).2.2.1) = (stepF x f (m0, l0, a0)).2.2 := by
  unfold runMid stepF
  dsimp only
  try sl_unfold_words
  rw [View.read_writes_eq_canon _ _ _ (fun y => ⟨_, List.Mem.head _, View.mem_set_unit_zero hz2 inb_S2048x128_S2048x128_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2]

end Mid

section First
variable (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : cFirst i) (hc1 : ¬cLast i) (x : Vec F S1x128x512 .f32) (f : Vec F S1x2048x128 .bf16)

theorem firstM (g) : arg6.view.read (Elt F) (arg6.view.writes (Elt F) g (runFirst c i arg2 harg2 arg3 harg3 arg4 harg4 arg5 harg5 arg6 harg6 arg7 harg7 arg8 harg8 hc0 hc1 x f).1) = (stepF x f initF).1 := by
  unfold runFirst stepF initF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem firstL (g) : arg7.view.read (Elt F) (arg7.view.writes (Elt F) g (runFirst c i arg2 harg2 arg3 harg3 arg4 harg4 arg5 harg5 arg6 harg6 arg7 harg7 arg8 harg8 hc0 hc1 x f).2.1) = (stepF x f initF).2.1 := by
  unfold runFirst stepF initF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem firstA (g) : arg8.view.read (Elt F) (arg8.view.writes (Elt F) g (runFirst c i arg2 harg2 arg3 harg3 arg4 harg4 arg5 harg5 arg6 harg6 arg7 harg7 arg8 harg8 hc0 hc1 x f).2.2.1) = (stepF x f initF).2.2 := by
  unfold runFirst stepF initF
  dsimp only
  try sl_unfold_words
  rw [View.read_writes_eq_canon _ _ _ (fun y => ⟨_, List.Mem.head _, View.mem_set_unit_zero hz2 inb_S2048x128_S2048x128_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

end First

section Last
variable (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : ¬cFirst i) (hc1 : cLast i) (x : Vec F S1x128x512 .f32) (f : Vec F S1x2048x128 .bf16) (m0 l0 : Vec F S1x2048 .f32) (a0 : Vec F S2048x128 .f32)

theorem lastO (g) : arg4.view.read (Elt F) (arg4.view.writes (Elt F) g (runLast c i arg2 harg2 arg3 harg3 arg4 harg4 arg5 harg5 arg6 harg6 arg7 harg7 arg8 harg8 hc0 hc1 x f m0 l0 a0).1) = out2F (stepF x f (m0, l0, a0)) := by
  unfold runLast out2F stepF
  dsimp only
  try sl_unfold_words
  rw [View.read_writes_eq_canon _ _ _ (fun y => ⟨_, List.Mem.head _, View.mem_set_unit_zero hz3 inb_S1x2048x128_S1x2048x128_0_0_0 y⟩), View.canon_cons_unit_zero hz3]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem lastE (g) : arg5.view.read (Elt F) (arg5.view.writes (Elt F) g (runLast c i arg2 harg2 arg3 harg3 arg4 harg4 arg5 harg5 arg6 harg6 arg7 harg7 arg8 harg8 hc0 hc1 x f m0 l0 a0).2.1) = out3F (stepF x f (m0, l0, a0)) := by
  unfold runLast out3F stepF
  dsimp only
  try sl_unfold_words
  rw [View.read_writes_eq_canon _ _ _ (fun y => ⟨_, List.Mem.head _, View.mem_set_unit_zero hz3 inb_S1x1x2048_S1x1x2048_0_0_0 y⟩), View.canon_cons_unit_zero hz3]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem lastM (g) : arg6.view.read (Elt F) (arg6.view.writes (Elt F) g (runLast c i arg2 harg2 arg3 harg3 arg4 harg4 arg5 harg5 arg6 harg6 arg7 harg7 arg8 harg8 hc0 hc1 x f m0 l0 a0).2.2.1) = (stepF x f (m0, l0, a0)).1 := by
  unfold runLast stepF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem lastL (g) : arg7.view.read (Elt F) (arg7.view.writes (Elt F) g (runLast c i arg2 harg2 arg3 harg3 arg4 harg4 arg5 harg5 arg6 harg6 arg7 harg7 arg8 harg8 hc0 hc1 x f m0 l0 a0).2.2.2.1) = (stepF x f (m0, l0, a0)).2.1 := by
  unfold runLast stepF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem lastA (g) : arg8.view.read (Elt F) (arg8.view.writes (Elt F) g (runLast c i arg2 harg2 arg3 harg3 arg4 harg4 arg5 harg5 arg6 harg6 arg7 harg7 arg8 harg8 hc0 hc1 x f m0 l0 a0).2.2.2.2.1) = (stepF x f (m0, l0, a0)).2.2 := by
  unfold runLast stepF
  dsimp only
  try sl_unfold_words
  rw [View.read_writes_eq_canon _ _ _ (fun y => ⟨_, List.Mem.head _, View.mem_set_unit_zero hz2 inb_S2048x128_S2048x128_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

end Last

end Cert.KernelIdeal.Hand

end
-- ==== Proof.K0Dat.lean ====
/-
  The first pallas_call's proof data at a parameter V, the core's buffer contents when the region is entered: each
  input window's block; the running state after each point, by recursion on the point (reset at the first tile of a
  batch); what each result window's buffer holds after a batch's last tile; the region invariant, which keeps the
  three scratch buffers at the state the point before left; and the body obligation at every point.
-/
import proofs.«159953_j57449482551604_2_alg».proof.Proof.K0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The running state after point n: at the first tile of a batch one update of the reset state, otherwise one update
    of the state the point before left. -/
def stAt (c : Dev nD) : (n : ℕ) → n < cfg0.N → St F
  | 0, hn => stepF (iblk0 V c 0 ⟨0, hn⟩) (iblk0 V c 1 ⟨0, hn⟩) initF
  | n + 1, hn =>
    if (n + 1) % 8 = 0 then stepF (iblk0 V c 0 ⟨n + 1, hn⟩) (iblk0 V c 1 ⟨n + 1, hn⟩) initF
    else stepF (iblk0 V c 0 ⟨n + 1, hn⟩) (iblk0 V c 1 ⟨n + 1, hn⟩) (stAt c n (Nat.lt_of_succ_lt hn))

theorem stAt_first (c : Dev nD) (t : Fin cfg0.N) (h : t.val % 8 = 0) :
    stAt V c t.val t.isLt = stepF (iblk0 V c 0 t) (iblk0 V c 1 t) initF := by
  obtain ⟨n, hn⟩ := t
  cases n with
  | zero => rfl
  | succ n => exact if_pos h

theorem stAt_next (c : Dev nD) (t : Fin cfg0.N) (h : ¬t.val % 8 = 0) :
    stAt V c t.val t.isLt = stepF (iblk0 V c 0 t) (iblk0 V c 1 t) (stAt V c (t.val - 1) (Nat.lt_of_le_of_lt (Nat.sub_le _ _) t.isLt)) := by
  obtain ⟨n, hn⟩ := t
  cases n with
  | zero => exact absurd (Nat.zero_mod _) h
  | succ n => exact if_neg h

/-- The scoped buffers of the second pallas_call, which this region leaves alone. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant before position n: before the first point every scratch buffer at anything; afterwards the
    three scratch buffers at the state the point before left; the other scoped buffers and the generator register at
    anything throughout. -/
def PhiS (c : Dev nD) : (n : ℕ) → n ≤ cfg0.N → sProp 𝕄
  | 0, _ => Pipeline.ΦA spec0 c
  | n + 1, hn => iprop(iprop(owns (c : Thread nD τ) scM fullShare (stAt V c n hn).1 ∗ owns (c : Thread nD τ) scL fullShare (stAt V c n hn).2.1 ∗ owns (c : Thread nD τ) scA fullShare (stAt V c n hn).2.2 ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare (stAt V c n hn).1 ∗ owns (c : Thread nD τ) scL fullShare (stAt V c n hn).2.1 ∗ owns (c : Thread nD τ) scA fullShare (stAt V c n hn).2.2 ∗ rest0 c) ∗ (∃ r, prngReg c r)) := rfl
theorem PhiS_pos (c : Dev nD) (n : ℕ) (h : n ≤ cfg0.N) (hz : n ≠ 0) :
    PhiS V c n h = iprop(iprop(owns (c : Thread nD τ) scM fullShare (stAt V c (n - 1) (by omega)).1 ∗ owns (c : Thread nD τ) scL fullShare (stAt V c (n - 1) (by omega)).2.1 ∗ owns (c : Thread nD τ) scA fullShare (stAt V c (n - 1) (by omega)).2.2 ∗ rest0 c) ∗ (∃ r, prngReg c r)) := by
  cases n with
  | zero => exact absurd rfl hz
  | succ n => rfl

/-- The class invariant with the three scratch buffers as memrefs owned at some contents. -/
theorem PhiA0_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d) ∗ rest0 c) ∗ (∃ r, prngReg c r)) := by
  unfold Pipeline.ΦA rest0; rw [scopedRest0_eq]; simp only [scM, scL, scA, owns_whole]; try rfl

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out2F (stAt V c t.val t.isLt)
    | ⟨3, _⟩ => out3F (stAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out2F (stAt V c t.val t.isLt) := by dsimp only [dat0]
theorem after0_3 (c : Dev nD) (t : Fin cfg0.N) : (dat0 V c).after 3 t = out3F (stAt V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

end Region0

end Cert.KernelIdeal.Hand

end
-- ==== Proof.K0Body.lean ====
/-
  The first pallas_call's body obligation: at every point the body, handed the input blocks, the result buffers and
  the invariant's scratch buffers, returns them as the proof data says. Three kinds of point: the first tile of a batch
  (the scratch reset, whatever it held), a middle tile, and the last tile (the results stored and their windows live).
-/
import proofs.«159953_j57449482551604_2_alg».proof.Proof.K0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point t, spelled as the pipeline passes it, and its wholeness. -/
abbrev ms0_0 (t : Fin cfg0.N) : Memref sig .tc .vmem S1x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)

section Region0
variable (V : (c : Dev nD) → (b : Ref sig .tc) → Buf (Elt F) ((c : Thread nD τ).loc b))

/-- At any position the invariant gives the three scratch buffers at SOME contents. -/
theorem PhiS_weaken (c : Dev nD) (n : ℕ) (h : n ≤ cfg0.N) :
    PhiS V c n h ⊢ (iprop(iprop((∃ d, owns (c : Thread nD τ) scM fullShare d) ∗ (∃ d, owns (c : Thread nD τ) scL fullShare d) ∗ (∃ d, owns (c : Thread nD τ) scA fullShare d) ∗ rest0 c) ∗ (∃ r, prngReg c r)) : sProp 𝕄) := by
  cases n with
  | zero => rw [PhiS_zero V c 0 h rfl, PhiA0_eq]
  | succ n =>
    rw [PhiS_succ]
    iintro ⟨⟨HM, HL, HA, Hrest⟩, Hg⟩
    isplitr [Hg]
    · isplitl [HM]; · iexists _; iexact HM
      isplitl [HL]; · iexists _; iexact HL
      isplitl [HA]; · iexists _; iexact HA
      iexact Hrest
    iexact Hg

set_option maxHeartbeats 8000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [PhiS_castSucc V c t]
  have hN : t.val < 32 := lt_of_lt_of_eq t.isLt (show cfg0.N = 32 from N_0)
  by_cases h7 : t.val % 8 = 7
  · have h0 : ¬t.val % 8 = 0 := by omega
    have hz : t.val ≠ 0 := by omega
    have hcF : ¬cFirst (grid0.coords t) := fun h => h0 ((hFirst t).mp h)
    have hcL : cLast (grid0.coords t) := (hLast t).mpr h7
    rw [show (dat0 V c).leavesExact 2 t = owns (c : Thread nD τ) (st0_2 t) fullShare ((dat0 V c).after 2 t) from by
      unfold Dat.leavesExact; rw [live0_2 t hcL], after0_2]
    rw [show (dat0 V c).leavesExact 3 t = owns (c : Thread nD τ) (st0_3 t) fullShare ((dat0 V c).after 3 t) from by
      unfold Dat.leavesExact; rw [live0_3 t hcL], after0_3]
    rw [stAt_next V c t h0, PhiS_pos V c _ _ hz]
    iintro ⟨⟨⟨HM, HL, HA, Hrest⟩, Hg⟩, Ho, ⟨%d0, H0⟩, ⟨%d1, H1⟩, ⟨%d2, H2⟩, ⟨%d3, H3⟩⟩
    iapply ((runLast c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _).2.2.2.2.2 Set.univ _)
    isplitl [H0]; · iexact H0
    isplitl [H1]; · iexact H1
    isplitl [H2]; · iexists _; iexact H2
    isplitl [H3]; · iexists _; iexact H3
    isplitl [HM]; · iexact HM
    isplitl [HL]; · iexact HL
    isplitl [HA]; · iexact HA
    iintro ⟨H0, H1, ⟨%g2, H2⟩, ⟨%g3, H3⟩, ⟨%g6, HM⟩, ⟨%g7, HL⟩, ⟨%g8, HA⟩⟩
    isplitl [HM HL HA Hrest Hg]
    · isplitr [Hg]
      · isplitl [HM]
        · unfold owns; iexists _; isplitr; swap; · iexact HM
          ipureintro; exact lastM c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g6
        isplitl [HL]
        · unfold owns; iexists _; isplitr; swap; · iexact HL
          ipureintro; exact lastL c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g7
        isplitl [HA]
        · unfold owns; iexists _; isplitr; swap; · iexact HA
          ipureintro; exact lastA c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g8
        iexact Hrest
      iexact Hg
    isplitl [Ho]; · iexact Ho
    isplitl [H0]; · iexact H0
    isplitl [H1]; · iexact H1
    isplitl [H2]
    · unfold owns; iexists _; isplitr; swap; · iexact H2
      ipureintro; exact lastO c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g2
    unfold owns; iexists _; isplitr; swap; · iexact H3
    ipureintro; exact lastE c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g3
  · have hcL : ¬cLast (grid0.coords t) := fun h => h7 ((hLast t).mp h)
    rw [Dat.leavesExact_idle (dat0 V c) 2 t (idle0_2 t hcL) (noFlush0_2 t hcL)]
    rw [Dat.leavesExact_idle (dat0 V c) 3 t (idle0_3 t hcL) (noFlush0_3 t hcL)]
    by_cases h0 : t.val % 8 = 0
    · have hcF : cFirst (grid0.coords t) := (hFirst t).mpr h0
      rw [stAt_first V c t h0]
      iintro ⟨HΦ, Ho, ⟨%d0, H0⟩, ⟨%d1, H1⟩, H2, H3⟩
      ihave HΦ' := (PhiS_weaken V c _ _) $$ HΦ
      icases HΦ' with ⟨⟨HM, HL, HA, Hrest⟩, Hg⟩
      iapply ((runFirst c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t)).2.2.2 Set.univ _)
      isplitl [H0]; · iexact H0
      isplitl [H1]; · iexact H1
      isplitl [HM]; · iexact HM
      isplitl [HL]; · iexact HL
      isplitl [HA]; · iexact HA
      iintro ⟨H0, H1, ⟨%g6, HM⟩, ⟨%g7, HL⟩, ⟨%g8, HA⟩⟩
      isplitl [HM HL HA Hrest Hg]
      · isplitr [Hg]
        · isplitl [HM]
          · unfold owns; iexists _; isplitr; swap; · iexact HM
            ipureintro; exact firstM c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) g6
          isplitl [HL]
          · unfold owns; iexists _; isplitr; swap; · iexact HL
            ipureintro; exact firstL c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) g7
          isplitl [HA]
          · unfold owns; iexists _; isplitr; swap; · iexact HA
            ipureintro; exact firstA c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) g8
          iexact Hrest
        iexact Hg
      isplitl [Ho]; · iexact Ho
      isplitl [H0]; · iexact H0
      isplitl [H1]; · iexact H1
      isplitl [H2]; · iexact H2
      iexact H3
    · have hcF : ¬cFirst (grid0.coords t) := fun h => h0 ((hFirst t).mp h)
      have hz : t.val ≠ 0 := fun e => h0 (by rw [e])
      rw [stAt_next V c t h0, PhiS_pos V c _ _ hz]
      iintro ⟨⟨⟨HM, HL, HA, Hrest⟩, Hg⟩, Ho, ⟨%d0, H0⟩, ⟨%d1, H1⟩, H2, H3⟩
      iapply ((runMid c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _).2.2.2 Set.univ _)
      isplitl [H0]; · iexact H0
      isplitl [H1]; · iexact H1
      isplitl [HM]; · iexact HM
      isplitl [HL]; · iexact HL
      isplitl [HA]; · iexact HA
      iintro ⟨H0, H1, ⟨%g6, HM⟩, ⟨%g7, HL⟩, ⟨%g8, HA⟩⟩
      isplitl [HM HL HA Hrest Hg]
      · isplitr [Hg]
        · isplitl [HM]
          · unfold owns; iexists _; isplitr; swap; · iexact HM
            ipureintro; exact midM c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g6
          isplitl [HL]
          · unfold owns; iexists _; isplitr; swap; · iexact HL
            ipureintro; exact midL c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g7
          isplitl [HA]
          · unfold owns; iexists _; isplitr; swap; · iexact HA
            ipureintro; exact midA c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g8
          iexact Hrest
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_weaken V c _ _

end Region0

end Cert.KernelIdeal.Hand

end
-- ==== Proof.K1Run.lean ====
/-
  The second kernel's body run once at any point: from the spatial tile, the text block and the row of
  log-denominators it stores the updated tile whole into the result buffer.
-/
import proofs.«159953_j57449482551604_2_alg».proof.Proof.K0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the spatial tile at x, the text block at f, the log-denominators at e, the result buffer at
    anything — the body runs to its return leaving the inputs as they were and the result buffer with the pieces its
    store wrote, which the run finds. -/
noncomputable def runUpd (c : Dev nD) (i : grid1.Coords) (arg2 : Memref sig .tc .vmem S1x128x512 .f32) (harg2 : arg2.IsWhole) (arg3 : Memref sig .tc .vmem S1x2048x128 .bf16) (harg3 : arg3.IsWhole) (arg4 : Memref sig .tc .vmem S1x1x2048 .f32) (harg4 : arg4.IsWhole) (arg5 : Memref sig .tc .vmem S1x128x512 .f32) (harg5 : arg5.IsWhole)
    (x : Vec F S1x128x512 .f32) (f : Vec F S1x2048x128 .bf16) (e : Vec F S1x1x2048 .f32) :
    { LO : List (View.Piece (Elt F) S1x128x512 .f32) //
      ∀ (E : Set ℕ) (K : PUnit → sProp 𝕄),
        iprop(owns (c : Thread nD τ) arg2 fullShare x ∗ owns (c : Thread nD τ) arg3 fullShare f ∗ owns (c : Thread nD τ) arg4 fullShare e ∗ (∃ d, owns (c : Thread nD τ) arg5 fullShare d)
            ∗ (iprop(owns (c : Thread nD τ) arg2 fullShare x ∗ owns (c : Thread nD τ) arg3 fullShare f ∗ owns (c : Thread nD τ) arg4 fullShare e ∗ (∃ g, arg5.view.loc (c : Thread nD τ) ↦[arg5.view.set]{fullShare} arg5.view.writes (Elt F) g LO)) -∗ K ⟨⟩))
          ⊢ wp frame (wpE (defs₀ (F := F)) Variants.none c none) E (cc1__upd_kernel i arg2 harg2 arg3 harg3 arg4 harg4 arg5 harg5) K } := by
  refine ⟨?_, fun E K => ?run⟩
  case run =>
    simp only [cc1__upd_kernel_eq_skeleton]; unfold cc1__upd_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Hand

end
-- ==== Proof.K1Dat.lean ====
/-
  The second pallas_call's proof data at a parameter V, the core's buffer contents when the region is entered: each
  window's block; what the body leaves in the result window's buffer, the updated tile as one function of the three
  input blocks (the store covers the whole buffer, so the buffer ends at the store's payload); the region invariant,
  which is the class's own (nothing is carried between points); and the body obligation at every point.
-/
import proofs.«159953_j57449482551604_2_alg».proof.Proof.K1Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole rank-3 access are all zero. -/
private theorem zero3 : (![0, 0, 0] : Fin 3 → Nat) = fun _ => 0 := funext fun a => by fin_cases a <;> rfl

section Upd
variable (c : Dev nD) (i : grid1.Coords) (arg2 : Memref sig .tc .vmem S1x128x512 .f32) (harg2 : arg2.IsWhole) (arg3 : Memref sig .tc .vmem S1x2048x128 .bf16) (harg3 : arg3.IsWhole) (arg4 : Memref sig .tc .vmem S1x1x2048 .f32) (harg4 : arg4.IsWhole) (arg5 : Memref sig .tc .vmem S1x128x512 .f32) (harg5 : arg5.IsWhole) (x : Vec F S1x128x512 .f32) (f : Vec F S1x2048x128 .bf16) (e : Vec F S1x1x2048 .f32)

/-- The result buffer after the body, read back whole, is the updated tile. -/
theorem updO (g) : arg5.view.read (Elt F) (arg5.view.writes (Elt F) g (runUpd c i arg2 harg2 arg3 harg3 arg4 harg4 arg5 harg5 x f e).1) = k1_pay1 x f e := by
  unfold runUpd
  dsimp only
  try sl_unfold_words
  rw [View.read_writes_eq_canon _ _ _ (fun y => ⟨_, List.Mem.head _, View.mem_set_unit_zero zero3 inb_S1x128x512_S1x128x512_0_0_0 y⟩), View.canon_cons_unit_zero zero3]
  simp only [View.readAt_eq_ld, harg2.read_unread, harg3.read_unread, harg4.read_unread, View.ld_unit_zero (S := S1x128x512) zero3, View.ld_unit_zero (S := S1x2048x128) zero3, View.ld_unit_zero (S := S1x1x2048) zero3]

end Upd

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: no window is idle at any point, so each buffer is left at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the three input buffers hold their blocks, the result buffer anything; the body's run
    applies, and the result buffer ends at the updated tile of the three blocks. The invariant and the core's debts
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply ((runUpd c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%g, H3⟩⟩
  isplitl [HΦ]; · iexact HΦ
  isplitl [Ho]; · iexact Ho
  isplitl [H0]; · iexact H0
  isplitl [H1]; · iexact H1
  isplitl [H2]; · iexact H2
  unfold owns
  iexists _; isplitr
  swap; · iexact H3
  ipureintro
  exact updO c (grid1.coords t) _ _ _ _ _ _ _ _ (iblk1 V c 0 t) (iblk1 V c 1 t) (iblk1 V c 2 t) g

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Outs.lean ====
/-
  The contents of the core's arrays between the items of the program, with what the two kernels leave put in.

  After the first host stretch the arrays hold V1. The first kernel changes two arrays only, its two results, and
  leaves in them what its write-backs fold to (o2a, o2b); the second kernel starts from those contents (W2g) and
  changes one array, its result (o3). Choosing these three contents for the unknowns of the frame, each kernel's
  arrays end at the next valuation of the frame (its inputs are never written, its results end at the chosen
  contents), and every other array is as the kernel found it.
-/
import proofs.«159953_j57449482551604_2_alg».proof.Proof.K0Dat
import proofs.«159953_j57449482551604_2_alg».proof.Proof.K1Dat
import proofs.«159953_j57449482551604_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays as the first kernel finds them, read at the core's own references. -/
abbrev V1f : (c : Dev nD) → (b : Ref sig .tc) → Buf (Elt F) ((c : Thread nD τ).loc b) := fun c b => V1 m c b

/-- What the first kernel leaves in its first result. -/
def o2a (c : Dev nD) : Buf (Elt F) ((c : Thread nD τ).loc main_v2_0) := (dat0 (V1f m) c).arrAt 2 cfg0.N

/-- What the first kernel leaves in its second result. -/
def o2b (c : Dev nD) : Buf (Elt F) ((c : Thread nD τ).loc main_v2_1) := (dat0 (V1f m) c).arrAt 3 cfg0.N

/-- The arrays as the second kernel finds them: the first kernel's two results put in. -/
abbrev W2g (c : Dev nD) : Valuation τ sig (Elt F) :=
  Function.update (Function.update (V1 m c) main_v2_0 (o2a m c)) main_v2_1 (o2b m c)

/-- The same read at the core's own references. -/
abbrev V2g : (c : Dev nD) → (b : Ref sig .tc) → Buf (Elt F) ((c : Thread nD τ).loc b) := fun c b => W2g m c b

/-- What the second kernel leaves in its result. -/
def o3 (c : Dev nD) : Buf (Elt F) ((c : Thread nD τ).loc main_v3) := (dat1 (V2g m) c).arrAt 3 cfg1.N

/-- The frame's unknowns: at each of the three results what its kernel leaves there, elsewhere the launch contents. -/
def outs : Outs (F := F) := fun _ r c =>
  if h : r = main_v2_0 then h ▸ o2a m c
  else if h : r = main_v2_1 then h ▸ o2b m c
  else if h : r = main_v3 then h ▸ o3 m c
  else m ((c : Thread nD τ).loc r)

theorem outs_v2_0 (c : Dev nD) : outs m 2 main_v2_0 c = o2a m c := by
  unfold outs
  rw [dif_pos rfl]

theorem outs_v2_1 (c : Dev nD) : outs m 2 main_v2_1 c = o2b m c := by
  unfold outs
  rw [dif_neg (by decide), dif_pos rfl]

theorem outs_v3 (c : Dev nD) : outs m 3 main_v3 c = o3 m c := by
  unfold outs
  rw [dif_neg (by decide), dif_neg (by decide), dif_pos rfl]

/-- With these unknowns the frame's valuation after the first kernel is the second kernel's entry valuation. -/
theorem W2g_eq (c : Dev nD) : V2 m (outs m) c = W2g m c := by
  show Function.update (Function.update (V1 m c) main_v2_0 (outs m 2 main_v2_0 c)) main_v2_1 (outs m 2 main_v2_1 c)
    = Function.update (Function.update (V1 m c) main_v2_0 (o2a m c)) main_v2_1 (o2b m c)
  rw [outs_v2_0, outs_v2_1]

theorem V2_eq (c : Dev nD) : (fun b : Ref sig .tc => V2 m (outs m) c b) = V2g m c :=
  funext fun b => congrFun (W2g_eq m c) b

/-- The two results are different arrays. -/
theorem v2_0_ne_v2_1 : (Proc.devRef .tc main_v2_0 : DevRef τ sig) ≠ Proc.devRef .tc main_v2_1 :=
  StableHlo.devRef_ne_of_ne (by decide)

/-- After the first kernel each of its arrays holds what the frame's next valuation says. -/
theorem hF0 (c : Dev nD) : ∀ w : Fin cfg0.W,
    (dat0 (V1f m) c).arrAt w cfg0.N = V2 m (outs m) c (Pipeline.arrRef spec0 w)
  | ⟨0, _⟩ => ((dat0 (V1f m) c).arrAt_in 0 rfl _).trans
      ((A_eq0 (V1f m) c 0).trans (V2_of m (outs m) c main_v0 (by decide)).symm)
  | ⟨1, _⟩ => ((dat0 (V1f m) c).arrAt_in 1 rfl _).trans
      ((A_eq0 (V1f m) c 1).trans (V2_of m (outs m) c main_v1 (by decide)).symm)
  | ⟨2, _⟩ => by
    show o2a m c = V2 m (outs m) c main_v2_0
    rw [W2g_eq, W2g, Function.update_of_ne v2_0_ne_v2_1, Function.update_self]
  | ⟨3, _⟩ => by
    show o2b m c = V2 m (outs m) c main_v2_1
    rw [W2g_eq, W2g, Function.update_self]

/-- and every other array what it held before. -/
theorem hrest0 (c : Dev nD) :
    ∀ b, b ∉ Finset.univ.image (Pipeline.arrRef spec0) → V2 m (outs m) c b = V1 m c b := fun b hb =>
  V2_of m (outs m) c b fun hmem => by
    simp only [List.mem_cons, List.not_mem_nil, or_false] at hmem
    rcases hmem with rfl | rfl
    · exact hb (Finset.mem_image.mpr ⟨2, Finset.mem_univ _, rfl⟩)
    · exact hb (Finset.mem_image.mpr ⟨3, Finset.mem_univ _, rfl⟩)

/-- After the second kernel each of its arrays holds what the frame's next valuation says. -/
theorem hF1 (c : Dev nD) : ∀ w : Fin cfg1.W,
    (dat1 (V2g m) c).arrAt w cfg1.N = V3 m (outs m) c (Pipeline.arrRef spec1 w)
  | ⟨0, _⟩ => ((dat1 (V2g m) c).arrAt_in 0 rfl _).trans
      ((A_eq1 (V2g m) c 0).trans
        ((congrFun (W2g_eq m c) main_v0).symm.trans (V3_of m (outs m) c main_v0 (by decide)).symm))
  | ⟨1, _⟩ => ((dat1 (V2g m) c).arrAt_in 1 rfl _).trans
      ((A_eq1 (V2g m) c 1).trans
        ((congrFun (W2g_eq m c) main_v1).symm.trans (V3_of m (outs m) c main_v1 (by decide)).symm))
  | ⟨2, _⟩ => ((dat1 (V2g m) c).arrAt_in 2 rfl _).trans
      ((A_eq1 (V2g m) c 2).trans
        ((congrFun (W2g_eq m c) main_v2_1).symm.trans (V3_of m (outs m) c main_v2_1 (by decide)).symm))
  | ⟨3, _⟩ => by
    show o3 m c = V3 m (outs m) c main_v3
    rw [V3, Function.update_self, outs_v3]

/-- and every other array what it held before. -/
theorem hrest1 (c : Dev nD) :
    ∀ b, b ∉ Finset.univ.image (Pipeline.arrRef spec1) → V3 m (outs m) c b = V2 m (outs m) c b := fun b hb =>
  V3_of m (outs m) c b fun hmem => by
    simp only [List.mem_cons, List.not_mem_nil, or_false] at hmem
    subst hmem
    exact hb (Finset.mem_image.mpr ⟨3, Finset.mem_univ _, rfl⟩)

/-- The same against the second kernel's own entry valuation. -/
theorem hrest1g (c : Dev nD) :
    ∀ b, b ∉ Finset.univ.image (Pipeline.arrRef spec1) → V3 m (outs m) c b = V2g m c b := fun b hb =>
  (hrest1 m c b hb).trans (congrFun (W2g_eq m c) b)

end Cert.KernelIdeal.Hand

end
-- ==== Proof.Run.lean ====
/-
  The run of the whole program: @main as its four items — the two host operations, the first pallas_call, the second,
  the closing reshape — over the thread state "every unscoped buffer at the contents after the item before, the
  generator register at some state, nothing owed". Every weakly fair execution terminates without a fault, the two
  results end at what the items' contents say, and the arguments end unchanged.
-/
import proofs.«159953_j57449482551604_2_alg».proof.Proof.K0Body
import proofs.«159953_j57449482551604_2_alg».proof.Proof.K1Dat
import proofs.«159953_j57449482551604_2_alg».proof.Proof.Outs
import proofs.«159953_j57449482551604_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both pipelines' proof data, each at its region's entry contents. -/
def pdats : (p : Fin 2) → (c : Dev nD) → Dat τ (Elt F) Unit ℕ (UR sig nD τ) ℕ (cfgs p) c
  | ⟨0, _⟩ => fun c => dat0 (V1f m) c
  | ⟨1, _⟩ => fun c => dat1 (V2g m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the contents before it, left at the contents
    after it; its windows' arrays split out of the unscoped buffers at entry and put back at their final contents at
    exit; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1f m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (V1f m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1f m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V1f m) c)
    unfold Pipeline.ΦA
    iintro ⟨Hp, -, Hr⟩
    isplitl [Hr]; · iexact Hr
    iexact Hp
  hout c := by
    rw [Pipeline.ownSems0_none]
    refine (hout0 (V1f m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1f m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left at the contents
    after it; its windows' arrays split out of the unscoped buffers at entry and put back at their final contents at
    exit; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2g m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (V2g m c)
  hentry c := by
    rw [show V2 m (outs m) c = W2g m c from W2g_eq m c]
    rw [Pipeline.ownSems0_none]
    have hsplit := Pipeline.arrays_of_unscopedBufs (p := 1) (pcfgs (F := F)) adm (pdats m) launch1.win launch1.arr_whole c
      ((pdats m 1 c).share_full fun _ => rfl) (V2g m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2g m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN. From any memory with zero counters every weakly fair execution of @main terminates, nothing faulting, and
    every final memory holds the two results at the contents after the last item and each argument as launched. -/
theorem run_main : θ_run defs (onTc (τ := τ) (main (F := F))) ⟨m, fun _ => 0, ρ⟩ (fun r => ∀ c : Dev nD,
      r.2.mem ((c.tc : Thread nD τ).loc main_v4) = V4 m (outs m) c main_v4
      ∧ r.2.mem ((c.tc : Thread nD τ).loc main_v2_0) = V4 m (outs m) c main_v2_0
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hlast : ∀ c : Dev nD, (iprop(StableHlo.held (c : Thread nD τ) (Pipeline.ucRefs τ sig) (V4 m (outs m) c) ∗ R c) : sProp 𝕄)
      ⊢ iprop((StableHlo.held (c : Thread nD τ) (Pipeline.ucRefs τ sig) (V4 m (outs m) c) ∗ ∃ r, prngReg c r) ∗ ∃ W, owes (c.tc : Thread nD τ) (0 : CellTallies nD τ sig Unit) W) := fun c => by
    iintro ⟨Hh, Hp, HO⟩
    isplitl [Hh Hp]
    · isplitl [Hh]; · iexact Hh
      iexact Hp
    iexact HO
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Pipeline.Seg.run_eq_chain,
        show (segs m (outs m) 𝒱₀ L lv (fun _ => R) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) (O₀ := 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V4 m (outs m) c) ∗ ∃ r, prngReg c r))
    (hch := fun c => ⟨.rfl, .rfl, .rfl, .rfl, hlast c⟩)
    (hinit := ?_) (QY := fun c s => s.mem ((c.tc : Thread nD τ).loc main_v4) = V4 m (outs m) c main_v4
      ∧ s.mem ((c.tc : Thread nD τ).loc main_v2_0) = V4 m (outs m) c main_v2_0
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨Hh, -⟩, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨h (Proc.devRef .tc main_v4) (Finset.mem_filter.mpr ⟨StableHlo.devRef_mem_tcRefs main_v4, by decide⟩),
        h (Proc.devRef .tc main_v2_0) (Finset.mem_filter.mpr ⟨StableHlo.devRef_mem_tcRefs main_v2_0, by decide⟩),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c)⟩
    · iexact HSI

end Cert.KernelIdeal.Hand

end
-- ==== Proof.Kb.K0Conds.lean ====
/-
  The first kernel's two branch conditions as propositions of the grid coordinates, and where on the grid of
  4 batches by 8 tiles (32 points, tile index fastest) they hold: the scratch is reset at the first tile of a
  batch, the two results are stored at its last tile, and only there are their blocks written back.
-/
import proofs.«159953_j57449482551604_2_alg».proof.Proof.Gen.Kernel.Launch
import proofs.«159953_j57449482551604_2_alg».proof.Proof.Gen.Kernel.Skeleton
import proofs.«159953_j57449482551604_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first tile of its batch": the condition under which the running state is reset. -/
abbrev cFirst (i : grid0.Coords) : Prop := (Scalar.cmpi .ne (Scalar.extui (Scalar.cmpi .eq (BitVec.ofNat 32 (i 1).val) 0#32)) 0#32) = 1#1
theorem hFirst : ∀ t : Fin cfg0.N, cFirst (grid0.coords t) ↔ t.val % 8 = 0 :=
  (by decide +kernel : ∀ t : Fin grid0.N, cFirst (grid0.coords t) ↔ t.val % 8 = 0)

/-- "This is the last tile of its batch": the condition under which the two results are stored. -/
abbrev cLast (i : grid0.Coords) : Prop := k0_cond2 i = 1#1
theorem hLast : ∀ t : Fin cfg0.N, cLast (grid0.coords t) ↔ t.val % 8 = 7 :=
  (by decide +kernel : ∀ t : Fin grid0.N, cLast (grid0.coords t) ↔ t.val % 8 = 7)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- Away from a batch's last tile the two result windows are idle and not written back. -/
theorem idle0_2 : ∀ t : Fin cfg0.N, ¬cLast (grid0.coords t) → cfg0.idle 2 (grid0.coords t) = true := by decide +kernel
theorem idle0_3 : ∀ t : Fin cfg0.N, ¬cLast (grid0.coords t) → cfg0.idle 3 (grid0.coords t) = true := by decide +kernel
theorem noFlush0_2 : ∀ t : Fin cfg0.N, ¬cLast (grid0.coords t) → (cfg0.win 2).flush t = false := by decide +kernel
theorem noFlush0_3 : ∀ t : Fin cfg0.N, ¬cLast (grid0.coords t) → (cfg0.win 3).flush t = false := by decide +kernel
/-- At a batch's last tile they are live. -/
theorem live0_2 : ∀ t : Fin cfg0.N, cLast (grid0.coords t) → cfg0.idle 2 (grid0.coords t) = false := by decide +kernel
theorem live0_3 : ∀ t : Fin cfg0.N, cLast (grid0.coords t) → cfg0.idle 3 (grid0.coords t) = false := by decide +kernel

/-- The three scratch buffers as whole memrefs: running maximum, running denominator, running weighted sum. -/
abbrev scM : Memref sig .tc .vmem S1x2048 .f32 := Memref.whole cc0_scratch0
abbrev scL : Memref sig .tc .vmem S1x2048 .f32 := Memref.whole cc0_scratch1
abbrev scA : Memref sig .tc .vmem S2048x128 .f32 := Memref.whole cc0_scratch2

end Cert.Kernel.Hand

end
-- ==== Proof.Kb.K0RunMid.lean ====
/-
  The first kernel's body run once at a tile that is neither the first nor the last of its batch: the running
  maximum, denominator and weighted sum are read from the three scratch buffers and stored back updated; the two
  result buffers are not touched.
-/
import proofs.«159953_j57449482551604_2_alg».proof.Proof.Kb.K0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the spatial tile at x, the text block at f, the three scratch buffers at (m0, l0, a0) — the body
    runs to its return leaving the inputs as they were and each scratch buffer with the pieces its stores wrote
    (last first), which the run finds. -/
noncomputable def runMid (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : ¬cFirst i) (hc1 : ¬cLast i)
    (x : Vec F S1x128x512 .f32) (f : Vec F S1x2048x128 .bf16) (m0 l0 : Vec F S1x2048 .f32) (a0 : Vec F S2048x128 .f32) :
    Σ' (LM : List (View.Piece (Elt F) S1x2048 .f32)) (LL : List (View.Piece (Elt F) S1x2048 .f32)), { LA : List (View.Piece (Elt F) S2048x128 .f32) //
      ∀ (E : Set ℕ) (K : PUnit → sProp 𝕄),
        iprop(owns (c : Thread nD τ) arg2 fullShare x ∗ owns (c : Thread nD τ) arg3 fullShare f ∗ owns (c : Thread nD τ) arg6 fullShare m0 ∗ owns (c : Thread nD τ) arg7 fullShare l0 ∗ owns (c : Thread nD τ) arg8 fullShare a0
            ∗ (iprop(owns (c : Thread nD τ) arg2 fullShare x ∗ owns (c : Thread nD τ) arg3 fullShare f ∗ (∃ g, arg6.view.loc (c : Thread nD τ) ↦[arg6.view.set]{fullShare} arg6.view.writes (Elt F) g LM) ∗ (∃ g, arg7.view.loc (c : Thread nD τ) ↦[arg7.view.set]{fullShare} arg7.view.writes (Elt F) g LL) ∗ (∃ g, arg8.view.loc (c : Thread nD τ) ↦[arg8.view.set]{fullShare} arg8.view.writes (Elt F) g LA)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%f6, %hf6, H6⟩, ⟨%f7, %hf7, H7⟩, ⟨%f8, %hf8, H8⟩, Hk⟩
    obtain rfl := harg2.eq_unread hf2; obtain rfl := harg3.eq_unread hf3; obtain rfl := harg6.eq_unread hf6
    obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H6]; · iexists _; iexact H6
    isplitl [H7]; · iexists _; iexact H7
    iexists _; iexact H8

end Cert.Kernel.Hand

end
-- ==== Proof.Kb.K0RunFirst.lean ====
/-
  The first kernel's body run once at the first tile of a batch: the three scratch buffers, whatever they hold, are
  reset (minus infinity, zero, zero) and then updated by the tile; the two result buffers are not touched.
-/
import proofs.«159953_j57449482551604_2_alg».proof.Proof.Kb.K0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the spatial tile at x, the text block at f, the three scratch buffers at anything — the body runs
    to its return leaving the inputs as they were and each scratch buffer with the pieces its stores wrote (last first),
    which the run finds. -/
noncomputable def runFirst (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : cFirst i) (hc1 : ¬cLast i)
    (x : Vec F S1x128x512 .f32) (f : Vec F S1x2048x128 .bf16) :
    Σ' (LM : List (View.Piece (Elt F) S1x2048 .f32)) (LL : List (View.Piece (Elt F) S1x2048 .f32)), { LA : List (View.Piece (Elt F) S2048x128 .f32) //
      ∀ (E : Set ℕ) (K : PUnit → sProp 𝕄),
        iprop(owns (c : Thread nD τ) arg2 fullShare x ∗ owns (c : Thread nD τ) arg3 fullShare f ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x ∗ owns (c : Thread nD τ) arg3 fullShare f ∗ (∃ g, arg6.view.loc (c : Thread nD τ) ↦[arg6.view.set]{fullShare} arg6.view.writes (Elt F) g LM) ∗ (∃ g, arg7.view.loc (c : Thread nD τ) ↦[arg7.view.set]{fullShare} arg7.view.writes (Elt F) g LL) ∗ (∃ g, arg8.view.loc (c : Thread nD τ) ↦[arg8.view.set]{fullShare} arg8.view.writes (Elt F) g LA)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%d6, %f6, -, H6⟩, ⟨%d7, %f7, -, H7⟩, ⟨%d8, %f8, -, H8⟩, Hk⟩
    obtain rfl := harg2.eq_unread hf2; obtain rfl := harg3.eq_unread hf3
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H6]; · iexists _; iexact H6
    isplitl [H7]; · iexists _; iexact H7
    iexists _; iexact H8

end Cert.Kernel.Hand

end
-- ==== Proof.Kb.K0RunLast.lean ====
/-
  The first kernel's body run once at the last tile of a batch: the running state is read from the three scratch
  buffers and stored back updated, and then the two results are stored whole into their buffers: the weighted sum
  over the denominator, and the maximum plus the logarithm of the denominator.
-/
import proofs.«159953_j57449482551604_2_alg».proof.Proof.Kb.K0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the spatial tile at x, the text block at f, the two result buffers at anything, the three
    scratch buffers at (m0, l0, a0) — the body runs to its return leaving the inputs as they were and each other buffer
    with the pieces its stores wrote (last first), which the run finds. -/
noncomputable def runLast (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : ¬cFirst i) (hc1 : cLast i)
    (x : Vec F S1x128x512 .f32) (f : Vec F S1x2048x128 .bf16) (m0 l0 : Vec F S1x2048 .f32) (a0 : Vec F S2048x128 .f32) :
    Σ' (LO : List (View.Piece (Elt F) S1x2048x128 .f32)) (LE : List (View.Piece (Elt F) S1x1x2048 .f32)) (LM : List (View.Piece (Elt F) S1x2048 .f32)) (LL : List (View.Piece (Elt F) S1x2048 .f32)), { LA : List (View.Piece (Elt F) S2048x128 .f32) //
      ∀ (E : Set ℕ) (K : PUnit → sProp 𝕄),
        iprop(owns (c : Thread nD τ) arg2 fullShare x ∗ owns (c : Thread nD τ) arg3 fullShare f ∗ (∃ d, owns (c : Thread nD τ) arg4 fullShare d) ∗ (∃ d, owns (c : Thread nD τ) arg5 fullShare d) ∗ owns (c : Thread nD τ) arg6 fullShare m0 ∗ owns (c : Thread nD τ) arg7 fullShare l0 ∗ owns (c : Thread nD τ) arg8 fullShare a0
            ∗ (iprop(owns (c : Thread nD τ) arg2 fullShare x ∗ owns (c : Thread nD τ) arg3 fullShare f ∗ (∃ g, arg4.view.loc (c : Thread nD τ) ↦[arg4.view.set]{fullShare} arg4.view.writes (Elt F) g LO) ∗ (∃ g, arg5.view.loc (c : Thread nD τ) ↦[arg5.view.set]{fullShare} arg5.view.writes (Elt F) g LE) ∗ (∃ g, arg6.view.loc (c : Thread nD τ) ↦[arg6.view.set]{fullShare} arg6.view.writes (Elt F) g LM) ∗ (∃ g, arg7.view.loc (c : Thread nD τ) ↦[arg7.view.set]{fullShare} arg7.view.writes (Elt F) g LL) ∗ (∃ g, arg8.view.loc (c : Thread nD τ) ↦[arg8.view.set]{fullShare} arg8.view.writes (Elt F) g LA)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
    obtain rfl := harg2.eq_unread hf2; obtain rfl := harg3.eq_unread hf3; obtain rfl := harg6.eq_unread hf6
    obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.Kernel.Hand

end
-- ==== Proof.Kb.K0Pieces.lean ====
/-
  What the first kernel's body leaves in each buffer it stores into, read back whole: every store of this body
  covers its whole buffer, so a buffer ends at its last store's payload, and a load after a store reads that store's
  payload. The running state after a tile is therefore one function (stepF) of the tile, the text block and the
  state before; the two results are functions (out2F, out3F) of the state after the batch's last tile.
-/
import proofs.«159953_j57449482551604_2_alg».proof.Proof.Kb.K0RunMid
import proofs.«159953_j57449482551604_2_alg».proof.Proof.Kb.K0RunFirst
import proofs.«159953_j57449482551604_2_alg».proof.Proof.Kb.K0RunLast
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The running state: maximum [1,2048], denominator [1,2048], weighted sum [2048,128]. -/
abbrev St (F : FTy → Type) [FloatOps F] : Type := Vec F S1x2048 .f32 × Vec F S1x2048 .f32 × Vec F S2048x128 .f32

/-- The state a batch starts from: minus infinity, zero, zero. -/
def initF : St F := (k0_pay5 (F := F), k0_pay6 (F := F), k0_pay7 (F := F))

/-- One tile's update of the state. -/
def stepF (x : Vec F S1x128x512 .f32) (f : Vec F S1x2048x128 .bf16) (s : St F) : St F :=
  (k0_pay2 (k0_pay10 x f s.1), k0_pay13 x f s.1 s.1 s.2.1, k0_pay1 (k0_pay14 x f s.1) (k0_pay15 x f s.1 s.1) s.2.2)

/-- The first result's block from the state after the last tile: the weighted sum over the denominator. -/
def out2F (s : St F) : Vec F S1x2048x128 .f32 := k0_pay3 s.2.1 s.2.2
/-- The second result's block: the maximum plus the logarithm of the denominator. -/
def out3F (s : St F) : Vec F S1x1x2048 .f32 := k0_pay4 s.1 s.2.1

section Mid
variable (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : ¬cFirst i) (hc1 : ¬cLast i) (x : Vec F S1x128x512 .f32) (f : Vec F S1x2048x128 .bf16) (m0 l0 : Vec F S1x2048 .f32) (a0 : Vec F S2048x128 .f32)

theorem midM (g) : arg6.view.read (Elt F) (arg6.view.writes (Elt F) g (runMid c i arg2 harg2 arg3 harg3 arg4 harg4 arg5 harg5 arg6 harg6 arg7 harg7 arg8 harg8 hc0 hc1 x f m0 l0 a0).1) = (stepF x f (m0, l0, a0)).1 := by
  unfold runMid stepF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2]

theorem midL (g) : arg7.view.read (Elt F) (arg7.view.writes (Elt F) g (runMid c i arg2 harg2 arg3 harg3 arg4 harg4 arg5 harg5 arg6 harg6 arg7 harg7 arg8 harg8 hc0 hc1 x f m0 l0 a0).2.1) = (stepF x f (m0, l0, a0)).2.1 := by
  unfold runMid stepF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2]

theorem midA (g) : arg8.view.read (Elt F) (arg8.view.writes (Elt F) g (runMid c i arg2 harg2 arg3 harg3 arg4 harg4 arg5 harg5 arg6 harg6 arg7 harg7 arg8 harg8 hc0 hc1 x f m0 l0 a0).2.2.1) = (stepF x f (m0, l0, a0)).2.2 := by
  unfold runMid stepF
  dsimp only
  try sl_unfold_words
  rw [View.read_writes_eq_canon _ _ _ (fun y => ⟨_, List.Mem.head _, View.mem_set_unit_zero hz2 inb_S2048x128_S2048x128_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2]

end Mid

section First
variable (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : cFirst i) (hc1 : ¬cLast i) (x : Vec F S1x128x512 .f32) (f : Vec F S1x2048x128 .bf16)

theorem firstM (g) : arg6.view.read (Elt F) (arg6.view.writes (Elt F) g (runFirst c i arg2 harg2 arg3 harg3 arg4 harg4 arg5 harg5 arg6 harg6 arg7 harg7 arg8 harg8 hc0 hc1 x f).1) = (stepF x f initF).1 := by
  unfold runFirst stepF initF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem firstL (g) : arg7.view.read (Elt F) (arg7.view.writes (Elt F) g (runFirst c i arg2 harg2 arg3 harg3 arg4 harg4 arg5 harg5 arg6 harg6 arg7 harg7 arg8 harg8 hc0 hc1 x f).2.1) = (stepF x f initF).2.1 := by
  unfold runFirst stepF initF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem firstA (g) : arg8.view.read (Elt F) (arg8.view.writes (Elt F) g (runFirst c i arg2 harg2 arg3 harg3 arg4 harg4 arg5 harg5 arg6 harg6 arg7 harg7 arg8 harg8 hc0 hc1 x f).2.2.1) = (stepF x f initF).2.2 := by
  unfold runFirst stepF initF
  dsimp only
  try sl_unfold_words
  rw [View.read_writes_eq_canon _ _ _ (fun y => ⟨_, List.Mem.head _, View.mem_set_unit_zero hz2 inb_S2048x128_S2048x128_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

end First

section Last
variable (c : Dev nD) (i : grid0.Coords) (arg2 : Memref sig .tc .vmem S1x128x512 .f32) (harg2 : arg2.IsWhole) (arg3 : Memref sig .tc .vmem S1x2048x128 .bf16) (harg3 : arg3.IsWhole) (arg4 : Memref sig .tc .vmem S1x2048x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole) (hc0 : ¬cFirst i) (hc1 : cLast i) (x : Vec F S1x128x512 .f32) (f : Vec F S1x2048x128 .bf16) (m0 l0 : Vec F S1x2048 .f32) (a0 : Vec F S2048x128 .f32)

theorem lastO (g) : arg4.view.read (Elt F) (arg4.view.writes (Elt F) g (runLast c i arg2 harg2 arg3 harg3 arg4 harg4 arg5 harg5 arg6 harg6 arg7 harg7 arg8 harg8 hc0 hc1 x f m0 l0 a0).1) = out2F (stepF x f (m0, l0, a0)) := by
  unfold runLast out2F stepF
  dsimp only
  try sl_unfold_words
  rw [View.read_writes_eq_canon _ _ _ (fun y => ⟨_, List.Mem.head _, View.mem_set_unit_zero hz3 inb_S1x2048x128_S1x2048x128_0_0_0 y⟩), View.canon_cons_unit_zero hz3]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem lastE (g) : arg5.view.read (Elt F) (arg5.view.writes (Elt F) g (runLast c i arg2 harg2 arg3 harg3 arg4 harg4 arg5 harg5 arg6 harg6 arg7 harg7 arg8 harg8 hc0 hc1 x f m0 l0 a0).2.1) = out3F (stepF x f (m0, l0, a0)) := by
  unfold runLast out3F stepF
  dsimp only
  try sl_unfold_words
  rw [View.read_writes_eq_canon _ _ _ (fun y => ⟨_, List.Mem.head _, View.mem_set_unit_zero hz3 inb_S1x1x2048_S1x1x2048_0_0_0 y⟩), View.canon_cons_unit_zero hz3]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem lastM (g) : arg6.view.read (Elt F) (arg6.view.writes (Elt F) g (runLast c i arg2 harg2 arg3 harg3 arg4 harg4 arg5 harg5 arg6 harg6 arg7 harg7 arg8 harg8 hc0 hc1 x f m0 l0 a0).2.2.1) = (stepF x f (m0, l0, a0)).1 := by
  unfold runLast stepF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem lastL (g) : arg7.view.read (Elt F) (arg7.view.writes (Elt F) g (runLast c i arg2 harg2 arg3 harg3 arg4 harg4 arg5 harg5 arg6 harg6 arg7 harg7 arg8 harg8 hc0 hc1 x f m0 l0 a0).2.2.2.1) = (stepF x f (m0, l0, a0)).2.1 := by
  unfold runLast stepF
  dsimp only
  try sl_unfold_words
  rw [View.read_writes_eq_canon _ _ _ (fun y => ⟨_, List.Mem.head _, View.mem_set_unit_zero hz2 inb_S1x2048_S1x2048_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

theorem lastA (g) : arg8.view.read (Elt F) (arg8.view.writes (Elt F) g (runLast c i arg2 harg2 arg3 harg3 arg4 harg4 arg5 harg5 arg6 harg6 arg7 harg7 arg8 harg8 hc0 hc1 x f m0 l0 a0).2.2.2.2.1) = (stepF x f (m0, l0, a0)).2.2 := by
  unfold runLast stepF
  dsimp only
  try sl_unfold_words
  rw [View.read_writes_eq_canon _ _ _ (fun y => ⟨_, List.Mem.head _, View.mem_set_unit_zero hz2 inb_S2048x128_S2048x128_0_0 y⟩), View.canon_cons_unit_zero hz2]
  simp only [View.readAt_eq_ld, harg2.read_unread, harg3.read_unread, harg6.read_unread, harg7.read_unread, harg8.read_unread, View.ld_unit_zero (S := S1x128x512) hz3, View.ld_unit_zero (S := S1x2048x128) hz3, View.ld_unit_zero (S := S1x2048) hz2, View.ld_unit_zero (S := S2048x128) hz2, View.readCov_unit_zero (S := S1x2048) _ hz2, View.readCov_unit_zero (S := S2048x128) _ hz2]

end Last

end Cert.Kernel.Hand

end
-- ==== Proof.Kb.K0Dat.lean ====
/-
  The first pallas_call's proof data at a parameter V, the core's buffer contents when the region is entered: each
  input window's block; the running state after each point, by recursion on the point (reset at the first tile of a
  batch); what each result window's buffer holds after a batch's last tile; the region invariant, which keeps the
  three scratch buffers at the state the point before left; and the body obligation at every point.
-/
import proofs.«159953_j57449482551604_2_alg».proof.Proof.Kb.K0Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The running state after point n: at the first tile of a batch one update of the reset state, otherwise one update
    of the state the point before left. -/
def stAt (c : Dev nD) : (n : ℕ) → n < cfg0.N → St F
  | 0, hn => stepF (iblk0 V c 0 ⟨0, hn⟩) (iblk0 V c 1 ⟨0, hn⟩) initF
  | n + 1, hn =>
    if (n + 1) % 8 = 0 then stepF (iblk0 V c 0 ⟨n + 1, hn⟩) (iblk0 V c 1 ⟨n + 1, hn⟩) initF
    else stepF (iblk0 V c 0 ⟨n + 1, hn⟩) (iblk0 V c 1 ⟨n + 1, hn⟩) (stAt c n (Nat.lt_of_succ_lt hn))

theorem stAt_first (c : Dev nD) (t : Fin cfg0.N) (h : t.val % 8 = 0) :
    stAt V c t.val t.isLt = stepF (iblk0 V c 0 t) (iblk0 V c 1 t) initF := by
  obtain ⟨n, hn⟩ := t
  cases n with
  | zero => rfl
  | succ n => exact if_pos h

theorem stAt_next (c : Dev nD) (t : Fin cfg0.N) (h : ¬t.val % 8 = 0) :
    stAt V c t.val t.isLt = stepF (iblk0 V c 0 t) (iblk0 V c 1 t) (stAt V c (t.val - 1) (Nat.lt_of_le_of_lt (Nat.sub_le _ _) t.isLt)) := by
  obtain ⟨n, hn⟩ := t
  cases n with
  | zero => exact absurd (Nat.zero_mod _) h
  | succ n => exact if_neg h

/-- The scoped buffers of the second pallas_call, which this region leaves alone. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region invariant before position n: before the first point every scratch buffer at anything; afterwards the
    three scratch buffers at the state the point before left; the other scoped buffers and the generator register at
    anything throughout. -/
def PhiS (c : Dev nD) : (n : ℕ) → n ≤ cfg0.N → sProp 𝕄
  | 0, _ => Pipeline.ΦA spec0 c
  | n + 1, hn => iprop(iprop(owns (c : Thread nD τ) scM fullShare (stAt V c n hn).1 ∗ owns (c : Thread nD τ) scL fullShare (stAt V c n hn).2.1 ∗ owns (c : Thread nD τ) scA fullShare (stAt V c n hn).2.2 ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare (stAt V c n hn).1 ∗ owns (c : Thread nD τ) scL fullShare (stAt V c n hn).2.1 ∗ owns (c : Thread nD τ) scA fullShare (stAt V c n hn).2.2 ∗ rest0 c) ∗ (∃ r, prngReg c r)) := rfl
theorem PhiS_pos (c : Dev nD) (n : ℕ) (h : n ≤ cfg0.N) (hz : n ≠ 0) :
    PhiS V c n h = iprop(iprop(owns (c : Thread nD τ) scM fullShare (stAt V c (n - 1) (by omega)).1 ∗ owns (c : Thread nD τ) scL fullShare (stAt V c (n - 1) (by omega)).2.1 ∗ owns (c : Thread nD τ) scA fullShare (stAt V c (n - 1) (by omega)).2.2 ∗ rest0 c) ∗ (∃ r, prngReg c r)) := by
  cases n with
  | zero => exact absurd rfl hz
  | succ n => rfl

/-- The class invariant with the three scratch buffers as memrefs owned at some contents. -/
theorem PhiA0_eq (c : Dev nD) :
    (Pipeline.ΦA spec0 c : sProp 𝕄)
      = iprop(iprop((∃ d, owns (c : Thread nD τ) scM fullShare d) ∗ (∃ d, owns (c : Thread nD τ) scL fullShare d) ∗ (∃ d, owns (c : Thread nD τ) scA fullShare d) ∗ rest0 c) ∗ (∃ r, prngReg c r)) := by
  unfold Pipeline.ΦA rest0; rw [scopedRest0_eq]; simp only [scM, scL, scA, owns_whole]; try rfl

/-- The proof data of the first pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out2F (stAt V c t.val t.isLt)
    | ⟨3, _⟩ => out3F (stAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out2F (stAt V c t.val t.isLt) := by dsimp only [dat0]
theorem after0_3 (c : Dev nD) (t : Fin cfg0.N) : (dat0 V c).after 3 t = out3F (stAt V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

end Region0

end Cert.Kernel.Hand

end
-- ==== Proof.Kb.K0Body.lean ====
/-
  The first pallas_call's body obligation: at every point the body, handed the input blocks, the result buffers and
  the invariant's scratch buffers, returns them as the proof data says. Three kinds of point: the first tile of a batch
  (the scratch reset, whatever it held), a middle tile, and the last tile (the results stored and their windows live).
-/
import proofs.«159953_j57449482551604_2_alg».proof.Proof.Kb.K0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point t, spelled as the pipeline passes it, and its wholeness. -/
abbrev ms0_0 (t : Fin cfg0.N) : Memref sig .tc .vmem S1x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)

section Region0
variable (V : (c : Dev nD) → (b : Ref sig .tc) → Buf (Elt F) ((c : Thread nD τ).loc b))

/-- At any position the invariant gives the three scratch buffers at SOME contents. -/
theorem PhiS_weaken (c : Dev nD) (n : ℕ) (h : n ≤ cfg0.N) :
    PhiS V c n h ⊢ (iprop(iprop((∃ d, owns (c : Thread nD τ) scM fullShare d) ∗ (∃ d, owns (c : Thread nD τ) scL fullShare d) ∗ (∃ d, owns (c : Thread nD τ) scA fullShare d) ∗ rest0 c) ∗ (∃ r, prngReg c r)) : sProp 𝕄) := by
  cases n with
  | zero => rw [PhiS_zero V c 0 h rfl, PhiA0_eq]
  | succ n =>
    rw [PhiS_succ]
    iintro ⟨⟨HM, HL, HA, Hrest⟩, Hg⟩
    isplitr [Hg]
    · isplitl [HM]; · iexists _; iexact HM
      isplitl [HL]; · iexists _; iexact HL
      isplitl [HA]; · iexists _; iexact HA
      iexact Hrest
    iexact Hg

set_option maxHeartbeats 8000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [PhiS_castSucc V c t]
  have hN : t.val < 32 := lt_of_lt_of_eq t.isLt (show cfg0.N = 32 from N_0)
  by_cases h7 : t.val % 8 = 7
  · have h0 : ¬t.val % 8 = 0 := by omega
    have hz : t.val ≠ 0 := by omega
    have hcF : ¬cFirst (grid0.coords t) := fun h => h0 ((hFirst t).mp h)
    have hcL : cLast (grid0.coords t) := (hLast t).mpr h7
    rw [show (dat0 V c).leavesExact 2 t = owns (c : Thread nD τ) (st0_2 t) fullShare ((dat0 V c).after 2 t) from by
      unfold Dat.leavesExact; rw [live0_2 t hcL], after0_2]
    rw [show (dat0 V c).leavesExact 3 t = owns (c : Thread nD τ) (st0_3 t) fullShare ((dat0 V c).after 3 t) from by
      unfold Dat.leavesExact; rw [live0_3 t hcL], after0_3]
    rw [stAt_next V c t h0, PhiS_pos V c _ _ hz]
    iintro ⟨⟨⟨HM, HL, HA, Hrest⟩, Hg⟩, Ho, ⟨%d0, H0⟩, ⟨%d1, H1⟩, ⟨%d2, H2⟩, ⟨%d3, H3⟩⟩
    iapply ((runLast c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _).2.2.2.2.2 Set.univ _)
    isplitl [H0]; · iexact H0
    isplitl [H1]; · iexact H1
    isplitl [H2]; · iexists _; iexact H2
    isplitl [H3]; · iexists _; iexact H3
    isplitl [HM]; · iexact HM
    isplitl [HL]; · iexact HL
    isplitl [HA]; · iexact HA
    iintro ⟨H0, H1, ⟨%g2, H2⟩, ⟨%g3, H3⟩, ⟨%g6, HM⟩, ⟨%g7, HL⟩, ⟨%g8, HA⟩⟩
    isplitl [HM HL HA Hrest Hg]
    · isplitr [Hg]
      · isplitl [HM]
        · unfold owns; iexists _; isplitr; swap; · iexact HM
          ipureintro; exact lastM c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g6
        isplitl [HL]
        · unfold owns; iexists _; isplitr; swap; · iexact HL
          ipureintro; exact lastL c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g7
        isplitl [HA]
        · unfold owns; iexists _; isplitr; swap; · iexact HA
          ipureintro; exact lastA c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g8
        iexact Hrest
      iexact Hg
    isplitl [Ho]; · iexact Ho
    isplitl [H0]; · iexact H0
    isplitl [H1]; · iexact H1
    isplitl [H2]
    · unfold owns; iexists _; isplitr; swap; · iexact H2
      ipureintro; exact lastO c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g2
    unfold owns; iexists _; isplitr; swap; · iexact H3
    ipureintro; exact lastE c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g3
  · have hcL : ¬cLast (grid0.coords t) := fun h => h7 ((hLast t).mp h)
    rw [Dat.leavesExact_idle (dat0 V c) 2 t (idle0_2 t hcL) (noFlush0_2 t hcL)]
    rw [Dat.leavesExact_idle (dat0 V c) 3 t (idle0_3 t hcL) (noFlush0_3 t hcL)]
    by_cases h0 : t.val % 8 = 0
    · have hcF : cFirst (grid0.coords t) := (hFirst t).mpr h0
      rw [stAt_first V c t h0]
      iintro ⟨HΦ, Ho, ⟨%d0, H0⟩, ⟨%d1, H1⟩, H2, H3⟩
      ihave HΦ' := (PhiS_weaken V c _ _) $$ HΦ
      icases HΦ' with ⟨⟨HM, HL, HA, Hrest⟩, Hg⟩
      iapply ((runFirst c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t)).2.2.2 Set.univ _)
      isplitl [H0]; · iexact H0
      isplitl [H1]; · iexact H1
      isplitl [HM]; · iexact HM
      isplitl [HL]; · iexact HL
      isplitl [HA]; · iexact HA
      iintro ⟨H0, H1, ⟨%g6, HM⟩, ⟨%g7, HL⟩, ⟨%g8, HA⟩⟩
      isplitl [HM HL HA Hrest Hg]
      · isplitr [Hg]
        · isplitl [HM]
          · unfold owns; iexists _; isplitr; swap; · iexact HM
            ipureintro; exact firstM c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) g6
          isplitl [HL]
          · unfold owns; iexists _; isplitr; swap; · iexact HL
            ipureintro; exact firstL c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) g7
          isplitl [HA]
          · unfold owns; iexists _; isplitr; swap; · iexact HA
            ipureintro; exact firstA c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) g8
          iexact Hrest
        iexact Hg
      isplitl [Ho]; · iexact Ho
      isplitl [H0]; · iexact H0
      isplitl [H1]; · iexact H1
      isplitl [H2]; · iexact H2
      iexact H3
    · have hcF : ¬cFirst (grid0.coords t) := fun h => h0 ((hFirst t).mp h)
      have hz : t.val ≠ 0 := fun e => h0 (by rw [e])
      rw [stAt_next V c t h0, PhiS_pos V c _ _ hz]
      iintro ⟨⟨⟨HM, HL, HA, Hrest⟩, Hg⟩, Ho, ⟨%d0, H0⟩, ⟨%d1, H1⟩, H2, H3⟩
      iapply ((runMid c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _).2.2.2 Set.univ _)
      isplitl [H0]; · iexact H0
      isplitl [H1]; · iexact H1
      isplitl [HM]; · iexact HM
      isplitl [HL]; · iexact HL
      isplitl [HA]; · iexact HA
      iintro ⟨H0, H1, ⟨%g6, HM⟩, ⟨%g7, HL⟩, ⟨%g8, HA⟩⟩
      isplitl [HM HL HA Hrest Hg]
      · isplitr [Hg]
        · isplitl [HM]
          · unfold owns; iexists _; isplitr; swap; · iexact HM
            ipureintro; exact midM c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g6
          isplitl [HL]
          · unfold owns; iexists _; isplitr; swap; · iexact HL
            ipureintro; exact midL c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g7
          isplitl [HA]
          · unfold owns; iexists _; isplitr; swap; · iexact HA
            ipureintro; exact midA c (grid0.coords t) (ms0_0 t) (hs0_0 t) (ms0_1 t) (hs0_1 t) (ms0_2 t) (hs0_2 t) (ms0_3 t) (hs0_3 t) scM (Memref.isWhole_whole _) scL (Memref.isWhole_whole _) scA (Memref.isWhole_whole _) hcF hcL (iblk0 V c 0 t) (iblk0 V c 1 t) _ _ _ g8
          iexact Hrest
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_weaken V c _ _

end Region0

end Cert.Kernel.Hand

end
-- ==== Proof.Kb.K1Run.lean ====
/-
  The second kernel's body run once at any point: from the spatial tile, the text block and the row of
  log-denominators it stores the updated tile whole into the result buffer.
-/
import proofs.«159953_j57449482551604_2_alg».proof.Proof.Kb.K0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the spatial tile at x, the text block at f, the log-denominators at e, the result buffer at
    anything — the body runs to its return leaving the inputs as they were and the result buffer with the pieces its
    store wrote, which the run finds. -/
noncomputable def runUpd (c : Dev nD) (i : grid1.Coords) (arg2 : Memref sig .tc .vmem S1x128x512 .f32) (harg2 : arg2.IsWhole) (arg3 : Memref sig .tc .vmem S1x2048x128 .bf16) (harg3 : arg3.IsWhole) (arg4 : Memref sig .tc .vmem S1x1x2048 .f32) (harg4 : arg4.IsWhole) (arg5 : Memref sig .tc .vmem S1x128x512 .f32) (harg5 : arg5.IsWhole)
    (x : Vec F S1x128x512 .f32) (f : Vec F S1x2048x128 .bf16) (e : Vec F S1x1x2048 .f32) :
    { LO : List (View.Piece (Elt F) S1x128x512 .f32) //
      ∀ (E : Set ℕ) (K : PUnit → sProp 𝕄),
        iprop(owns (c : Thread nD τ) arg2 fullShare x ∗ owns (c : Thread nD τ) arg3 fullShare f ∗ owns (c : Thread nD τ) arg4 fullShare e ∗ (∃ d, owns (c : Thread nD τ) arg5 fullShare d)
            ∗ (iprop(owns (c : Thread nD τ) arg2 fullShare x ∗ owns (c : Thread nD τ) arg3 fullShare f ∗ owns (c : Thread nD τ) arg4 fullShare e ∗ (∃ g, arg5.view.loc (c : Thread nD τ) ↦[arg5.view.set]{fullShare} arg5.view.writes (Elt F) g LO)) -∗ K ⟨⟩))
          ⊢ wp frame (wpE (defs₀ (F := F)) Variants.none c none) E (cc1__upd_kernel i arg2 harg2 arg3 harg3 arg4 harg4 arg5 harg5) K } := by
  refine ⟨?_, fun E K => ?run⟩
  case run =>
    simp only [cc1__upd_kernel_eq_skeleton]; unfold cc1__upd_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Hand

end
-- ==== Proof.Kb.K1Dat.lean ====
/-
  The second pallas_call's proof data at a parameter V, the core's buffer contents when the region is entered: each
  window's block; what the body leaves in the result window's buffer, the updated tile as one function of the three
  input blocks (the store covers the whole buffer, so the buffer ends at the store's payload); the region invariant,
  which is the class's own (nothing is carried between points); and the body obligation at every point.
-/
import proofs.«159953_j57449482551604_2_alg».proof.Proof.Kb.K1Run
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole rank-3 access are all zero. -/
private theorem zero3 : (![0, 0, 0] : Fin 3 → Nat) = fun _ => 0 := funext fun a => by fin_cases a <;> rfl

section Upd
variable (c : Dev nD) (i : grid1.Coords) (arg2 : Memref sig .tc .vmem S1x128x512 .f32) (harg2 : arg2.IsWhole) (arg3 : Memref sig .tc .vmem S1x2048x128 .bf16) (harg3 : arg3.IsWhole) (arg4 : Memref sig .tc .vmem S1x1x2048 .f32) (harg4 : arg4.IsWhole) (arg5 : Memref sig .tc .vmem S1x128x512 .f32) (harg5 : arg5.IsWhole) (x : Vec F S1x128x512 .f32) (f : Vec F S1x2048x128 .bf16) (e : Vec F S1x1x2048 .f32)

/-- The result buffer after the body, read back whole, is the updated tile. -/
theorem updO (g) : arg5.view.read (Elt F) (arg5.view.writes (Elt F) g (runUpd c i arg2 harg2 arg3 harg3 arg4 harg4 arg5 harg5 x f e).1) = k1_pay1 x f e := by
  unfold runUpd
  dsimp only
  try sl_unfold_words
  rw [View.read_writes_eq_canon _ _ _ (fun y => ⟨_, List.Mem.head _, View.mem_set_unit_zero zero3 inb_S1x128x512_S1x128x512_0_0_0 y⟩), View.canon_cons_unit_zero zero3]
  simp only [View.readAt_eq_ld, harg2.read_unread, harg3.read_unread, harg4.read_unread, View.ld_unit_zero (S := S1x128x512) zero3, View.ld_unit_zero (S := S1x2048x128) zero3, View.ld_unit_zero (S := S1x1x2048) zero3]

end Upd

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: no window is idle at any point, so each buffer is left at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4000000 in
/-- The body at any point: the three input buffers hold their blocks, the result buffer anything; the body's run
    applies, and the result buffer ends at the updated tile of the three blocks. The invariant and the core's debts
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply ((runUpd c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%g, H3⟩⟩
  isplitl [HΦ]; · iexact HΦ
  isplitl [Ho]; · iexact Ho
  isplitl [H0]; · iexact H0
  isplitl [H1]; · iexact H1
  isplitl [H2]; · iexact H2
  unfold owns
  iexists _; isplitr
  swap; · iexact H3
  ipureintro
  exact updO c (grid1.coords t) _ _ _ _ _ _ _ _ (iblk1 V c 0 t) (iblk1 V c 1 t) (iblk1 V c 2 t) g

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kb.Outs.lean ====
/-
  The contents of the core's arrays between the items of the program, with what the two kernels leave put in.

  After the first host stretch the arrays hold V1. The first kernel changes two arrays only, its two results, and
  leaves in them what its write-backs fold to (o2a, o2b); the second kernel starts from those contents (W2g) and
  changes one array, its result (o3). Choosing these three contents for the unknowns of the frame, each kernel's
  arrays end at the next valuation of the frame (its inputs are never written, its results end at the chosen
  contents), and every other array is as the kernel found it.
-/
import proofs.«159953_j57449482551604_2_alg».proof.Proof.Kb.K0Dat
import proofs.«159953_j57449482551604_2_alg».proof.Proof.Kb.K1Dat
import proofs.«159953_j57449482551604_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The arrays as the first kernel finds them, read at the core's own references. -/
abbrev V1f : (c : Dev nD) → (b : Ref sig .tc) → Buf (Elt F) ((c : Thread nD τ).loc b) := fun c b => V1 m c b

/-- What the first kernel leaves in its first result. -/
def o2a (c : Dev nD) : Buf (Elt F) ((c : Thread nD τ).loc main_v2_0) := (dat0 (V1f m) c).arrAt 2 cfg0.N

/-- What the first kernel leaves in its second result. -/
def o2b (c : Dev nD) : Buf (Elt F) ((c : Thread nD τ).loc main_v2_1) := (dat0 (V1f m) c).arrAt 3 cfg0.N

/-- The arrays as the second kernel finds them: the first kernel's two results put in. -/
abbrev W2g (c : Dev nD) : Valuation τ sig (Elt F) :=
  Function.update (Function.update (V1 m c) main_v2_0 (o2a m c)) main_v2_1 (o2b m c)

/-- The same read at the core's own references. -/
abbrev V2g : (c : Dev nD) → (b : Ref sig .tc) → Buf (Elt F) ((c : Thread nD τ).loc b) := fun c b => W2g m c b

/-- What the second kernel leaves in its result. -/
def o3 (c : Dev nD) : Buf (Elt F) ((c : Thread nD τ).loc main_v3) := (dat1 (V2g m) c).arrAt 3 cfg1.N

/-- The frame's unknowns: at each of the three results what its kernel leaves there, elsewhere the launch contents. -/
def outs : Outs (F := F) := fun _ r c =>
  if h : r = main_v2_0 then h ▸ o2a m c
  else if h : r = main_v2_1 then h ▸ o2b m c
  else if h : r = main_v3 then h ▸ o3 m c
  else m ((c : Thread nD τ).loc r)

theorem outs_v2_0 (c : Dev nD) : outs m 2 main_v2_0 c = o2a m c := by
  unfold outs
  rw [dif_pos rfl]

theorem outs_v2_1 (c : Dev nD) : outs m 2 main_v2_1 c = o2b m c := by
  unfold outs
  rw [dif_neg (by decide), dif_pos rfl]

theorem outs_v3 (c : Dev nD) : outs m 3 main_v3 c = o3 m c := by
  unfold outs
  rw [dif_neg (by decide), dif_neg (by decide), dif_pos rfl]

/-- With these unknowns the frame's valuation after the first kernel is the second kernel's entry valuation. -/
theorem W2g_eq (c : Dev nD) : V2 m (outs m) c = W2g m c := by
  show Function.update (Function.update (V1 m c) main_v2_0 (outs m 2 main_v2_0 c)) main_v2_1 (outs m 2 main_v2_1 c)
    = Function.update (Function.update (V1 m c) main_v2_0 (o2a m c)) main_v2_1 (o2b m c)
  rw [outs_v2_0, outs_v2_1]

theorem V2_eq (c : Dev nD) : (fun b : Ref sig .tc => V2 m (outs m) c b) = V2g m c :=
  funext fun b => congrFun (W2g_eq m c) b

/-- The two results are different arrays. -/
theorem v2_0_ne_v2_1 : (Proc.devRef .tc main_v2_0 : DevRef τ sig) ≠ Proc.devRef .tc main_v2_1 :=
  StableHlo.devRef_ne_of_ne (by decide)

/-- After the first kernel each of its arrays holds what the frame's next valuation says. -/
theorem hF0 (c : Dev nD) : ∀ w : Fin cfg0.W,
    (dat0 (V1f m) c).arrAt w cfg0.N = V2 m (outs m) c (Pipeline.arrRef spec0 w)
  | ⟨0, _⟩ => ((dat0 (V1f m) c).arrAt_in 0 rfl _).trans
      ((A_eq0 (V1f m) c 0).trans (V2_of m (outs m) c main_v0 (by decide)).symm)
  | ⟨1, _⟩ => ((dat0 (V1f m) c).arrAt_in 1 rfl _).trans
      ((A_eq0 (V1f m) c 1).trans (V2_of m (outs m) c main_v1 (by decide)).symm)
  | ⟨2, _⟩ => by
    show o2a m c = V2 m (outs m) c main_v2_0
    rw [W2g_eq, W2g, Function.update_of_ne v2_0_ne_v2_1, Function.update_self]
  | ⟨3, _⟩ => by
    show o2b m c = V2 m (outs m) c main_v2_1
    rw [W2g_eq, W2g, Function.update_self]

/-- and every other array what it held before. -/
theorem hrest0 (c : Dev nD) :
    ∀ b, b ∉ Finset.univ.image (Pipeline.arrRef spec0) → V2 m (outs m) c b = V1 m c b := fun b hb =>
  V2_of m (outs m) c b fun hmem => by
    simp only [List.mem_cons, List.not_mem_nil, or_false] at hmem
    rcases hmem with rfl | rfl
    · exact hb (Finset.mem_image.mpr ⟨2, Finset.mem_univ _, rfl⟩)
    · exact hb (Finset.mem_image.mpr ⟨3, Finset.mem_univ _, rfl⟩)

/-- After the second kernel each of its arrays holds what the frame's next valuation says. -/
theorem hF1 (c : Dev nD) : ∀ w : Fin cfg1.W,
    (dat1 (V2g m) c).arrAt w cfg1.N = V3 m (outs m) c (Pipeline.arrRef spec1 w)
  | ⟨0, _⟩ => ((dat1 (V2g m) c).arrAt_in 0 rfl _).trans
      ((A_eq1 (V2g m) c 0).trans
        ((congrFun (W2g_eq m c) main_v0).symm.trans (V3_of m (outs m) c main_v0 (by decide)).symm))
  | ⟨1, _⟩ => ((dat1 (V2g m) c).arrAt_in 1 rfl _).trans
      ((A_eq1 (V2g m) c 1).trans
        ((congrFun (W2g_eq m c) main_v1).symm.trans (V3_of m (outs m) c main_v1 (by decide)).symm))
  | ⟨2, _⟩ => ((dat1 (V2g m) c).arrAt_in 2 rfl _).trans
      ((A_eq1 (V2g m) c 2).trans
        ((congrFun (W2g_eq m c) main_v2_1).symm.trans (V3_of m (outs m) c main_v2_1 (by decide)).symm))
  | ⟨3, _⟩ => by
    show o3 m c = V3 m (outs m) c main_v3
    rw [V3, Function.update_self, outs_v3]

/-- and every other array what it held before. -/
theorem hrest1 (c : Dev nD) :
    ∀ b, b ∉ Finset.univ.image (Pipeline.arrRef spec1) → V3 m (outs m) c b = V2 m (outs m) c b := fun b hb =>
  V3_of m (outs m) c b fun hmem => by
    simp only [List.mem_cons, List.not_mem_nil, or_false] at hmem
    subst hmem
    exact hb (Finset.mem_image.mpr ⟨3, Finset.mem_univ _, rfl⟩)

/-- The same against the second kernel's own entry valuation. -/
theorem hrest1g (c : Dev nD) :
    ∀ b, b ∉ Finset.univ.image (Pipeline.arrRef spec1) → V3 m (outs m) c b = V2g m c b := fun b hb =>
  (hrest1 m c b hb).trans (congrFun (W2g_eq m c) b)

end Cert.Kernel.Hand

end
-- ==== Proof.Kb.Run.lean ====
/-
  The run of the whole program: @main as its four items — the two host operations, the first pallas_call, the second,
  the closing reshape — over the thread state "every unscoped buffer at the contents after the item before, the
  generator register at some state, nothing owed". Every weakly fair execution terminates without a fault, the two
  results end at what the items' contents say, and the arguments end unchanged.
-/
import proofs.«159953_j57449482551604_2_alg».proof.Proof.Kb.K0Body
import proofs.«159953_j57449482551604_2_alg».proof.Proof.Kb.K1Dat
import proofs.«159953_j57449482551604_2_alg».proof.Proof.Kb.Outs
import proofs.«159953_j57449482551604_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both pipelines' proof data, each at its region's entry contents. -/
def pdats : (p : Fin 2) → (c : Dev nD) → Dat τ (Elt F) Unit ℕ (UR sig nD τ) ℕ (cfgs p) c
  | ⟨0, _⟩ => fun c => dat0 (V1f m) c
  | ⟨1, _⟩ => fun c => dat1 (V2g m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the contents before it, left at the contents
    after it; its windows' arrays split out of the unscoped buffers at entry and put back at their final contents at
    exit; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1f m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (V1f m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1f m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V1f m) c)
    unfold Pipeline.ΦA
    iintro ⟨Hp, -, Hr⟩
    isplitl [Hr]; · iexact Hr
    iexact Hp
  hout c := by
    rw [Pipeline.ownSems0_none]
    refine (hout0 (V1f m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1f m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left at the contents
    after it; its windows' arrays split out of the unscoped buffers at entry and put back at their final contents at
    exit; the generator register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2g m) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (V2g m c)
  hentry c := by
    rw [show V2 m (outs m) c = W2g m c from W2g_eq m c]
    rw [Pipeline.ownSems0_none]
    have hsplit := Pipeline.arrays_of_unscopedBufs (p := 1) (pcfgs (F := F)) adm (pdats m) launch1.win launch1.arr_whole c
      ((pdats m 1 c).share_full fun _ => rfl) (V2g m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2g m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN. From any memory with zero counters every weakly fair execution of @main terminates, nothing faulting, and
    every final memory holds the two results at the contents after the last item and each argument as launched. -/
theorem run_main : θ_run defs (onTc (τ := τ) (main (F := F))) ⟨m, fun _ => 0, ρ⟩ (fun r => ∀ c : Dev nD,
      r.2.mem ((c.tc : Thread nD τ).loc main_v4) = V4 m (outs m) c main_v4
      ∧ r.2.mem ((c.tc : Thread nD τ).loc main_v2_0) = V4 m (outs m) c main_v2_0
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hlast : ∀ c : Dev nD, (iprop(StableHlo.held (c : Thread nD τ) (Pipeline.ucRefs τ sig) (V4 m (outs m) c) ∗ R c) : sProp 𝕄)
      ⊢ iprop((StableHlo.held (c : Thread nD τ) (Pipeline.ucRefs τ sig) (V4 m (outs m) c) ∗ ∃ r, prngReg c r) ∗ ∃ W, owes (c.tc : Thread nD τ) (0 : CellTallies nD τ sig Unit) W) := fun c => by
    iintro ⟨Hh, Hp, HO⟩
    isplitl [Hh Hp]
    · isplitl [Hh]; · iexact Hh
      iexact Hp
    iexact HO
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Pipeline.Seg.run_eq_chain,
        show (segs m (outs m) 𝒱₀ L lv (fun _ => R) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) (O₀ := 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V4 m (outs m) c) ∗ ∃ r, prngReg c r))
    (hch := fun c => ⟨.rfl, .rfl, .rfl, .rfl, hlast c⟩)
    (hinit := ?_) (QY := fun c s => s.mem ((c.tc : Thread nD τ).loc main_v4) = V4 m (outs m) c main_v4
      ∧ s.mem ((c.tc : Thread nD τ).loc main_v2_0) = V4 m (outs m) c main_v2_0
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨Hh, -⟩, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨h (Proc.devRef .tc main_v4) (Finset.mem_filter.mpr ⟨StableHlo.devRef_mem_tcRefs main_v4, by decide⟩),
        h (Proc.devRef .tc main_v2_0) (Finset.mem_filter.mpr ⟨StableHlo.devRef_mem_tcRefs main_v2_0, by decide⟩),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c)⟩
    · iexact HSI

end Cert.Kernel.Hand

end
-- ==== Proof.Geom0.lean ====
/-
  The windows of the first kernel, as coordinates.

  The grid is 4 batches by 8 tiles, the tile moving fastest: point t is tile t % 8 of batch t / 8. Each window's
  block at a point is a rectangle of its array; an entry of the block is the array's entry at the block's offset
  plus the entry's own coordinates, the offset on an axis being the block index there times the block's extent.
  The spatial window moves with both coordinates (block (t / 8, 0, t % 8) of extents 1 x 128 x 512), the other three
  with the batch only (block (t / 8, 0, 0), all of a batch's slab). The two results are written back at the last tile
  of each batch, and the four slabs written then are the whole array.
-/
import proofs.«159953_j57449482551604_2_alg».proof.Proof.Gen.KernelIdeal.Points
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.KernelIdeal.Hand

open Cert.KernelIdeal Cert.KernelIdeal.Gen

variable {Val : EltTy → Type}

/-- The grid has 32 points. -/
theorem N0_eq : cfg0.N = 32 := by decide

theorem lt32_0 (t : Fin cfg0.N) : t.val < 32 := t.isLt

/-! ### The block indices at a point -/

theorem idx0_0 : ∀ t : Fin cfg0.N,
    win0_0.index t 0 = t.val / 8 ∧ win0_0.index t 1 = 0 ∧ win0_0.index t 2 = t.val % 8 :=
  (by decide +kernel : ∀ t : Fin grid0.N,
    win0_0.index t 0 = t.val / 8 ∧ win0_0.index t 1 = 0 ∧ win0_0.index t 2 = t.val % 8)

theorem idx0_1 : ∀ t : Fin cfg0.N,
    win0_1.index t 0 = t.val / 8 ∧ win0_1.index t 1 = 0 ∧ win0_1.index t 2 = 0 :=
  (by decide +kernel : ∀ t : Fin grid0.N,
    win0_1.index t 0 = t.val / 8 ∧ win0_1.index t 1 = 0 ∧ win0_1.index t 2 = 0)

theorem idx0_2 : ∀ t : Fin cfg0.N,
    win0_2.index t 0 = t.val / 8 ∧ win0_2.index t 1 = 0 ∧ win0_2.index t 2 = 0 :=
  (by decide +kernel : ∀ t : Fin grid0.N,
    win0_2.index t 0 = t.val / 8 ∧ win0_2.index t 1 = 0 ∧ win0_2.index t 2 = 0)

theorem idx0_3 : ∀ t : Fin cfg0.N,
    win0_3.index t 0 = t.val / 8 ∧ win0_3.index t 1 = 0 ∧ win0_3.index t 2 = 0 :=
  (by decide +kernel : ∀ t : Fin grid0.N,
    win0_3.index t 0 = t.val / 8 ∧ win0_3.index t 1 = 0 ∧ win0_3.index t 2 = 0)

/-! ### A block's entry is the array's -/

/-- The spatial window: entry (0, p, j) of the block at point t is entry (t / 8, p, 512 (t % 8) + j) of the array. -/
theorem blk0_0_read (t : Fin cfg0.N) (A : S4x128x4096.Idx → Val .f32) (y : S1x128x512.Idx) :
    ((cfg0.win 0).blk t).view.read Val A y
      = A (ix3 ⟨t.val / 8, by have := lt32_0 t; omega⟩ (y 1 : Fin 128) ⟨512 * (t.val % 8) + (y 2).val, by have h2 : (y 2).val < 512 := (y 2).isLt; omega⟩) := by
  obtain ⟨h0, h1, h2⟩ := idx0_0 t
  have hy0 : (y 0).val < 1 := (y 0).isLt
  rw [View.read_apply]
  show A _ = A _
  congr 1
  funext a
  apply Fin.ext
  match a with
  | ⟨0, _⟩ => show win0_0.index t 0 * 1 + 1 * (y 0).val = t.val / 8; rw [h0]; omega
  | ⟨1, _⟩ => show win0_0.index t 1 * 128 + 1 * (y 1).val = (y 1).val; rw [h1]; omega
  | ⟨2, _⟩ => show win0_0.index t 2 * 512 + 1 * (y 2).val = 512 * (t.val % 8) + (y 2).val; rw [h2]; omega

/-- The same with the block's index given by its coordinates. -/
theorem blk0_0_apply (t : Fin cfg0.N) (A : S4x128x4096.Idx → Val .f32) (p : Fin 128) (j : Fin 512) :
    ((cfg0.win 0).blk t).view.read Val A (ix3 0 p j : S1x128x512.Idx)
      = A (ix3 ⟨t.val / 8, by have := lt32_0 t; omega⟩ p ⟨512 * (t.val % 8) + j.val, by omega⟩) :=
  blk0_0_read t A _

/-- The text window: entry (0, p, j) of the block at point t is entry (t / 8, p, j) of the array. -/
theorem blk0_1_read (t : Fin cfg0.N) (A : S4x2048x128.Idx → Val .bf16) (y : S1x2048x128.Idx) :
    ((cfg0.win 1).blk t).view.read Val A y
      = A (ix3 ⟨t.val / 8, by have := lt32_0 t; omega⟩ (y 1 : Fin 2048) (y 2 : Fin 128)) := by
  obtain ⟨h0, h1, h2⟩ := idx0_1 t
  have hy0 : (y 0).val < 1 := (y 0).isLt
  rw [View.read_apply]
  show A _ = A _
  congr 1
  funext a
  apply Fin.ext
  match a with
  | ⟨0, _⟩ => show win0_1.index t 0 * 1 + 1 * (y 0).val = t.val / 8; rw [h0]; omega
  | ⟨1, _⟩ => show win0_1.index t 1 * 2048 + 1 * (y 1).val = (y 1).val; rw [h1]; omega
  | ⟨2, _⟩ => show win0_1.index t 2 * 128 + 1 * (y 2).val = (y 2).val; rw [h2]; omega

/-- The same with the block's index given by its coordinates. -/
theorem blk0_1_apply (t : Fin cfg0.N) (A : S4x2048x128.Idx → Val .bf16) (p : Fin 2048) (j : Fin 128) :
    ((cfg0.win 1).blk t).view.read Val A (ix3 0 p j : S1x2048x128.Idx)
      = A (ix3 ⟨t.val / 8, by have := lt32_0 t; omega⟩ p j) :=
  blk0_1_read t A _

/-- The first result's window: entry (0, p, j) of the block at point t is entry (t / 8, p, j) of the array. -/
theorem blk0_2_read (t : Fin cfg0.N) (A : S4x2048x128.Idx → Val .f32) (y : S1x2048x128.Idx) :
    ((cfg0.win 2).blk t).view.read Val A y
      = A (ix3 ⟨t.val / 8, by have := lt32_0 t; omega⟩ (y 1 : Fin 2048) (y 2 : Fin 128)) := by
  obtain ⟨h0, h1, h2⟩ := idx0_2 t
  have hy0 : (y 0).val < 1 := (y 0).isLt
  rw [View.read_apply]
  show A _ = A _
  congr 1
  funext a
  apply Fin.ext
  match a with
  | ⟨0, _⟩ => show win0_2.index t 0 * 1 + 1 * (y 0).val = t.val / 8; rw [h0]; omega
  | ⟨1, _⟩ => show win0_2.index t 1 * 2048 + 1 * (y 1).val = (y 1).val; rw [h1]; omega
  | ⟨2, _⟩ => show win0_2.index t 2 * 128 + 1 * (y 2).val = (y 2).val; rw [h2]; omega

/-- The same with the block's index given by its coordinates. -/
theorem blk0_2_apply (t : Fin cfg0.N) (A : S4x2048x128.Idx → Val .f32) (p : Fin 2048) (j : Fin 128) :
    ((cfg0.win 2).blk t).view.read Val A (ix3 0 p j : S1x2048x128.Idx)
      = A (ix3 ⟨t.val / 8, by have := lt32_0 t; omega⟩ p j) :=
  blk0_2_read t A _

/-- The second result's window: entry (0, 0, j) of the block at point t is entry (t / 8, 0, j) of the array. -/
theorem blk0_3_read (t : Fin cfg0.N) (A : S4x1x2048.Idx → Val .f32) (y : S1x1x2048.Idx) :
    ((cfg0.win 3).blk t).view.read Val A y
      = A (ix3 ⟨t.val / 8, by have := lt32_0 t; omega⟩ (y 1 : Fin 1) (y 2 : Fin 2048)) := by
  obtain ⟨h0, h1, h2⟩ := idx0_3 t
  have hy0 : (y 0).val < 1 := (y 0).isLt
  rw [View.read_apply]
  show A _ = A _
  congr 1
  funext a
  apply Fin.ext
  match a with
  | ⟨0, _⟩ => show win0_3.index t 0 * 1 + 1 * (y 0).val = t.val / 8; rw [h0]; omega
  | ⟨1, _⟩ => show win0_3.index t 1 * 1 + 1 * (y 1).val = (y 1).val; rw [h1]; omega
  | ⟨2, _⟩ => show win0_3.index t 2 * 2048 + 1 * (y 2).val = (y 2).val; rw [h2]; omega

/-- The same with the block's index given by its coordinates. -/
theorem blk0_3_apply (t : Fin cfg0.N) (A : S4x1x2048.Idx → Val .f32) (j : Fin 2048) :
    ((cfg0.win 3).blk t).view.read Val A (ix3 0 0 j : S1x1x2048.Idx)
      = A (ix3 ⟨t.val / 8, by have := lt32_0 t; omega⟩ 0 j) :=
  blk0_3_read t A _

/-! ### The written blocks cover the two results -/

/-- Every entry of the array is in the block written back at the last tile of its batch: point 8 b + 7 for batch b. -/
theorem cover0_2_lit (i : S4x2048x128.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 128 := (i 2).isLt
  have ht : 8 * (i 0).val + 7 < cfg0.N := lt_of_lt_of_eq (by omega : 8 * (i 0).val + 7 < 32) N0_eq.symm
  refine ⟨⟨8 * (i 0).val + 7, ht⟩, (flush0_2 _).mpr (by show (8 * (i 0).val + 7) % 8 = 7; omega), ?_⟩
  obtain ⟨h0, h1, h2⟩ := idx0_2 ⟨8 * (i 0).val + 7, ht⟩
  have hv : (⟨8 * (i 0).val + 7, ht⟩ : Fin cfg0.N).val = 8 * (i 0).val + 7 := rfl
  show i ∈ ((View.whole main_v2_0).slice (win0_2.rect ⟨8 * (i 0).val + 7, ht⟩)).set
  rw [View.set_slice_whole, Rect.mem_set_unit]
  intro a
  match a with
  | ⟨0, _⟩ =>
    show win0_2.index ⟨8 * (i 0).val + 7, ht⟩ 0 * 1 ≤ (i 0).val
      ∧ (i 0).val < win0_2.index ⟨8 * (i 0).val + 7, ht⟩ 0 * 1 + 1
    rw [h0, hv]; omega
  | ⟨1, _⟩ =>
    show win0_2.index ⟨8 * (i 0).val + 7, ht⟩ 1 * 2048 ≤ (i 1).val
      ∧ (i 1).val < win0_2.index ⟨8 * (i 0).val + 7, ht⟩ 1 * 2048 + 2048
    rw [h1]; omega
  | ⟨2, _⟩ =>
    show win0_2.index ⟨8 * (i 0).val + 7, ht⟩ 2 * 128 ≤ (i 2).val
      ∧ (i 2).val < win0_2.index ⟨8 * (i 0).val + 7, ht⟩ 2 * 128 + 128
    rw [h2]; omega

/-- The same over the array's own index type, on any device. -/
theorem cover0_2 (c : Dev nD) :
    ∀ i : ((cfg0.win 2).arr.view.loc (c.tc : Thread nD τ)).2.ty.Idx,
      ∃ t : Fin cfg0.N, (cfg0.win 2).flush t = true ∧ i ∈ ((cfg0.win 2).blk t).view.set :=
  fun i => cover0_2_lit i

/-- Every entry of the array is in the block written back at the last tile of its batch: point 8 b + 7 for batch b. -/
theorem cover0_3_lit (i : S4x1x2048.Idx) :
    ∃ t : Fin cfg0.N, (cfg0.win 3).flush t = true ∧ i ∈ ((cfg0.win 3).blk t).view.set := by
  have hi0 : (i 0).val < 4 := (i 0).isLt
  have hi1 : (i 1).val < 1 := (i 1).isLt
  have hi2 : (i 2).val < 2048 := (i 2).isLt
  have ht : 8 * (i 0).val + 7 < cfg0.N := lt_of_lt_of_eq (by omega : 8 * (i 0).val + 7 < 32) N0_eq.symm
  refine ⟨⟨8 * (i 0).val + 7, ht⟩, (flush0_3 _).mpr (by show (8 * (i 0).val + 7) % 8 = 7; omega), ?_⟩
  obtain ⟨h0, h1, h2⟩ := idx0_3 ⟨8 * (i 0).val + 7, ht⟩
  have hv : (⟨8 * (i 0).val + 7, ht⟩ : Fin cfg0.N).val = 8 * (i 0).val + 7 := rfl
  show i ∈ ((View.whole main_v2_1).slice (win0_3.rect ⟨8 * (i 0).val + 7, ht⟩)).set
  rw [View.set_slice_whole, Rect.mem_set_unit]
  intro a
  match a with
  | ⟨0, _⟩ =>
    show win0_3.index ⟨8 * (i 0).val + 7, ht⟩ 0 * 1 ≤ (i 0).val
      ∧ (i 0).val < win0_3.index ⟨8 * (i 0).val + 7, ht⟩ 0 * 1 + 1
    rw [h0, hv]; omega
  | ⟨1, _⟩ =>
    show win0_3.index ⟨8 * (i 0).val + 7, ht⟩ 1 * 1 ≤ (i 1).val
      ∧ (i 1).val < win0_3.index ⟨8 * (i 0).val + 7, ht⟩ 1 * 1 + 1
    rw [h1]; omega
  | ⟨2, _⟩ =>
    show win0_3.index ⟨8 * (i 0).val + 7, ht⟩ 2 * 2048 ≤ (i 2).val
      ∧ (i 2).val < win0_3.index ⟨8 * (i 0).val + 7, ht⟩ 2 * 2048 + 2048
    rw [h2]; omega

/-- The same over the array's own index type, on any device. -/
theorem cover0_3 (c : Dev nD) :
    ∀ i : ((cfg0.win 3).arr.view.loc (c.tc : Thread nD τ)).2.ty.Idx,
      ∃ t : Fin cfg0.N, (cfg0.win 3).flush t = true ∧ i ∈ ((cfg0.win 3).blk t).view.set :=
  fun i => cover0_3_lit i

end Cert.KernelIdeal.Hand

end
-- ==== Proof.K0Final.lean ====
/-
  From blocks to arrays, for the first pallas_call. Each of the two results is written back once per batch, at the
  batch's last tile (point 8 b + 7), and the block written then is the whole slab of batch b; so entry (b, p, j) of a
  result array ends at entry (0, p, j) of what the state after point 8 b + 7 gives, and the four slabs make up the
  array.
-/
import proofs.«159953_j57449482551604_2_alg».proof.Proof.K0Dat
import proofs.«159953_j57449482551604_2_alg».proof.Proof.Geom0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Final0
variable (V : (c : Dev nD) → (b : Ref sig .tc) → Buf (Elt F) ((c : Thread nD τ).loc b))

/-- The last tile of batch b is a point of the grid. -/
theorem lastTile_lt (b : Fin 4) : 8 * b.val + 7 < cfg0.N :=
  lt_of_lt_of_eq (by have := b.isLt; omega : 8 * b.val + 7 < 32) N0_eq.symm

/-- The state after a point depends on the point's number only. -/
private theorem stAt_num (c : Dev nD) {n n' : ℕ} (h : n = n') (hn : n < cfg0.N) (hn' : n' < cfg0.N) :
    stAt V c n hn = stAt V c n' hn' := by
  subst h; rfl

/-- The first result array, entry by entry. -/
def res0_2 (c : Dev nD) : Buf (Elt F) ((cfg0.win 2).arr.view.loc (c.tc : Thread nD τ)) :=
  fun i => out2F (stAt V c (8 * (i 0).val + 7) (lastTile_lt (i 0))) (ix3 0 (i 1) (i 2))

/-- The second result array, entry by entry. -/
def res0_3 (c : Dev nD) : Buf (Elt F) ((cfg0.win 3).arr.view.loc (c.tc : Thread nD τ)) :=
  fun i => out3F (stAt V c (8 * (i 0).val + 7) (lastTile_lt (i 0))) (ix3 0 0 (i 2))

/-- The block written back at a batch's last tile is that batch's slab of the first result. -/
theorem flushed0_2 (c : Dev nD) (t : Fin cfg0.N) (hf : (cfg0.win 2).flush t = true) :
    (dat0 V c).flushed 2 t = ((cfg0.win 2).blk t).view.read (Elt F) (res0_2 V c) := by
  have h7 : t.val % 8 = 7 := (flush0_2 t).mp hf
  have ht := lt32_0 t
  show (cfg0.win 2).cut (grid0.coords t) ((dat0 V c).after 2 t) = _
  rw [after0_2]
  funext y
  have hy0 : (y 0).val < 1 := (y 0).isLt
  obtain ⟨p, j, rfl⟩ : ∃ (p : Fin 2048) (j : Fin 128), y = (ix3 0 p j : S1x2048x128.Idx) :=
    ⟨y 1, y 2, funext fun a => Fin.ext (by
      match a with
      | ⟨0, _⟩ => show (y 0).val = 0; omega
      | ⟨1, _⟩ => rfl
      | ⟨2, _⟩ => rfl)⟩
  refine Eq.trans ?_ (blk0_2_apply t (res0_2 V c) p j).symm
  show out2F (stAt V c t.val t.isLt) (ix3 0 p j) = out2F (stAt V c (8 * (t.val / 8) + 7) _) (ix3 0 p j)
  exact congrArg (fun s => out2F s (ix3 0 p j)) (stAt_num V c (by omega) t.isLt _)

/-- The block written back at a batch's last tile is that batch's slab of the second result. -/
theorem flushed0_3 (c : Dev nD) (t : Fin cfg0.N) (hf : (cfg0.win 3).flush t = true) :
    (dat0 V c).flushed 3 t = ((cfg0.win 3).blk t).view.read (Elt F) (res0_3 V c) := by
  have h7 : t.val % 8 = 7 := (flush0_3 t).mp hf
  have ht := lt32_0 t
  show (cfg0.win 3).cut (grid0.coords t) ((dat0 V c).after 3 t) = _
  rw [after0_3]
  funext y
  have hy0 : (y 0).val < 1 := (y 0).isLt
  have hy1 : (y 1).val < 1 := (y 1).isLt
  obtain ⟨j, rfl⟩ : ∃ (j : Fin 2048), y = (ix3 0 0 j : S1x1x2048.Idx) :=
    ⟨y 2, funext fun a => Fin.ext (by
      match a with
      | ⟨0, _⟩ => show (y 0).val = 0; omega
      | ⟨1, _⟩ => show (y 1).val = 0; omega
      | ⟨2, _⟩ => rfl)⟩
  refine Eq.trans ?_ (blk0_3_apply t (res0_3 V c) j).symm
  show out3F (stAt V c t.val t.isLt) (ix3 0 0 j) = out3F (stAt V c (8 * (t.val / 8) + 7) _) (ix3 0 0 j)
  exact congrArg (fun s => out3F s (ix3 0 0 j)) (stAt_num V c (by omega) t.isLt _)

/-- The first result array after the region. -/
theorem final0_2 (c : Dev nD) :
    (dat0 V c).arrAt 2 cfg0.N
      = fun i => out2F (stAt V c (8 * (i 0).val + 7) (lastTile_lt (i 0))) (ix3 0 (i 1) (i 2)) :=
  (dat0 V c).arrAt_eq_of_cover 2 (res0_2 V c) (flushed0_2 V c) (cover0_2 c)

/-- The second result array after the region. -/
theorem final0_3 (c : Dev nD) :
    (dat0 V c).arrAt 3 cfg0.N
      = fun i => out3F (stAt V c (8 * (i 0).val + 7) (lastTile_lt (i 0))) (ix3 0 0 (i 2)) :=
  (dat0 V c).arrAt_eq_of_cover 3 (res0_3 V c) (flushed0_3 V c) (cover0_3 c)

end Final0

end Cert.KernelIdeal.Hand

end
-- ==== Proof.Pay1Consts.lean ====
/-
  The float literals of the second kernel's body as the extended reals they denote: the scale 1/64 = 1/sqrt 4096
  that multiplies the channel contraction.
-/
import Idealize.ShloMosaic.PureOps.Ideal

noncomputable section

namespace Cert.KernelIdeal.PayValue

open Idealize.ShloMosaic

/-- The word 0x3C800000 is the single-precision 2^(-6): sign 0, exponent 121 = 127 - 6, fraction 0. -/
theorem ofBits_scale : Ideal.ofBits .f32 0x3C800000#32 = ((1 / 64 : ℝ) : EReal) := by
  simp [Ideal.ofBits, Ideal.ieee, -EReal.coe_mul]; norm_num

end Cert.KernelIdeal.PayValue

end
-- ==== Proof.Pay1Score.lean ====
/-
  The second kernel's score tile read at an entry. For a tile x of the spatial array (channel c, position j of
  the tile) and the text block f (token m, channel c) the body contracts the channels,
  result (j, m) = sum over c of x (c, j) * f (m, c), into a zero accumulator, and multiplies by the literal 1/64.
-/
import proofs.«159953_j57449482551604_2_alg».proof.Proof.Gen.KernelIdeal.Skeleton
import proofs.«159953_j57449482551604_2_alg».proof.Proof.Pay1Consts
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-- The tile without its leading unit axis. -/
def xTile (x : Vec Ideal S1x128x512 .f32) : FVec Ideal S128x512 .f32 :=
  shapeCast S128x512 x shapeCasts_S1x128x512_S128x512

/-- The text block without its leading unit axis. -/
def fBlock (f : Vec Ideal S1x2048x128 .bf16) : FVec Ideal S2048x128 .bf16 :=
  shapeCast S2048x128 f shapeCasts_S1x2048x128_S2048x128

/-- The scaled score tile, as the body computes it. -/
def scoreTile (x : Vec Ideal S1x128x512 .f32) (f : Vec Ideal S1x2048x128 .bf16) : FVec Ideal S512x2048 .f32 :=
  mulf (matmul dot_S128x512_S2048x128_S512x2048_0_1_1_0_n_n none (truncf .bf16 (xTile x) bitsLt_bf16_f32) (fBlock f)
      (constant (F := Ideal) S512x2048 .f32 0x00000000#32))
    (broadcast S512x2048 (Scalar.ofBits (F := Ideal) .f32 0x3C800000#32))

theorem xTile_apply (x : Vec Ideal S1x128x512 .f32) (c : Fin 128) (j : Fin 512) :
    xTile x (ix2 c j) = x (ix3 0 c j) :=
  shapeCast_1ab_ab_apply x shapeCasts_S1x128x512_S128x512 c j

theorem fBlock_apply (f : Vec Ideal S1x2048x128 .bf16) (m : Fin 2048) (c : Fin 128) :
    fBlock f (ix2 m c) = f (ix3 0 m c) :=
  shapeCast_1ab_ab_apply f shapeCasts_S1x2048x128_S2048x128 m c

/-- The left operand's index on its contracted axis (the channel) is the contraction position. -/
theorem score_lhs_0 (i : S512x2048.Idx) (q : dot_S128x512_S2048x128_S512x2048_0_1_1_0_n_n.contr.Idx) :
    (dot_S128x512_S2048x128_S512x2048_0_1_1_0_n_n.lhsIdx i q 0).val = (q ⟨0, by decide⟩).val :=
  dot_S128x512_S2048x128_S512x2048_0_1_1_0_n_n.lhsIdx_val_of_single rfl i q
/-- The left operand's index on its kept axis (the position) is the result's first coordinate. -/
theorem score_lhs_1 (i : S512x2048.Idx) (q : dot_S128x512_S2048x128_S512x2048_0_1_1_0_n_n.contr.Idx) :
    (dot_S128x512_S2048x128_S512x2048_0_1_1_0_n_n.lhsIdx i q 1).val = (i 0).val := by
  unfold DotDims.lhsIdx
  rw [dif_neg (show ¬(1 : Fin S128x512.rank) ∈ dot_S128x512_S2048x128_S512x2048_0_1_1_0_n_n.lhsBatch by decide),
    dif_pos (show (1 : Fin S128x512.rank) ∈ dot_S128x512_S2048x128_S512x2048_0_1_1_0_n_n.lhsNonContracting by decide)]
  rfl
/-- The right operand's index on its kept axis (the token) is the result's second coordinate. -/
theorem score_rhs_0 (i : S512x2048.Idx) (q : dot_S128x512_S2048x128_S512x2048_0_1_1_0_n_n.contr.Idx) :
    (dot_S128x512_S2048x128_S512x2048_0_1_1_0_n_n.rhsIdx i q 0).val = (i 1).val := by
  unfold DotDims.rhsIdx
  rw [dif_neg (show ¬(0 : Fin S2048x128.rank) ∈ dot_S128x512_S2048x128_S512x2048_0_1_1_0_n_n.rhsBatch by decide),
    dif_pos (show (0 : Fin S2048x128.rank) ∈ dot_S128x512_S2048x128_S512x2048_0_1_1_0_n_n.rhsNonContracting by decide)]
  rfl
/-- The right operand's index on its contracted axis (the channel) is the contraction position. -/
theorem score_rhs_1 (i : S512x2048.Idx) (q : dot_S128x512_S2048x128_S512x2048_0_1_1_0_n_n.contr.Idx) :
    (dot_S128x512_S2048x128_S512x2048_0_1_1_0_n_n.rhsIdx i q 1).val = (q ⟨0, by decide⟩).val :=
  dot_S128x512_S2048x128_S512x2048_0_1_1_0_n_n.rhsIdx_val_of_single rfl i q

/-- The left operand's index of the first contraction: (channel, position). -/
theorem score_lhsIdx (j : Fin 512) (m : Fin 2048) (c : Fin 128) :
    dot_S128x512_S2048x128_S512x2048_0_1_1_0_n_n.lhsIdx (ix2 j m)
      ((contrEquiv1 dot_S128x512_S2048x128_S512x2048_0_1_1_0_n_n 128 rfl rfl).symm c) = ix2 c j := by
  have hc := contrEquiv1_symm_val dot_S128x512_S2048x128_S512x2048_0_1_1_0_n_n 128 rfl rfl c
  exact funext fun a => Fin.ext (by
    match a with
    | ⟨0, _⟩ => exact (score_lhs_0 _ _).trans hc
    | ⟨1, _⟩ => exact score_lhs_1 _ _)

/-- The right operand's index of the first contraction: (token, channel). -/
theorem score_rhsIdx (j : Fin 512) (m : Fin 2048) (c : Fin 128) :
    dot_S128x512_S2048x128_S512x2048_0_1_1_0_n_n.rhsIdx (ix2 j m)
      ((contrEquiv1 dot_S128x512_S2048x128_S512x2048_0_1_1_0_n_n 128 rfl rfl).symm c) = ix2 m c := by
  have hc := contrEquiv1_symm_val dot_S128x512_S2048x128_S512x2048_0_1_1_0_n_n 128 rfl rfl c
  exact funext fun a => Fin.ext (by
    match a with
    | ⟨0, _⟩ => exact score_rhs_0 _ _
    | ⟨1, _⟩ => exact (score_rhs_1 _ _).trans hc)

/-- The score tile at (j, m): the channel contraction times 1/64. -/
theorem scoreTile_apply (x : Vec Ideal S1x128x512 .f32) (f : Vec Ideal S1x2048x128 .bf16) (j : Fin 512) (m : Fin 2048) :
    scoreTile x f (ix2 j m)
      = (∑ c : Fin 128, (x (ix3 0 c j) : EReal) * (f (ix3 0 m c) : EReal)) * ((1 / 64 : ℝ) : EReal) := by
  unfold scoreTile
  rw [mulf_apply, broadcast_apply]
  refine congrArg₂ (· * ·) ?_ ofBits_scale
  refine (Ideal.matmul_constant_zero_apply _ none _ _ (ix2 j m)).trans ?_
  rw [← Equiv.sum_comp (contrEquiv1 dot_S128x512_S2048x128_S512x2048_0_1_1_0_n_n 128 rfl rfl).symm]
  refine Finset.sum_congr rfl fun c _ => ?_
  rw [score_lhsIdx, score_rhsIdx, truncf_apply, xTile_apply, fBlock_apply]

end Cert.KernelIdeal.PayValue

end
-- ==== Proof.Pay1Exp.lean ====
/-
  The second kernel's exponential tile read at an entry: the score tile minus the row of the first kernel's second
  result (one value per token, the same for all 512 positions of the tile), exponentiated.
-/
import proofs.«159953_j57449482551604_2_alg».proof.Proof.Pay1Score

noncomputable section

namespace Cert.KernelIdeal.PayValue

open Cert.KernelIdeal Cert.KernelIdeal.Gen Idealize.ShloMosaic Idealize.ShloMosaic.ValueIdx
open scoped BigOperators

/-- The row of per-token values without its leading unit axis. -/
def lseRow (e : Vec Ideal S1x1x2048 .f32) : FVec Ideal S1x2048 .f32 :=
  shapeCast S1x2048 e shapeCasts_S1x1x2048_S1x2048

/-- The exponential tile, as the body computes it. -/
def expTile (x : Vec Ideal S1x128x512 .f32) (f : Vec Ideal S1x2048x128 .bf16) (e : Vec Ideal S1x1x2048 .f32) :
    FVec Ideal S512x2048 .f32 :=
  exp (subf (scoreTile x f) (broadcastTo S512x2048 (lseRow e) broadcasts_S1x2048_S512x2048))

theorem lseRow_apply (e : Vec Ideal S1x1x2048 .f32) (m : Fin 2048) : lseRow e (ix2 0 m) = e (ix3 0 0 m) :=
  shapeCast_1ab_ab_apply e shapeCasts_S1x1x2048_S1x2048 (0 : Fin 1) m

/-- The exponential tile at (j, m): exp of the score there minus the token's value. -/
theorem expTile_apply (x : Vec Ideal S1x128x512 .f32) (f : Vec Ideal S1x2048x128 .bf16) (e : Vec Ideal S1x1x2048 .f32)
    (j : Fin 512) (m : Fin 2048) :
    expTile x f e (ix2 j m) = Ideal.exp (scoreTile x f (ix2 j m) - (e (ix3 0 0 m) : EReal)) := by
  unfold expTile
  show Ideal.exp (subf (scoreTile x f) (broadcastTo S512x2048 (lseRow e) broadcasts_S1x2048_S512x2048) (ix2 j m)) = _
  rw [subf_apply, broadcastTo_1b_ab_apply, lseRow_apply]

end Cert.KernelIdeal.PayValue

end
-- ==== Proof.Pay1Upd.lean ====
/-
  The second kernel's second contraction read at an entry, and the stored block. The text block (token m, channel c)
  is contracted over the tokens with the exponential tile (position j, token m):
  result (c, j) = sum over m of f (m, c) * a (j, m), into a zero accumulator; the tile itself is added and the
  leading unit axis put back.
-/
import proofs.«159953_j57449482551604_2_alg».proof.Proof.Pay1Exp

noncomputable section

namespace Cert.KernelIdeal.PayValue

open Cert.KernelIdeal Cert.KernelIdeal.Gen Idealize.ShloMosaic Idealize.ShloMosaic.ValueIdx
open scoped BigOperators

/-- The token contraction, as the body computes it. -/
def updTile (x : Vec Ideal S1x128x512 .f32) (f : Vec Ideal S1x2048x128 .bf16) (e : Vec Ideal S1x1x2048 .f32) :
    FVec Ideal S128x512 .f32 :=
  matmul dot_S2048x128_S512x2048_S128x512_0_1_1_0_n_n none (fBlock f) (truncf .bf16 (expTile x f e) bitsLt_bf16_f32)
    (constant (F := Ideal) S128x512 .f32 0x00000000#32)

/-- The left operand's index on its contracted axis (the token) is the contraction position. -/
theorem upd_lhs_0 (i : S128x512.Idx) (q : dot_S2048x128_S512x2048_S128x512_0_1_1_0_n_n.contr.Idx) :
    (dot_S2048x128_S512x2048_S128x512_0_1_1_0_n_n.lhsIdx i q 0).val = (q ⟨0, by decide⟩).val :=
  dot_S2048x128_S512x2048_S128x512_0_1_1_0_n_n.lhsIdx_val_of_single rfl i q
/-- The left operand's index on its kept axis (the channel) is the result's first coordinate. -/
theorem upd_lhs_1 (i : S128x512.Idx) (q : dot_S2048x128_S512x2048_S128x512_0_1_1_0_n_n.contr.Idx) :
    (dot_S2048x128_S512x2048_S128x512_0_1_1_0_n_n.lhsIdx i q 1).val = (i 0).val := by
  unfold DotDims.lhsIdx
  rw [dif_neg (show ¬(1 : Fin S2048x128.rank) ∈ dot_S2048x128_S512x2048_S128x512_0_1_1_0_n_n.lhsBatch by decide),
    dif_pos (show (1 : Fin S2048x128.rank) ∈ dot_S2048x128_S512x2048_S128x512_0_1_1_0_n_n.lhsNonContracting by decide)]
  rfl
/-- The right operand's index on its kept axis (the position) is the result's second coordinate. -/
theorem upd_rhs_0 (i : S128x512.Idx) (q : dot_S2048x128_S512x2048_S128x512_0_1_1_0_n_n.contr.Idx) :
    (dot_S2048x128_S512x2048_S128x512_0_1_1_0_n_n.rhsIdx i q 0).val = (i 1).val := by
  unfold DotDims.rhsIdx
  rw [dif_neg (show ¬(0 : Fin S512x2048.rank) ∈ dot_S2048x128_S512x2048_S128x512_0_1_1_0_n_n.rhsBatch by decide),
    dif_pos (show (0 : Fin S512x2048.rank) ∈ dot_S2048x128_S512x2048_S128x512_0_1_1_0_n_n.rhsNonContracting by decide)]
  rfl
/-- The right operand's index on its contracted axis (the token) is the contraction position. -/
theorem upd_rhs_1 (i : S128x512.Idx) (q : dot_S2048x128_S512x2048_S128x512_0_1_1_0_n_n.contr.Idx) :
    (dot_S2048x128_S512x2048_S128x512_0_1_1_0_n_n.rhsIdx i q 1).val = (q ⟨0, by decide⟩).val :=
  dot_S2048x128_S512x2048_S128x512_0_1_1_0_n_n.rhsIdx_val_of_single rfl i q

/-- The left operand's index of the second contraction: (token, channel). -/
theorem upd_lhsIdx (c : Fin 128) (j : Fin 512) (m : Fin 2048) :
    dot_S2048x128_S512x2048_S128x512_0_1_1_0_n_n.lhsIdx (ix2 c j)
      ((contrEquiv1 dot_S2048x128_S512x2048_S128x512_0_1_1_0_n_n 2048 rfl rfl).symm m) = ix2 m c := by
  have hm := contrEquiv1_symm_val dot_S2048x128_S512x2048_S128x512_0_1_1_0_n_n 2048 rfl rfl m
  exact funext fun a => Fin.ext (by
    match a with
    | ⟨0, _⟩ => exact (upd_lhs_0 _ _).trans hm
    | ⟨1, _⟩ => exact upd_lhs_1 _ _)

/-- The right operand's index of the second contraction: (position, token). -/
theorem upd_rhsIdx (c : Fin 128) (j : Fin 512) (m : Fin 2048) :
    dot_S2048x128_S512x2048_S128x512_0_1_1_0_n_n.rhsIdx (ix2 c j)
      ((contrEquiv1 dot_S2048x128_S512x2048_S128x512_0_1_1_0_n_n 2048 rfl rfl).symm m) = ix2 j m := by
  have hm := contrEquiv1_symm_val dot_S2048x128_S512x2048_S128x512_0_1_1_0_n_n 2048 rfl rfl m
  exact funext fun a => Fin.ext (by
    match a with
    | ⟨0, _⟩ => exact upd_rhs_0 _ _
    | ⟨1, _⟩ => exact (upd_rhs_1 _ _).trans hm)

/-- The token contraction at (c, j): the sum over the tokens of the text entry times the exponential entry. -/
theorem updTile_apply (x : Vec Ideal S1x128x512 .f32) (f : Vec Ideal S1x2048x128 .bf16) (e : Vec Ideal S1x1x2048 .f32)
    (c : Fin 128) (j : Fin 512) :
    updTile x f e (ix2 c j) = ∑ m : Fin 2048, (f (ix3 0 m c) : EReal) * expTile x f e (ix2 j m) := by
  unfold updTile
  refine (Ideal.matmul_constant_zero_apply _ none _ _ (ix2 c j)).trans ?_
  rw [← Equiv.sum_comp (contrEquiv1 dot_S2048x128_S512x2048_S128x512_0_1_1_0_n_n 2048 rfl rfl).symm]
  refine Finset.sum_congr rfl fun m _ => ?_
  rw [upd_lhsIdx, upd_rhsIdx, truncf_apply, fBlock_apply]

/-- The stored block is the tile plus the token contraction, with the leading unit axis put back. -/
theorem k1_pay1_eq (x : Vec Ideal S1x128x512 .f32) (f : Vec Ideal S1x2048x128 .bf16) (e : Vec Ideal S1x1x2048 .f32) :
    k1_pay1 (F := Ideal) x f e
      = shapeCast S1x128x512 (addf (xTile x) (updTile x f e)) shapeCasts_S128x512_S1x128x512 := rfl

/-- THE SECOND KERNEL'S PAYLOAD AT (0, c, j): the tile's entry plus, over the tokens, the text entry times the
    exponential of the scaled score minus the token's value. -/
theorem k1_pay1_apply (x : Vec Ideal S1x128x512 .f32) (f : Vec Ideal S1x2048x128 .bf16) (e : Vec Ideal S1x1x2048 .f32)
    (c : Fin 128) (j : Fin 512) :
    k1_pay1 (F := Ideal) x f e (ix3 0 c j)
      = (x (ix3 0 c j) : EReal) + ∑ m : Fin 2048, (f (ix3 0 m c) : EReal)
          * Ideal.exp ((∑ c' : Fin 128, (x (ix3 0 c' j) : EReal) * (f (ix3 0 m c') : EReal)) * ((1 / 64 : ℝ) : EReal)
              - (e (ix3 0 0 m) : EReal)) := by
  rw [k1_pay1_eq]
  refine (shapeCast_ab_1ab_apply _ shapeCasts_S128x512_S1x128x512 0 c j).trans ?_
  rw [addf_apply, xTile_apply, updTile_apply]
  refine congrArg (_ + ·) (Finset.sum_congr rfl fun m _ => ?_)
  rw [expTile_apply, scoreTile_apply]

end Cert.KernelIdeal.PayValue

end
-- ==== Proof.Geom1.lean ====
/-
  The windows of the second kernel, as coordinates.

  The grid is again 4 batches by 8 tiles, the tile moving fastest: point t is tile t % 8 of batch t / 8. The spatial
  window and the result's window move with both coordinates (block (t / 8, 0, t % 8) of extents 1 x 128 x 512), the
  text window and the window of the first kernel's second result with the batch only (block (t / 8, 0, 0)). Every point
  writes its block of the result back, and the 32 blocks are the whole array: entry (b, p, n) is in the block of
  point 8 b + n / 512.
-/
import proofs.«159953_j57449482551604_2_alg».proof.Proof.Gen.KernelIdeal.Points
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.KernelIdeal.Hand

open Cert.KernelIdeal Cert.KernelIdeal.Gen

variable {Val : EltTy → Type}

/-- The grid has 32 points. -/
theorem N1_eq : cfg1.N = 32 := by decide

theorem lt32_1 (t : Fin cfg1.N) : t.val < 32 := t.isLt

/-! ### The block indices at a point -/

theorem idx1_0 : ∀ t : Fin cfg1.N,
    win1_0.index t 0 = t.val / 8 ∧ win1_0.index t 1 = 0 ∧ win1_0.index t 2 = t.val % 8 :=
  (by decide +kernel : ∀ t : Fin grid1.N,
    win1_0.index t 0 = t.val / 8 ∧ win1_0.index t 1 = 0 ∧ win1_0.index t 2 = t.val % 8)

theorem idx1_1 : ∀ t : Fin cfg1.N,
    win1_1.index t 0 = t.val / 8 ∧ win1_1.index t 1 = 0 ∧ win1_1.index t 2 = 0 :=
  (by decide +kernel : ∀ t : Fin grid1.N,
    win1_1.index t 0 = t.val / 8 ∧ win1_1.index t 1 = 0 ∧ win1_1.index t 2 = 0)

theorem idx1_2 : ∀ t : Fin cfg1.N,
    win1_2.index t 0 = t.val / 8 ∧ win1_2.index t 1 = 0 ∧ win1_2.index t 2 = 0 :=
  (by decide +kernel : ∀ t : Fin grid1.N,
    win1_2.index t 0 = t.val / 8 ∧ win1_2.index t 1 = 0 ∧ win1_2.index t 2 = 0)

theorem idx1_3 : ∀ t : Fin cfg1.N,
    win1_3.index t 0 = t.val / 8 ∧ win1_3.index t 1 = 0 ∧ win1_3.index t 2 = t.val % 8 :=
  (by decide +kernel : ∀ t : Fin grid1.N,
    win1_3.index t 0 = t.val / 8 ∧ win1_3.index t 1 = 0 ∧ win1_3.index t 2 = t.val % 8)

/-! ### A block's entry is the array's -/

/-- The spatial window: entry (0, p, j) of the block at point t is entry (t / 8, p, 512 (t % 8) + j) of the array. -/
theorem blk1_0_read (t : Fin cfg1.N) (A : S4x128x4096.Idx → Val .f32) (y : S1x128x512.Idx) :
    ((cfg1.win 0).blk t).view.read Val A y
      = A (ix3 ⟨t.val / 8, by have := lt32_1 t; omega⟩ (y 1 : Fin 128) ⟨512 * (t.val % 8) + (y 2).val, by have h2 : (y 2).val < 512 := (y 2).isLt; omega⟩) := by
  obtain ⟨h0, h1, h2⟩ := idx1_0 t
  have hy0 : (y 0).val < 1 := (y 0).isLt
  rw [View.read_apply]
  show A _ = A _
  congr 1
  funext a
  apply Fin.ext
  match a with
  | ⟨0, _⟩ => show win1_0.index t 0 * 1 + 1 * (y 0).val = t.val / 8; rw [h0]; omega
  | ⟨1, _⟩ => show win1_0.index t 1 * 128 + 1 * (y 1).val = (y 1).val; rw [h1]; omega
  | ⟨2, _⟩ => show win1_0.index t 2 * 512 + 1 * (y 2).val = 512 * (t.val % 8) + (y 2).val; rw [h2]; omega

/-- The same with the block's index given by its coordinates. -/
theorem blk1_0_apply (t : Fin cfg1.N) (A : S4x128x4096.Idx → Val .f32) (p : Fin 128) (j : Fin 512) :
    ((cfg1.win 0).blk t).view.read Val A (ix3 0 p j : S1x128x512.Idx)
      = A (ix3 ⟨t.val / 8, by have := lt32_1 t; omega⟩ p ⟨512 * (t.val % 8) + j.val, by omega⟩) :=
  blk1_0_read t A _

/-- The text window: entry (0, p, j) of the block at point t is entry (t / 8, p, j) of the array. -/
theorem blk1_1_read (t : Fin cfg1.N) (A : S4x2048x128.Idx → Val .bf16) (y : S1x2048x128.Idx) :
    ((cfg1.win 1).blk t).view.read Val A y
      = A (ix3 ⟨t.val / 8, by have := lt32_1 t; omega⟩ (y 1 : Fin 2048) (y 2 : Fin 128)) := by
  obtain ⟨h0, h1, h2⟩ := idx1_1 t
  have hy0 : (y 0).val < 1 := (y 0).isLt
  rw [View.read_apply]
  show A _ = A _
  congr 1
  funext a
  apply Fin.ext
  match a with
  | ⟨0, _⟩ => show win1_1.index t 0 * 1 + 1 * (y 0).val = t.val / 8; rw [h0]; omega
  | ⟨1, _⟩ => show win1_1.index t 1 * 2048 + 1 * (y 1).val = (y 1).val; rw [h1]; omega
  | ⟨2, _⟩ => show win1_1.index t 2 * 128 + 1 * (y 2).val = (y 2).val; rw [h2]; omega

/-- The same with the block's index given by its coordinates. -/
theorem blk1_1_apply (t : Fin cfg1.N) (A : S4x2048x128.Idx → Val .bf16) (p : Fin 2048) (j : Fin 128) :
    ((cfg1.win 1).blk t).view.read Val A (ix3 0 p j : S1x2048x128.Idx)
      = A (ix3 ⟨t.val / 8, by have := lt32_1 t; omega⟩ p j) :=
  blk1_1_read t A _

/-- The window of the first kernel's second result: entry (0, 0, j) of the block at point t is entry (t / 8, 0, j) of the array. -/
theorem blk1_2_read (t : Fin cfg1.N) (A : S4x1x2048.Idx → Val .f32) (y : S1x1x2048.Idx) :
    ((cfg1.win 2).blk t).view.read Val A y
      = A (ix3 ⟨t.val / 8, by have := lt32_1 t; omega⟩ (y 1 : Fin 1) (y 2 : Fin 2048)) := by
  obtain ⟨h0, h1, h2⟩ := idx1_2 t
  have hy0 : (y 0).val < 1 := (y 0).isLt
  rw [View.read_apply]
  show A _ = A _
  congr 1
  funext a
  apply Fin.ext
  match a with
  | ⟨0, _⟩ => show win1_2.index t 0 * 1 + 1 * (y 0).val = t.val / 8; rw [h0]; omega
  | ⟨1, _⟩ => show win1_2.index t 1 * 1 + 1 * (y 1).val = (y 1).val; rw [h1]; omega
  | ⟨2, _⟩ => show win1_2.index t 2 * 2048 + 1 * (y 2).val = (y 2).val; rw [h2]; omega

/-- The same with the block's index given by its coordinates. -/
theorem blk1_2_apply (t : Fin cfg1.N) (A : S4x1x2048.Idx → Val .f32) (j : Fin 2048) :
    ((cfg1.win 2).blk t).view.read Val A (ix3 0 0 j : S1x1x2048.Idx)
      = A (ix3 ⟨t.val / 8, by have := lt32_1 t; omega⟩ 0 j) :=
  blk1_2_read t A _

/-- The result's window: entry (0, p, j) of the block at point t is entry (t / 8, p, 512 (t % 8) + j) of the array. -/
theorem blk1_3_read (t : Fin cfg1.N) (A : S4x128x4096.Idx → Val .f32) (y : S1x128x512.Idx) :
    ((cfg1.win 3).blk t).view.read Val A y
      = A (ix3 ⟨t.val / 8, by have := lt32_1 t; omega⟩ (y 1 : Fin 128) ⟨512 * (t.val % 8) + (y 2).val, by have h2 : (y 2).val < 512 := (y 2).isLt; omega⟩) := by
  obtain ⟨h0, h1, h2⟩ := idx1_3 t
  have hy0 : (y 0).val < 1 := (y 0).isLt
  rw [View.read_apply]
  show A _ = A _
  congr 1
  funext a
  apply Fin.ext
  match a with
  | ⟨0, _⟩ => show win1_3.index t 0 * 1 + 1 * (y 0).val = t.val / 8; rw [h0]; omega
  | ⟨1, _⟩ => show win1_3.index t 1 * 128 + 1 * (y 1).val = (y 1).val; rw [h1]; omega
  | ⟨2, _⟩ => show win1_3.index t 2 * 512 + 1 * (y 2).val = 512 * (t.val % 8) + (y 2).val; rw [h2]; omega

/-- The same with the block's index given by its coordinates. -/
theorem blk1_3_apply (t : Fin cfg1.N) (A : S4x128x4096.Idx → Val .f32) (p : Fin 128) (j : Fin 512) :
    ((cfg1.win 3).blk t).view.read Val A (ix3 0 p j : S1x128x512.Idx)
      = A (ix3 ⟨t.val / 8, by have := lt32_1 t; omega⟩ p ⟨512 * (t.val % 8) + j.val, by omega⟩) :=
  blk1_3_read t A _

/-! ### The written blocks cover the result -/

/-- Every entry (b, p, n) of the result is in the block written back at point 8 b + n / 512. -/
theorem cover1_3_lit (i : S4x128x4096.Idx) :
    ∃ t : Fin cfg1.N, (cfg1.win 3).flush t = true ∧ i ∈ ((cfg1.win 3).blk t).view.set := by
  have hi0 : (i 0).val < 4 := (i 0).isLt
  have hi1 : (i 1).val < 128 := (i 1).isLt
  have hi2 : (i 2).val < 4096 := (i 2).isLt
  have ht : 8 * (i 0).val + (i 2).val / 512 < cfg1.N :=
    lt_of_lt_of_eq (by omega : 8 * (i 0).val + (i 2).val / 512 < 32) N1_eq.symm
  refine ⟨⟨8 * (i 0).val + (i 2).val / 512, ht⟩, flush1_3 _, ?_⟩
  obtain ⟨h0, h1, h2⟩ := idx1_3 ⟨8 * (i 0).val + (i 2).val / 512, ht⟩
  have hv : (⟨8 * (i 0).val + (i 2).val / 512, ht⟩ : Fin cfg1.N).val = 8 * (i 0).val + (i 2).val / 512 := rfl
  show i ∈ ((View.whole main_v3).slice (win1_3.rect ⟨8 * (i 0).val + (i 2).val / 512, ht⟩)).set
  rw [View.set_slice_whole, Rect.mem_set_unit]
  intro a
  match a with
  | ⟨0, _⟩ =>
    show win1_3.index ⟨8 * (i 0).val + (i 2).val / 512, ht⟩ 0 * 1 ≤ (i 0).val
      ∧ (i 0).val < win1_3.index ⟨8 * (i 0).val + (i 2).val / 512, ht⟩ 0 * 1 + 1
    rw [h0, hv]; omega
  | ⟨1, _⟩ =>
    show win1_3.index ⟨8 * (i 0).val + (i 2).val / 512, ht⟩ 1 * 128 ≤ (i 1).val
      ∧ (i 1).val < win1_3.index ⟨8 * (i 0).val + (i 2).val / 512, ht⟩ 1 * 128 + 128
    rw [h1]; omega
  | ⟨2, _⟩ =>
    show win1_3.index ⟨8 * (i 0).val + (i 2).val / 512, ht⟩ 2 * 512 ≤ (i 2).val
      ∧ (i 2).val < win1_3.index ⟨8 * (i 0).val + (i 2).val / 512, ht⟩ 2 * 512 + 512
    rw [h2, hv]; omega

/-- The same over the array's own index type, on any device. -/
theorem cover1_3 (c : Dev nD) :
    ∀ i : ((cfg1.win 3).arr.view.loc (c.tc : Thread nD τ)).2.ty.Idx,
      ∃ t : Fin cfg1.N, (cfg1.win 3).flush t = true ∧ i ∈ ((cfg1.win 3).blk t).view.set :=
  fun i => cover1_3_lit i

end Cert.KernelIdeal.Hand

end
-- ==== Proof.K1Final.lean ====
/-
  From blocks to arrays, for the second pallas_call. Every point writes back its tile of the result: point t is tile
  t % 8 of batch t / 8, positions 512 (t % 8) to 512 (t % 8) + 511, and the 32 tiles make up the array. The tile is
  one function of the point's three input blocks, which are a tile of the spatial array, the batch's slab of the text
  array and the batch's row of log-denominators; so an entry of the result is that function of the arrays' entries.
-/
import proofs.«159953_j57449482551604_2_alg».proof.Proof.K1Dat
import proofs.«159953_j57449482551604_2_alg».proof.Proof.Pay1Upd
import proofs.«159953_j57449482551604_2_alg».proof.Proof.Geom1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

section Final1
variable (V : (c : Dev nD) → (b : Ref sig .tc) → Buf (Elt Ideal) ((c : Thread nD τ).loc b))

/-- The spatial array [4, 128, 4096] as the region finds it. -/
abbrev inX (c : Dev nD) : S4x128x4096.Idx → EReal := V c main_v0
/-- The text array [4, 2048, 128] as the region finds it. -/
abbrev inY (c : Dev nD) : S4x2048x128.Idx → EReal := V c main_v1
/-- The rows of log-denominators [4, 1, 2048] as the region finds them. -/
abbrev inE (c : Dev nD) : S4x1x2048.Idx → EReal := V c main_v2_1

/-- The result array, entry by entry: the spatial entry plus the contraction over the tokens of the text entry
    with the exponential of the scaled score less the token's log-denominator. -/
def res1_3 (c : Dev nD) : Buf (Elt Ideal) ((cfg1.win 3).arr.view.loc (c.tc : Thread nD τ)) :=
  fun i => inX V c (ix3 (i 0) (i 1) (i 2))
    + ∑ m : Fin 2048, inY V c (ix3 (i 0) m (i 1))
        * Ideal.exp ((∑ c' : Fin 128, inX V c (ix3 (i 0) c' (i 2)) * inY V c (ix3 (i 0) m c')) * ((1 / 64 : ℝ) : EReal)
            - inE V c (ix3 (i 0) 0 m))

/-- The tile written back at a point is that point's tile of the result. -/
theorem flushed1_3 (c : Dev nD) (t : Fin cfg1.N) (hf : (cfg1.win 3).flush t = true) :
    (dat1 V c).flushed 3 t = ((cfg1.win 3).blk t).view.read (Elt Ideal) (res1_3 V c) := by
  have ht := lt32_1 t
  have e0 : ∀ (p : Fin 128) (j : Fin 512), iblk1 V c 0 t (ix3 0 p j : S1x128x512.Idx)
      = inX V c (ix3 ⟨t.val / 8, by omega⟩ p ⟨512 * (t.val % 8) + j.val, by omega⟩) :=
    fun p j => blk1_0_apply (Val := Elt Ideal) t (inX V c) p j
  have e1 : ∀ (m : Fin 2048) (p : Fin 128), iblk1 V c 1 t (ix3 0 m p : S1x2048x128.Idx)
      = inY V c (ix3 ⟨t.val / 8, by omega⟩ m p) :=
    fun m p => blk1_1_apply (Val := Elt Ideal) t (inY V c) m p
  have e2 : ∀ (m : Fin 2048), iblk1 V c 2 t (ix3 0 0 m : S1x1x2048.Idx)
      = inE V c (ix3 ⟨t.val / 8, by omega⟩ 0 m) :=
    fun m => blk1_2_apply (Val := Elt Ideal) t (inE V c) m
  show (cfg1.win 3).cut (grid1.coords t) ((dat1 V c).after 3 t) = _
  rw [after1_3]
  funext y
  have hy0 : (y 0).val < 1 := (y 0).isLt
  obtain ⟨p, j, rfl⟩ : ∃ (p : Fin 128) (j : Fin 512), y = (ix3 0 p j : S1x128x512.Idx) :=
    ⟨y 1, y 2, funext fun a => Fin.ext (by
      match a with
      | ⟨0, _⟩ => show (y 0).val = 0; omega
      | ⟨1, _⟩ => rfl
      | ⟨2, _⟩ => rfl)⟩
  refine Eq.trans ?_ (blk1_3_apply (Val := Elt Ideal) t (res1_3 V c) p j).symm
  show k1_pay1 (F := Ideal) (iblk1 V c 0 t) (iblk1 V c 1 t) (iblk1 V c 2 t) (ix3 0 p j) = _
  rw [Cert.KernelIdeal.PayValue.k1_pay1_apply]
  simp only [e0, e1, e2]
  rfl

/-- The result array after the region. -/
theorem final1_3 (c : Dev nD) :
    (dat1 V c).arrAt 3 cfg1.N
      = fun i => inX V c (ix3 (i 0) (i 1) (i 2))
          + ∑ m : Fin 2048, inY V c (ix3 (i 0) m (i 1))
              * Ideal.exp ((∑ c' : Fin 128, inX V c (ix3 (i 0) c' (i 2)) * inY V c (ix3 (i 0) m c')) * ((1 / 64 : ℝ) : EReal)
                  - inE V c (ix3 (i 0) 0 m)) :=
  (dat1 V c).arrAt_eq_of_cover 3 (res1_3 V c) (flushed1_3 V c) (cover1_3 c)

end Final1

end Cert.KernelIdeal.Hand

end
-- ==== Proof.LibOnlineSoftmax.lean ====
/-
Online (tiled, running-maximum) softmax-weighted sums over the extended reals.

A row of scores is cut into tiles.  A one-pass evaluation keeps a state `(m, l, a)`: the
running maximum of the scores seen so far, the sum of `exp (score - m)` over them, and the
sum of `exp (score - m) * value`.  On a new tile the maximum is raised to `m'`, the two old
sums are rescaled by `exp (m - m')`, and the tile's terms are added.  This file proves that
the quotient `a / l` after the last unmasked tile is the softmax-weighted sum of the values
taken with the global maximum `M` and the global denominator `L = Σ exp (score - M)`.

The mathematics.  Write `E x` for the real value of the extended exponential (`E ⊥ = 0`,
`E r = exp r`).  For a score `x ≠ ⊤` and a real `m`, `exp (x - m) = E x * exp (-m)`.  Hence
after `k` tiles the state satisfies `E m * l = Σ_{t<k} Σ_j E (s t j)` and
`E m * a = Σ_{t<k} Σ_j E (s t j) * v t j`: raising the maximum multiplies both sides of the
state by `exp (m - m')` and the invariant is untouched, and at `k = 0` both sides are `0`.
From the first tile on the maximum is a real number, so `a / l` is the quotient of the two
unscaled sums; the same holds for the right-hand side with `M` in place of `m`.  Wholly
masked tiles contribute `E ⊥ = 0` to both sums.
-/
import Mathlib.Data.EReal.Inv
import Mathlib.Analysis.SpecialFunctions.Exp
import Mathlib.Algebra.BigOperators.Fin
import Mathlib.Tactic.LinearCombination
import Mathlib.Tactic.FieldSimp
import Mathlib.Tactic.Ring
import Idealize.ShloMosaic.PureOps.Ideal

namespace Cert.Lib.OnlineSoftmax

open Idealize.ShloMosaic
open scoped BigOperators

/-! ### Coercion of finite sums, folds of `max` -/

/-- The coercion `ℝ → EReal` commutes with finite sums. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Folding `max` from `⊥` over a finite set is its supremum. -/
theorem fold_max_eq_sup {ι : Type*} (S : Finset ι) (f : ι → EReal) :
    S.fold max ⊥ f = S.sup f := by
  classical
  induction S using Finset.induction_on with
  | empty => simp
  | insert a S ha ih => rw [Finset.fold_insert ha, Finset.sup_insert, ih]

/-- Folding `max` from `⊥` over a whole finite type is the supremum over it. -/
theorem univ_fold_max_eq_sup {ι : Type*} [Fintype ι] (f : ι → EReal) :
    Finset.univ.fold max ⊥ f = Finset.univ.sup f :=
  fold_max_eq_sup _ _

/-- A finite supremum of extended reals none of which is `⊤` is not `⊤`. -/
theorem sup_ne_top {ι : Type*} (S : Finset ι) (f : ι → EReal) (hf : ∀ i, f i ≠ ⊤) :
    S.sup f ≠ ⊤ :=
  ne_of_lt ((Finset.sup_lt_iff bot_lt_top).2 fun i _ => lt_top_iff_ne_top.2 (hf i))

/-! ### The real value of the extended exponential -/

/-- `E x`: the real value of the extended exponential, `0` at `⊥` and `exp r` at a real `r`. -/
noncomputable def expR (x : EReal) : ℝ := (Ideal.exp x).toReal

@[simp] theorem expR_bot : expR ⊥ = 0 := by simp [expR]

@[simp] theorem expR_coe (r : ℝ) : expR (r : EReal) = Real.exp r := by simp [expR]

/-- `E x ≥ 0` at every extended real. -/
theorem expR_nonneg (x : EReal) : 0 ≤ expR x := by
  induction x with
  | bot => simp
  | coe r => rw [expR_coe]; exact (Real.exp_pos r).le
  | top => simp [expR]

/-- `E x > 0` at a finite `x`. -/
theorem expR_pos {x : EReal} (hx : x ≠ ⊤) (hx' : x ≠ ⊥) : 0 < expR x := by
  induction x with
  | bot => exact absurd rfl hx'
  | coe r => rw [expR_coe]; exact Real.exp_pos r
  | top => exact absurd rfl hx

/-- For `x ≠ ⊤` and a real `m`: `exp (x - m) = E x * exp (-m)`; both sides are `0` at
    `x = ⊥`, and `exp (r - m) = exp r * exp (-m)` at a real `r`. -/
theorem exp_sub_coe {x : EReal} (hx : x ≠ ⊤) (m : ℝ) :
    Ideal.exp (x - (m : EReal)) = ((expR x * Real.exp (-m) : ℝ) : EReal) := by
  induction x with
  | bot => simp
  | coe r => rw [← EReal.coe_sub, Ideal.exp_coe, expR_coe, sub_eq_add_neg, Real.exp_add]
  | top => exact absurd rfl hx

/-! ### The one-pass evaluation -/

variable {J : Type*} [Fintype J] {T : ℕ}

/-- One tile of the one-pass evaluation: raise the maximum, rescale the two running sums by
    `exp (m - m')`, add the tile's terms. -/
noncomputable def step (s v : J → EReal) (st : EReal × EReal × EReal) : EReal × EReal × EReal :=
  let m' := max st.1 (Finset.univ.sup s)
  let a := Ideal.exp (st.1 - m')
  (m', a * st.2.1 + ∑ j, Ideal.exp (s j - m'), a * st.2.2 + ∑ j, Ideal.exp (s j - m') * v j)

/-- The state after the first `k` tiles, from `(⊥, 0, 0)`. -/
noncomputable def run (s v : Fin T → J → EReal) : (k : ℕ) → k ≤ T → EReal × EReal × EReal
  | 0, _ => (⊥, 0, 0)
  | k + 1, h => step (s ⟨k, h⟩) (v ⟨k, h⟩) (run s v k (Nat.le_of_succ_le h))

@[simp] theorem run_zero (s v : Fin T → J → EReal) (h : 0 ≤ T) : run s v 0 h = (⊥, 0, 0) := rfl

theorem run_succ (s v : Fin T → J → EReal) (k : ℕ) (h : k + 1 ≤ T) :
    run s v (k + 1) h = step (s ⟨k, h⟩) (v ⟨k, h⟩) (run s v k (Nat.le_of_succ_le h)) := rfl

/-- One tile on a state whose two sums are real and whose new maximum is a real `m'`: the new
    sums are real, the old ones scaled by `E μ * exp (-m')` plus the tile's terms
    `E (s j) * exp (-m')`. -/
theorem step_coe (s v : J → EReal) (μ : EReal) (l a m' : ℝ)
    (hμ : μ ≠ ⊤) (hs : ∀ j, s j ≠ ⊤) (hv : ∀ j, v j ≠ ⊤ ∧ v j ≠ ⊥)
    (hm : max μ (Finset.univ.sup s) = (m' : EReal)) :
    step s v (μ, (l : EReal), (a : EReal)) =
      ((m' : EReal),
       ((expR μ * Real.exp (-m') * l + ∑ j, expR (s j) * Real.exp (-m') : ℝ) : EReal),
       ((expR μ * Real.exp (-m') * a
          + ∑ j, expR (s j) * Real.exp (-m') * (v j).toReal : ℝ) : EReal)) := by
  have h1 : ∀ j, Ideal.exp (s j - (m' : EReal)) = ((expR (s j) * Real.exp (-m') : ℝ) : EReal) :=
    fun j => exp_sub_coe (hs j) m'
  have h2 : ∀ j, Ideal.exp (s j - (m' : EReal)) * v j
      = ((expR (s j) * Real.exp (-m') * (v j).toReal : ℝ) : EReal) := fun j => by
    rw [h1 j, EReal.coe_mul (expR (s j) * Real.exp (-m')), EReal.coe_toReal (hv j).1 (hv j).2]
  simp only [step, hm]
  rw [exp_sub_coe hμ m', Finset.sum_congr rfl fun j _ => h1 j,
    Finset.sum_congr rfl fun j _ => h2 j, ← coe_finset_sum, ← coe_finset_sum,
    ← EReal.coe_mul, ← EReal.coe_mul, ← EReal.coe_add, ← EReal.coe_add]

/-! ### Sums over the first `k` tiles -/

/-- The sum over the tiles below `k + 1` is the sum over the tiles below `k` plus tile `k`. -/
theorem sum_lt_succ (g : Fin T → ℝ) (k : ℕ) (hk : k < T) :
    (∑ t : Fin T, if t.val < k + 1 then g t else 0)
      = (∑ t : Fin T, if t.val < k then g t else 0) + g ⟨k, hk⟩ := by
  classical
  rw [← Finset.sum_filter, ← Finset.sum_filter]
  have h : Finset.univ.filter (fun t : Fin T => t.val < k + 1)
      = insert ⟨k, hk⟩ (Finset.univ.filter (fun t : Fin T => t.val < k)) := by
    ext t
    simp only [Finset.mem_filter, Finset.mem_univ, true_and, Finset.mem_insert, Fin.ext_iff]
    omega
  rw [h, Finset.sum_insert (by simp), add_comm]

/-- If `g` vanishes from tile `n` on, the sum over the tiles below `n` is the whole sum. -/
theorem sum_lt_of_masked (g : Fin T → ℝ) (n : ℕ) (hg : ∀ t : Fin T, n ≤ t.val → g t = 0) :
    (∑ t : Fin T, if t.val < n then g t else 0) = ∑ t : Fin T, g t := by
  refine Finset.sum_congr rfl fun t _ => ?_
  split_ifs with h
  · rfl
  · exact (hg t (not_lt.1 h)).symm

/-! ### The invariant -/

/-- After `k` tiles the state is `(μ, l, a)` with `l`, `a` real, `μ ≠ ⊤` (and `μ ≠ ⊥` from
    the first tile on), `E μ * l = Σ_{t<k} Σ_j E (s t j)` and
    `E μ * a = Σ_{t<k} Σ_j E (s t j) * v t j`. -/
theorem run_invariant (s v : Fin T → J → EReal)
    (hs_top : ∀ t j, s t j ≠ ⊤) (hv : ∀ t j, v t j ≠ ⊤ ∧ v t j ≠ ⊥)
    (hfirst : ∀ h : 0 < T, ∃ j, s ⟨0, h⟩ j ≠ ⊥) :
    ∀ (k : ℕ) (hk : k ≤ T), ∃ (μ : EReal) (l a : ℝ),
      run s v k hk = (μ, (l : EReal), (a : EReal)) ∧ μ ≠ ⊤ ∧ (0 < k → μ ≠ ⊥) ∧
      expR μ * l = (∑ t : Fin T, if t.val < k then ∑ j, expR (s t j) else 0) ∧
      expR μ * a
        = (∑ t : Fin T, if t.val < k then ∑ j, expR (s t j) * (v t j).toReal else 0) := by
  intro k
  induction k with
  | zero =>
    intro hk
    exact ⟨⊥, 0, 0, by simp, bot_ne_top, fun h => absurd h (lt_irrefl 0), by simp, by simp⟩
  | succ k ih =>
    intro hk
    obtain ⟨μ, l, a, hrun, hμt, hμb, hl, ha⟩ := ih (Nat.le_of_succ_le hk)
    -- the new maximum is a real number
    have hsup_le : Finset.univ.sup (s ⟨k, hk⟩) ≤ max μ (Finset.univ.sup (s ⟨k, hk⟩)) :=
      le_max_right _ _
    have hnt : max μ (Finset.univ.sup (s ⟨k, hk⟩)) ≠ ⊤ :=
      ne_of_lt (max_lt (lt_top_iff_ne_top.2 hμt)
        (lt_top_iff_ne_top.2 (sup_ne_top _ _ (hs_top ⟨k, hk⟩))))
    have hnb : max μ (Finset.univ.sup (s ⟨k, hk⟩)) ≠ ⊥ := by
      rcases Nat.eq_zero_or_pos k with h0 | hpos
      · subst h0
        obtain ⟨j, hj⟩ := hfirst hk
        have : s ⟨0, hk⟩ j ≤ max μ (Finset.univ.sup (s ⟨0, hk⟩)) :=
          le_trans (Finset.le_sup (f := s ⟨0, hk⟩) (Finset.mem_univ j)) hsup_le
        exact ne_of_gt (lt_of_lt_of_le (bot_lt_iff_ne_bot.2 hj) this)
      · exact ne_of_gt (lt_of_lt_of_le (bot_lt_iff_ne_bot.2 (hμb hpos)) (le_max_left _ _))
    have hm : max μ (Finset.univ.sup (s ⟨k, hk⟩))
        = ((max μ (Finset.univ.sup (s ⟨k, hk⟩))).toReal : EReal) :=
      (EReal.coe_toReal hnt hnb).symm
    generalize (max μ (Finset.univ.sup (s ⟨k, hk⟩))).toReal = m' at hm
    have hcancel : Real.exp m' * Real.exp (-m') = 1 := by
      rw [← Real.exp_add, add_neg_cancel, Real.exp_zero]
    refine ⟨(m' : EReal),
      expR μ * Real.exp (-m') * l + ∑ j, expR (s ⟨k, hk⟩ j) * Real.exp (-m'),
      expR μ * Real.exp (-m') * a
        + ∑ j, expR (s ⟨k, hk⟩ j) * Real.exp (-m') * (v ⟨k, hk⟩ j).toReal,
      ?_, EReal.coe_ne_top _, fun _ => EReal.coe_ne_bot _, ?_, ?_⟩
    · rw [run_succ, hrun]
      exact step_coe (s ⟨k, hk⟩) (v ⟨k, hk⟩) μ l a m' hμt (hs_top _) (hv _) hm
    · rw [sum_lt_succ _ k hk, ← hl, expR_coe, ← Finset.sum_mul]
      linear_combination (expR μ * l + ∑ j, expR (s ⟨k, hk⟩ j)) * hcancel
    · have hsum : (∑ j, expR (s ⟨k, hk⟩ j) * Real.exp (-m') * (v ⟨k, hk⟩ j).toReal)
          = (∑ j, expR (s ⟨k, hk⟩ j) * (v ⟨k, hk⟩ j).toReal) * Real.exp (-m') := by
        rw [Finset.sum_mul]
        exact Finset.sum_congr rfl fun j _ => by ring
      rw [sum_lt_succ _ k hk, ← ha, expR_coe, hsum]
      linear_combination
        (expR μ * a + ∑ j, expR (s ⟨k, hk⟩ j) * (v ⟨k, hk⟩ j).toReal) * hcancel

/-! ### The theorem -/

/-- The coercion `ℝ → EReal` commutes with finite double sums. -/
theorem coe_sum_sum {ι κ : Type*} (S : Finset ι) (S' : Finset κ) (f : ι → κ → ℝ) :
    ((∑ i ∈ S, ∑ j ∈ S', f i j : ℝ) : EReal) = ∑ i ∈ S, ∑ j ∈ S', (f i j : EReal) := by
  rw [coe_finset_sum]
  exact Finset.sum_congr rfl fun i _ => coe_finset_sum _ _

/-- **Online softmax.**  Let the scores never be `⊤`, the values be finite, the first tile hold
    a finite score, and the tiles from `n` on be wholly masked (`⊥`).  Then the quotient of the
    two running sums after `n` tiles is `Σ_t Σ_j (exp (s t j - M) / L) * v t j`, with `M` the
    maximum of all scores and `L = Σ_t Σ_j exp (s t j - M)`.  Both sides are the real number
    `(Σ E (s t j) * v t j) / (Σ E (s t j))`: on the left the common factor is `exp (-m)` for
    the running maximum `m`, on the right it is `exp (-M)`. -/
theorem online_eq_softmax (s v : Fin T → J → EReal) (n : ℕ) (hn : 0 < n) (hnT : n ≤ T)
    (hs_top : ∀ t j, s t j ≠ ⊤) (hv : ∀ t j, v t j ≠ ⊤ ∧ v t j ≠ ⊥)
    (hfirst : ∃ j, s ⟨0, by omega⟩ j ≠ ⊥)
    (hmasked : ∀ t : Fin T, n ≤ t.val → ∀ j, s t j = ⊥) :
    Ideal.div (run s v n hnT).2.2 (run s v n hnT).2.1
      = ∑ t, ∑ j,
          Ideal.div (Ideal.exp (s t j - Finset.univ.sup fun t => Finset.univ.sup (s t)))
            (∑ t, ∑ j, Ideal.exp (s t j - Finset.univ.sup fun t => Finset.univ.sup (s t)))
          * v t j := by
  have hT : 0 < T := lt_of_lt_of_le hn hnT
  obtain ⟨j0, hj0⟩ := hfirst
  -- the two unscaled sums; the first is positive
  have hSpos : 0 < ∑ t : Fin T, ∑ j, expR (s t j) := by
    have h0 : 0 < expR (s ⟨0, hT⟩ j0) := expR_pos (hs_top _ _) hj0
    have h1 : expR (s ⟨0, hT⟩ j0) ≤ ∑ j, expR (s ⟨0, hT⟩ j) :=
      Finset.single_le_sum (f := fun j => expR (s ⟨0, hT⟩ j)) (fun j _ => expR_nonneg _)
        (Finset.mem_univ j0)
    have h2 : (∑ j, expR (s ⟨0, hT⟩ j)) ≤ ∑ t : Fin T, ∑ j, expR (s t j) :=
      Finset.single_le_sum (f := fun t : Fin T => ∑ j, expR (s t j))
        (fun t _ => Finset.sum_nonneg fun j _ => expR_nonneg _) (Finset.mem_univ _)
    linarith
  generalize hS : (∑ t : Fin T, ∑ j, expR (s t j)) = S at hSpos
  generalize hA : (∑ t : Fin T, ∑ j, expR (s t j) * (v t j).toReal) = A
  -- the state after `n` tiles
  obtain ⟨μ, l, a, hrun, hμt, hμb, hl, ha⟩ :=
    run_invariant s v hs_top hv (fun _ => ⟨j0, hj0⟩) n hnT
  rw [sum_lt_of_masked _ n (fun t ht => by simp [hmasked t ht]), hS] at hl
  rw [sum_lt_of_masked _ n (fun t ht => by simp [hmasked t ht]), hA] at ha
  obtain ⟨m, rfl⟩ : ∃ m : ℝ, μ = (m : EReal) :=
    ⟨μ.toReal, (EReal.coe_toReal hμt (hμb hn)).symm⟩
  rw [expR_coe] at hl ha
  have hl0 : l ≠ 0 := by
    rintro rfl
    rw [mul_zero] at hl
    exact hSpos.ne hl
  -- the global maximum is a real number
  have hMt : (Finset.univ.sup fun t => Finset.univ.sup (s t)) ≠ ⊤ :=
    sup_ne_top _ _ fun t => sup_ne_top _ _ (hs_top t)
  have hMb : (Finset.univ.sup fun t => Finset.univ.sup (s t)) ≠ ⊥ :=
    ne_of_gt (lt_of_lt_of_le (bot_lt_iff_ne_bot.2 hj0)
      (le_trans (Finset.le_sup (f := s ⟨0, hT⟩) (Finset.mem_univ j0))
        (Finset.le_sup (f := fun t : Fin T => Finset.univ.sup (s t))
          (Finset.mem_univ (⟨0, hT⟩ : Fin T)))))
  obtain ⟨M, hM⟩ : ∃ M : ℝ, (Finset.univ.sup fun t => Finset.univ.sup (s t)) = (M : EReal) :=
    ⟨_, (EReal.coe_toReal hMt hMb).symm⟩
  rw [hM]
  -- the denominator
  have hL : (∑ t, ∑ j, Ideal.exp (s t j - (M : EReal))) = ((S * Real.exp (-M) : ℝ) : EReal) := by
    rw [← hS, Finset.sum_mul, coe_finset_sum]
    refine Finset.sum_congr rfl fun t _ => ?_
    rw [Finset.sum_mul, coe_finset_sum]
    exact Finset.sum_congr rfl fun j _ => exp_sub_coe (hs_top t j) M
  have hL0 : S * Real.exp (-M) ≠ 0 := mul_ne_zero hSpos.ne' (Real.exp_pos _).ne'
  have hterm : ∀ t j,
      Ideal.div (Ideal.exp (s t j - (M : EReal))) ((S * Real.exp (-M) : ℝ) : EReal) * v t j
        = ((expR (s t j) * Real.exp (-M) * (1 / (S * Real.exp (-M))) * (v t j).toReal : ℝ)
            : EReal) := fun t j => by
    rw [Ideal.div_coe hL0, exp_sub_coe (hs_top t j) M, ← EReal.coe_mul,
      EReal.coe_mul (expR (s t j) * Real.exp (-M) * (1 / (S * Real.exp (-M)))),
      EReal.coe_toReal (hv t j).1 (hv t j).2]
  rw [hL, Finset.sum_congr rfl fun t _ => Finset.sum_congr rfl fun j _ => hterm t j,
    ← coe_sum_sum, hrun]
  show Ideal.div (a : EReal) (l : EReal) = _
  rw [Ideal.div_coe hl0, ← EReal.coe_mul]
  congr 1
  -- the identity between real numbers
  have hR : (∑ t : Fin T, ∑ j,
      expR (s t j) * Real.exp (-M) * (1 / (S * Real.exp (-M))) * (v t j).toReal)
        = A * (Real.exp (-M) * (1 / (S * Real.exp (-M)))) := by
    rw [← hA, Finset.sum_mul]
    refine Finset.sum_congr rfl fun t _ => ?_
    rw [Finset.sum_mul]
    exact Finset.sum_congr rfl fun j _ => by ring
  rw [hR, ← ha, ← hl]
  have hem : Real.exp m ≠ 0 := (Real.exp_pos m).ne'
  have heM : Real.exp (-M) ≠ 0 := (Real.exp_pos (-M)).ne'
  field_simp

end Cert.Lib.OnlineSoftmax
-- ==== Proof.Spec.lean ====
/-
  The two results of the bidirectional attention as functions of the two argument arrays, index by index
  over the extended reals, written twice: as the reference computes them (a softmax over the 4096 spatial
  positions of the scaled scores, for every batch and every text token, then two contractions) and as the
  two kernels compute them (the running-maximum evaluation over 8 tiles of 512 positions for the first
  result and the logarithm of the denominator; exp (score - lse) for the second).

  Coordinates: the spatial array is read as Fs b c n (batch, channel, position n = 64 h + w), the text array
  as Ft b m c (batch, token, channel).
-/
import proofs.«159953_j57449482551604_2_alg».proof.Proof.LibOnlineSoftmax

noncomputable section

namespace Cert.Spec

open Idealize.ShloMosaic
open scoped BigOperators

/-- The spatial features, by batch, channel and position. -/
abbrev SArr : Type := Fin 4 → Fin 128 → Fin 4096 → EReal
/-- The text features, by batch, token and channel. -/
abbrev TArr : Type := Fin 4 → Fin 2048 → Fin 128 → EReal

variable (Fs : SArr) (Ft : TArr)

/-- The scaled score of position n against token m: the channel contraction times 1/64 = 1/sqrt 4096. -/
def score (b : Fin 4) (n : Fin 4096) (m : Fin 2048) : EReal :=
  (∑ c : Fin 128, Fs b c n * Ft b m c) * ((1 / 64 : ℝ) : EReal)

/-- The largest score of a token over all positions. -/
def colMax (b : Fin 4) (m : Fin 2048) : EReal := Finset.univ.sup fun n : Fin 4096 => score Fs Ft b n m

/-- The softmax denominator of a token. -/
def colSum (b : Fin 4) (m : Fin 2048) : EReal := ∑ n : Fin 4096, Ideal.exp (score Fs Ft b n m - colMax Fs Ft b m)

/-- The attention weight: the softmax over the positions, for each token. -/
def attn (b : Fin 4) (n : Fin 4096) (m : Fin 2048) : EReal :=
  Ideal.div (Ideal.exp (score Fs Ft b n m - colMax Fs Ft b m)) (colSum Fs Ft b m)

/-- The updated text features, as the reference contracts them. -/
def refFt (b : Fin 4) (m : Fin 2048) (c : Fin 128) : EReal := ∑ n : Fin 4096, attn Fs Ft b n m * Fs b c n

/-- The updated spatial features, as the reference contracts them, with the residual. -/
def refFs (b : Fin 4) (c : Fin 128) (n : Fin 4096) : EReal := Fs b c n + ∑ m : Fin 2048, attn Fs Ft b n m * Ft b m c

/-- Position j of tile t. -/
def tix (t : Fin 8) (j : Fin 512) : Fin 4096 := ⟨512 * t.val + j.val, by omega⟩

/-- A token's scores, tile by tile. -/
def sT (b : Fin 4) (m : Fin 2048) : Fin 8 → Fin 512 → EReal := fun t j => score Fs Ft b (tix t j) m

/-- A channel's spatial values, tile by tile. -/
def vT (b : Fin 4) (c : Fin 128) : Fin 8 → Fin 512 → EReal := fun t j => Fs b c (tix t j)

/-- The running (maximum, denominator, weighted sum) after the first k tiles. -/
def st (b : Fin 4) (m : Fin 2048) (c : Fin 128) (k : ℕ) (hk : k ≤ 8) : EReal × EReal × EReal :=
  Cert.Lib.OnlineSoftmax.run (sT Fs Ft b m) (vT Fs b c) k hk

/-- The updated text features, as the first kernel ends: the weighted sum over the denominator after all 8 tiles. -/
def kerFt (b : Fin 4) (m : Fin 2048) (c : Fin 128) : EReal :=
  Ideal.div (st Fs Ft b m c 8 le_rfl).2.2 (st Fs Ft b m c 8 le_rfl).2.1

/-- The first kernel's second result: running maximum plus the logarithm of the denominator after all 8 tiles
    (read at channel 0: the first two components of the state do not depend on the channel). -/
def lse (b : Fin 4) (m : Fin 2048) : EReal :=
  (st Fs Ft b m 0 8 le_rfl).1 + Ideal.log (st Fs Ft b m 0 8 le_rfl).2.1

/-- The updated spatial features, as the second kernel computes them. -/
def kerFs (b : Fin 4) (c : Fin 128) (n : Fin 4096) : EReal :=
  Fs b c n + ∑ m : Fin 2048, Ft b m c * Ideal.exp (score Fs Ft b n m - lse Fs Ft b m)

/-- Every entry of both arrays is a real number. -/
def Finite : Prop := (∀ b c n, Fs b c n ≠ ⊤ ∧ Fs b c n ≠ ⊥) ∧ (∀ b m c, Ft b m c ≠ ⊤ ∧ Ft b m c ≠ ⊥)

end Cert.Spec

end
-- ==== Proof.SpecIdx.lean ====
/-
  The two argument arrays read by coordinates: the spatial array [4, 128, 64, 64] as batch, channel and flat
  position n = 64 h + w, the text array [4, 2048, 128] as batch, token and channel.
-/
import proofs.«159953_j57449482551604_2_alg».proof.Proof.Spec
import Idealize.ShloMosaic.Lib.ValueIdx

noncomputable section

namespace Cert.Spec

open Idealize.ShloMosaic Idealize.ShloMosaic.ValueIdx

/-- The spatial array by batch, channel and flat position: position n is row n / 64, column n % 64. -/
def FsOf (x : (⟨4, ![4, 128, 64, 64]⟩ : Shape).Idx → EReal) : SArr := fun b c n =>
  x (ix4 b c ⟨n.val / 64, by omega⟩ ⟨n.val % 64, by omega⟩)

/-- The text array by batch, token and channel. -/
def FtOf (y : (⟨3, ![4, 2048, 128]⟩ : Shape).Idx → EReal) : TArr := fun b m c => y (ix3 b m c)

end Cert.Spec

end
-- ==== Proof.HostRead.lean ====
/-
  The host operations of the program around the two kernels, read at an index on the extended reals. Before the
  kernels the spatial array [4, 128, 64, 64] is reshaped to [4, 128, 4096] (position n = 64 h + w, so row n / 64 and
  column n % 64) and the text array is converted to the shorter format, which on the extended reals changes nothing.
  After them the second kernel's result [4, 128, 4096] is reshaped back to [4, 128, 64, 64]; the first kernel's result
  is left as that kernel wrote it.
-/
import proofs.«159953_j57449482551604_2_alg».proof.Proof.Gen.KernelIdeal.Regions
import proofs.«159953_j57449482551604_2_alg».proof.Proof.SpecIdx
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (outs : Outs (F := Ideal)) (c : Dev nD)

/-- Before the kernels the reshaped spatial array is the launch array's row-major recast. -/
theorem V1_main_v0_eq :
    (V1 (F := Ideal) m c main_v0 : S4x128x4096.Idx → EReal)
      = shapeCast S4x128x4096 (m ((c : Thread nD τ).loc main_arg0) : S4x128x64x64.Idx → EReal)
          shapeCasts_S4x128x64x64_S4x128x4096 := by
  dsimp only [V1, hostOps0]
  after_results
  rfl

/-- Before the kernels the converted text array is the launch array itself. -/
theorem V1_main_v1_eq :
    (V1 (F := Ideal) m c main_v1 : S4x2048x128.Idx → EReal)
      = (m ((c : Thread nD τ).loc main_arg1) : S4x2048x128.Idx → EReal) := by
  dsimp only [V1, hostOps0]
  after_results
  rfl

/-- At the end the program's second result is the row-major recast of what the second kernel left. -/
theorem V4_main_v4_eq :
    (V4 (F := Ideal) m outs c main_v4 : S4x128x64x64.Idx → EReal)
      = shapeCast S4x128x64x64 (outs 3 main_v3 c : S4x128x4096.Idx → EReal) shapeCasts_S4x128x4096_S4x128x64x64 := by
  have h3 : V3 (F := Ideal) m outs c main_v3 = outs 3 main_v3 c := Function.update_self _ _ _
  dsimp only [V4, hostOps2]
  after_results
  rw [h3]
  rfl

/-- The reshaped spatial array at (b, ch, n) is the launch array at (b, ch, n / 64, n % 64). -/
theorem V1_main_v0_apply (b : Fin 4) (ch : Fin 128) (n : Fin 4096) :
    (V1 (F := Ideal) m c main_v0 : S4x128x4096.Idx → EReal) (ix3 b ch n)
      = Cert.Spec.FsOf (m ((c : Thread nD τ).loc main_arg0)) b ch n := by
  rw [V1_main_v0_eq]
  unfold Cert.Spec.FsOf
  refine shapeCast_apply _ shapeCasts_S4x128x64x64_S4x128x4096 (ix3 b ch n)
    (ix4 b ch ⟨n.val / 64, by omega⟩ ⟨n.val % 64, by omega⟩) ?_
  rw [Shape.rowMajor_val_four, Shape.rowMajor_val_three]
  show ((b.val * 128 + ch.val) * 64 + n.val / 64) * 64 + n.val % 64 = (b.val * 128 + ch.val) * 4096 + n.val
  omega

/-- The converted text array at (b, t, ch) is the launch array there. -/
theorem V1_main_v1_apply (b : Fin 4) (t : Fin 2048) (ch : Fin 128) :
    (V1 (F := Ideal) m c main_v1 : S4x2048x128.Idx → EReal) (ix3 b t ch)
      = Cert.Spec.FtOf (m ((c : Thread nD τ).loc main_arg1)) b t ch := by
  rw [V1_main_v1_eq]
  rfl

/-- The program's second result at (b, ch, h, w) is the second kernel's result at (b, ch, 64 h + w). -/
theorem V4_main_v4_apply (b : Fin 4) (ch : Fin 128) (h w : Fin 64) :
    (V4 (F := Ideal) m outs c main_v4 : S4x128x64x64.Idx → EReal) (ix4 b ch h w)
      = (outs 3 main_v3 c : S4x128x4096.Idx → EReal) (ix3 b ch ⟨64 * h.val + w.val, by omega⟩) := by
  rw [V4_main_v4_eq]
  refine shapeCast_apply _ shapeCasts_S4x128x4096_S4x128x64x64 (ix4 b ch h w)
    (ix3 b ch ⟨64 * h.val + w.val, by omega⟩) ?_
  rw [Shape.rowMajor_val_four, Shape.rowMajor_val_three]
  show (b.val * 128 + ch.val) * 4096 + (64 * h.val + w.val) = ((b.val * 128 + ch.val) * 64 + h.val) * 64 + w.val
  omega

/-- The program's first result is what the first kernel left: nothing after that kernel writes it. -/
theorem V4_main_v2_0_eq : V4 (F := Ideal) m outs c main_v2_0 = outs 2 main_v2_0 c :=
  (V4_of m outs c main_v2_0 (by decide)).trans <| (V3_of m outs c main_v2_0 (by decide)).trans <| by
    simp only [V2]
    rw [Function.update_of_ne (StableHlo.devRef_ne_of_ne (by decide : main_v2_0 ≠ main_v2_1) :
        (Proc.devRef .tc main_v2_0 : DevRef τ sig) ≠ Proc.devRef .tc main_v2_1), Function.update_self]

end Cert.KernelIdeal.Hand

end
-- ==== Proof.Pay0Consts.lean ====
/-
  The float literals of the first kernel as extended reals: the scale 1/64 = 1/sqrt 4096 of the scores,
  the zero the two running sums start from, and the minus infinity the running maximum starts from.
-/
import Idealize.ShloMosaic.PureOps.Ideal
import Idealize.ShloMosaic.PureOps.Ideal.Laws

noncomputable section

namespace Cert.KernelIdeal.PayValue

open Idealize.ShloMosaic

/-- The scale literal 1.5625e-2 denotes 1/64. -/
theorem ofBits_scale : Ideal.ofBits .f32 0x3C800000#32 = ((1 / 64 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-- The pattern of plus zero denotes zero. -/
theorem ofBits_zero : Ideal.ofBits .f32 0x00000000#32 = 0 := Ideal.ofBits_zero_f32

end Cert.KernelIdeal.PayValue

end
-- ==== Proof.Pay0Layout.lean ====
/-
  Two layout operations read at an index given by coordinates: a column broadcast along the rows' second
  axis, and a row of length one per entry turned into a column.
-/
import Idealize.ShloMosaic.Lib.ValueIdx
import Idealize.ShloMosaic.Lib.ValueLayout
import Idealize.ShloMosaic.Lib.Pipeline.Value

namespace Cert.KernelIdeal.PayValue

open Idealize.ShloMosaic Idealize.ShloMosaic.ValueIdx

variable {α : Type}

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A `[1, a]` row transposed to an `[a, 1]` column reads, at `(p, 0)`, the row's entry at `p`. -/
theorem transpose_1a_a1_apply {a : ℕ} (v : (⟨2, ![1, a]⟩ : Shape).Idx → α)
    (h : (⟨2, ![1, a]⟩ : Shape).Transposes [1, 0] ⟨2, ![a, 1]⟩) (p : Fin a) (u : Fin 1) :
    transpose ⟨2, ![a, 1]⟩ [1, 0] v h (ix2 p u) = v (ix2 (0 : Fin 1) p) := by
  have hu : u = 0 := Subsingleton.elim _ _
  subst hu
  exact transpose_ix2_apply v h p 0

end Cert.KernelIdeal.PayValue
-- ==== Proof.Pay0Dot.lean ====
/-
  The operand indices of the first kernel's two contractions, by coordinates. Both contract axis 0 of the
  left operand with axis 1 of the right one: the result at (p, q) sums, over k, the left operand at (k, p)
  times the right operand at (q, k).
-/
import proofs.«159953_j57449482551604_2_alg».proof.Proof.Gen.KernelIdeal.Skeleton
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx

/-! ### Channels-by-positions times tokens-by-channels: the scores -/

theorem dotScore_lhs0 (i : S512x2048.Idx) (q : dot_S128x512_S2048x128_S512x2048_0_1_1_0_n_n.contr.Idx) :
    (dot_S128x512_S2048x128_S512x2048_0_1_1_0_n_n.lhsIdx i q 0).val = (q ⟨0, by decide⟩).val :=
  dot_S128x512_S2048x128_S512x2048_0_1_1_0_n_n.lhsIdx_val_of_single rfl i q

theorem dotScore_lhs1 (i : S512x2048.Idx) (q : dot_S128x512_S2048x128_S512x2048_0_1_1_0_n_n.contr.Idx) :
    (dot_S128x512_S2048x128_S512x2048_0_1_1_0_n_n.lhsIdx i q 1).val = (i 0).val := by
  unfold DotDims.lhsIdx
  rw [dif_neg (show ¬(1 : Fin S128x512.rank) ∈ dot_S128x512_S2048x128_S512x2048_0_1_1_0_n_n.lhsBatch by decide),
    dif_pos (show (1 : Fin S128x512.rank) ∈ dot_S128x512_S2048x128_S512x2048_0_1_1_0_n_n.lhsNonContracting by decide)]
  rfl

theorem dotScore_rhs0 (i : S512x2048.Idx) (q : dot_S128x512_S2048x128_S512x2048_0_1_1_0_n_n.contr.Idx) :
    (dot_S128x512_S2048x128_S512x2048_0_1_1_0_n_n.rhsIdx i q 0).val = (i 1).val := by
  unfold DotDims.rhsIdx
  rw [dif_neg (show ¬(0 : Fin S2048x128.rank) ∈ dot_S128x512_S2048x128_S512x2048_0_1_1_0_n_n.rhsBatch by decide),
    dif_pos (show (0 : Fin S2048x128.rank) ∈ dot_S128x512_S2048x128_S512x2048_0_1_1_0_n_n.rhsNonContracting by decide)]
  rfl

theorem dotScore_rhs1 (i : S512x2048.Idx) (q : dot_S128x512_S2048x128_S512x2048_0_1_1_0_n_n.contr.Idx) :
    (dot_S128x512_S2048x128_S512x2048_0_1_1_0_n_n.rhsIdx i q 1).val = (q ⟨0, by decide⟩).val :=
  dot_S128x512_S2048x128_S512x2048_0_1_1_0_n_n.rhsIdx_val_of_single rfl i q

/-- The left operand of the score at (j, m), channel c, is read at (c, j). -/
theorem dotScore_lhsIdx (j : Fin 512) (m : Fin 2048) (c : Fin 128) :
    dot_S128x512_S2048x128_S512x2048_0_1_1_0_n_n.lhsIdx (ix2 j m) ((contrEquiv1 dot_S128x512_S2048x128_S512x2048_0_1_1_0_n_n 128 rfl rfl).symm c) = ix2 c j :=
  funext fun a => Fin.ext (by
    match a with
    | ⟨0, _⟩ => exact (dotScore_lhs0 _ _).trans (contrEquiv1_symm_val dot_S128x512_S2048x128_S512x2048_0_1_1_0_n_n 128 rfl rfl c)
    | ⟨1, _⟩ => exact dotScore_lhs1 _ _)

/-- The right operand of the score at (j, m), channel c, is read at (m, c). -/
theorem dotScore_rhsIdx (j : Fin 512) (m : Fin 2048) (c : Fin 128) :
    dot_S128x512_S2048x128_S512x2048_0_1_1_0_n_n.rhsIdx (ix2 j m) ((contrEquiv1 dot_S128x512_S2048x128_S512x2048_0_1_1_0_n_n 128 rfl rfl).symm c) = ix2 m c :=
  funext fun a => Fin.ext (by
    match a with
    | ⟨0, _⟩ => exact dotScore_rhs0 _ _
    | ⟨1, _⟩ => exact (dotScore_rhs1 _ _).trans (contrEquiv1_symm_val dot_S128x512_S2048x128_S512x2048_0_1_1_0_n_n 128 rfl rfl c))

/-! ### Positions-by-tokens times channels-by-positions: the weighted sums -/

theorem dotAcc_lhs0 (i : S2048x128.Idx) (q : dot_S512x2048_S128x512_S2048x128_0_1_1_0_n_n.contr.Idx) :
    (dot_S512x2048_S128x512_S2048x128_0_1_1_0_n_n.lhsIdx i q 0).val = (q ⟨0, by decide⟩).val :=
  dot_S512x2048_S128x512_S2048x128_0_1_1_0_n_n.lhsIdx_val_of_single rfl i q

theorem dotAcc_lhs1 (i : S2048x128.Idx) (q : dot_S512x2048_S128x512_S2048x128_0_1_1_0_n_n.contr.Idx) :
    (dot_S512x2048_S128x512_S2048x128_0_1_1_0_n_n.lhsIdx i q 1).val = (i 0).val := by
  unfold DotDims.lhsIdx
  rw [dif_neg (show ¬(1 : Fin S512x2048.rank) ∈ dot_S512x2048_S128x512_S2048x128_0_1_1_0_n_n.lhsBatch by decide),
    dif_pos (show (1 : Fin S512x2048.rank) ∈ dot_S512x2048_S128x512_S2048x128_0_1_1_0_n_n.lhsNonContracting by decide)]
  rfl

theorem dotAcc_rhs0 (i : S2048x128.Idx) (q : dot_S512x2048_S128x512_S2048x128_0_1_1_0_n_n.contr.Idx) :
    (dot_S512x2048_S128x512_S2048x128_0_1_1_0_n_n.rhsIdx i q 0).val = (i 1).val := by
  unfold DotDims.rhsIdx
  rw [dif_neg (show ¬(0 : Fin S128x512.rank) ∈ dot_S512x2048_S128x512_S2048x128_0_1_1_0_n_n.rhsBatch by decide),
    dif_pos (show (0 : Fin S128x512.rank) ∈ dot_S512x2048_S128x512_S2048x128_0_1_1_0_n_n.rhsNonContracting by decide)]
  rfl

theorem dotAcc_rhs1 (i : S2048x128.Idx) (q : dot_S512x2048_S128x512_S2048x128_0_1_1_0_n_n.contr.Idx) :
    (dot_S512x2048_S128x512_S2048x128_0_1_1_0_n_n.rhsIdx i q 1).val = (q ⟨0, by decide⟩).val :=
  dot_S512x2048_S128x512_S2048x128_0_1_1_0_n_n.rhsIdx_val_of_single rfl i q

/-- The left operand of the weighted sum at (m, c), position j, is read at (j, m). -/
theorem dotAcc_lhsIdx (m : Fin 2048) (c : Fin 128) (j : Fin 512) :
    dot_S512x2048_S128x512_S2048x128_0_1_1_0_n_n.lhsIdx (ix2 m c) ((contrEquiv1 dot_S512x2048_S128x512_S2048x128_0_1_1_0_n_n 512 rfl rfl).symm j) = ix2 j m :=
  funext fun a => Fin.ext (by
    match a with
    | ⟨0, _⟩ => exact (dotAcc_lhs0 _ _).trans (contrEquiv1_symm_val dot_S512x2048_S128x512_S2048x128_0_1_1_0_n_n 512 rfl rfl j)
    | ⟨1, _⟩ => exact dotAcc_lhs1 _ _)

/-- The right operand of the weighted sum at (m, c), position j, is read at (c, j). -/
theorem dotAcc_rhsIdx (m : Fin 2048) (c : Fin 128) (j : Fin 512) :
    dot_S512x2048_S128x512_S2048x128_0_1_1_0_n_n.rhsIdx (ix2 m c) ((contrEquiv1 dot_S512x2048_S128x512_S2048x128_0_1_1_0_n_n 512 rfl rfl).symm j) = ix2 c j :=
  funext fun a => Fin.ext (by
    match a with
    | ⟨0, _⟩ => exact dotAcc_rhs0 _ _
    | ⟨1, _⟩ => exact (dotAcc_rhs1 _ _).trans (contrEquiv1_symm_val dot_S512x2048_S128x512_S2048x128_0_1_1_0_n_n 512 rfl rfl j))

end Cert.KernelIdeal.PayValue

end
-- ==== Proof.Pay0Score.lean ====
/-
  The first kernel's score tile read at an index: the contraction over the 128 channels of the spatial tile
  with the text block, times 1/64.
-/
import proofs.«159953_j57449482551604_2_alg».proof.Proof.Gen.KernelIdeal.Skeleton
import proofs.«159953_j57449482551604_2_alg».proof.Proof.Spec
import proofs.«159953_j57449482551604_2_alg».proof.Proof.Pay0Consts
import proofs.«159953_j57449482551604_2_alg».proof.Proof.Pay0Layout
import proofs.«159953_j57449482551604_2_alg».proof.Proof.Pay0Dot
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-- The scaled score of position `j` of a tile `x` against token `m` of a text block `f`: the contraction over the
    128 channels, times 1/64. -/
def sc (x : Vec Ideal S1x128x512 .f32) (f : Vec Ideal S1x2048x128 .bf16) (j : Fin 512) (m : Fin 2048) : EReal :=
  (∑ c : Fin 128, x (ix3 0 c j) * f (ix3 0 m c)) * ((1 / 64 : ℝ) : EReal)

/-- The tile as a channel-by-position matrix in the contraction's format: at the ideal values the tile itself. -/
theorem pay8_apply (x : Vec Ideal S1x128x512 .f32) (c : Fin 128) (j : Fin 512) :
    k0_pay8 x (ix2 c j) = x (ix3 0 c j) := by
  unfold k0_pay8
  exact shapeCast_1ab_ab_apply x shapeCasts_S1x128x512_S128x512 c j

/-- The score tile at position `j` and token `m`. -/
theorem pay9_apply (x : Vec Ideal S1x128x512 .f32) (f : Vec Ideal S1x2048x128 .bf16) (j : Fin 512) (m : Fin 2048) :
    k0_pay9 x f (ix2 j m) = sc x f j m := by
  unfold k0_pay9 sc
  show (matmul dot_S128x512_S2048x128_S512x2048_0_1_1_0_n_n none (k0_pay8 x)
      (shapeCast S2048x128 f shapeCasts_S1x2048x128_S2048x128) (constant S512x2048 .f32 0x00000000#32) (ix2 j m))
      * Ideal.ofBits .f32 0x3C800000#32 = _
  rw [ofBits_scale]
  refine congrArg (· * (((1 / 64 : ℝ) : EReal))) ?_
  refine (Ideal.matmul_constant_zero_apply dot_S128x512_S2048x128_S512x2048_0_1_1_0_n_n none (k0_pay8 x)
      (shapeCast S2048x128 f shapeCasts_S1x2048x128_S2048x128) (ix2 j m)).trans ?_
  rw [← Equiv.sum_comp (contrEquiv1 dot_S128x512_S2048x128_S512x2048_0_1_1_0_n_n 128 rfl rfl).symm]
  refine Finset.sum_congr rfl fun c _ => ?_
  rw [dotScore_lhsIdx, dotScore_rhsIdx, pay8_apply]
  exact congrArg (x (ix3 0 c j) * ·) (shapeCast_1ab_ab_apply f shapeCasts_S1x2048x128_S2048x128 m c)

end Cert.KernelIdeal.PayValue

end
-- ==== Proof.Pay0Step.lean ====
/-
  One tile of the first kernel's running-maximum sweep read at an index: the new maximum, the new denominator
  and the new weighted sum of a token are one step of the one-pass evaluation on that token's scores.
-/
import proofs.«159953_j57449482551604_2_alg».proof.Proof.Gen.KernelIdeal.Skeleton
import proofs.«159953_j57449482551604_2_alg».proof.Proof.Spec
import proofs.«159953_j57449482551604_2_alg».proof.Proof.Pay0Consts
import proofs.«159953_j57449482551604_2_alg».proof.Proof.Pay0Layout
import proofs.«159953_j57449482551604_2_alg».proof.Proof.Pay0Score
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

open Cert.Lib.OnlineSoftmax (step univ_fold_max_eq_sup)

/-- The running maximum of token `m` after the tile: the old one against the tile's largest score. -/
def newMax (x : Vec Ideal S1x128x512 .f32) (f : Vec Ideal S1x2048x128 .bf16) (m0 : Vec Ideal S1x2048 .f32)
    (m : Fin 2048) : EReal :=
  max (m0 (ix2 0 m)) (Finset.univ.sup fun j : Fin 512 => sc x f j m)

/-- A reduction over the positions of the tile reads, for token `m` and position `k`, the entry (k, m). -/
theorem reduce_lift (m : Fin 2048) (k : Fin 512) : reduces_S512x2048_S2048.lift (ix1 m) k = ix2 k m :=
  funext fun a => Fin.ext (by match a with | ⟨0, _⟩ => rfl | ⟨1, _⟩ => rfl)

/-- The new running maximum. -/
theorem pay10_apply (x : Vec Ideal S1x128x512 .f32) (f : Vec Ideal S1x2048x128 .bf16) (m0 : Vec Ideal S1x2048 .f32)
    (m : Fin 2048) : k0_pay10 x f m0 (ix2 0 m) = newMax x f m0 m := by
  unfold k0_pay10 newMax
  refine (maximumf_apply m0 _ (ix2 0 m)).trans ?_
  refine congrArg (max (m0 (ix2 0 m))) ?_
  refine (shapeCast_a_1a_apply _ shapeCasts_S2048_S1x2048 0 m).trans ?_
  refine (Ideal.multiReduction_maximumf_single (k0_pay9 x f) 0xFF800000#32 reduces_S512x2048_S2048 _ _
    (ix1 m)).trans ?_
  rw [Ideal.ofBits_def, ofBits_neg_inf, univ_fold_max_eq_sup]
  refine congrArg (Finset.univ : Finset (Fin 512)).sup (funext fun k => ?_)
  exact (congrArg (k0_pay9 x f) (reduce_lift m k)).trans (pay9_apply x f k m)

/-- The factor that rescales the two old sums: exp (old maximum - new maximum). -/
theorem pay11_apply (x : Vec Ideal S1x128x512 .f32) (f : Vec Ideal S1x2048x128 .bf16) (m0 m1 : Vec Ideal S1x2048 .f32)
    (m : Fin 2048) : k0_pay11 x f m0 m1 (ix2 0 m) = Ideal.exp (m1 (ix2 0 m) - newMax x f m0 m) := by
  unfold k0_pay11
  exact congrArg (fun y => Ideal.exp (m1 (ix2 0 m) - y)) (pay10_apply x f m0 m)

/-- The tile's exponentials: exp (score - new maximum). -/
theorem pay12_apply (x : Vec Ideal S1x128x512 .f32) (f : Vec Ideal S1x2048x128 .bf16) (m0 : Vec Ideal S1x2048 .f32)
    (j : Fin 512) (m : Fin 2048) : k0_pay12 x f m0 (ix2 j m) = Ideal.exp (sc x f j m - newMax x f m0 m) := by
  unfold k0_pay12
  have hb := broadcastTo_1b_ab_apply (k0_pay10 x f m0) broadcasts_S1x2048_S512x2048 j m
  exact congrArg₂ (fun a b => Ideal.exp (a - b)) (pay9_apply x f j m) (hb.trans (pay10_apply x f m0 m))

/-- The new denominator: the old one rescaled plus the sum of the tile's exponentials. -/
theorem pay13_apply (x : Vec Ideal S1x128x512 .f32) (f : Vec Ideal S1x2048x128 .bf16) (m0 m1 l0 : Vec Ideal S1x2048 .f32)
    (m : Fin 2048) :
    k0_pay13 x f m0 m1 l0 (ix2 0 m)
      = Ideal.exp (m1 (ix2 0 m) - newMax x f m0 m) * l0 (ix2 0 m)
        + ∑ j : Fin 512, Ideal.exp (sc x f j m - newMax x f m0 m) := by
  unfold k0_pay13
  rw [shapeCast_self]
  refine (addf_apply _ _ (ix2 0 m)).trans ?_
  refine congrArg₂ (· + ·) ?_ ?_
  · refine (mulf_apply _ l0 (ix2 0 m)).trans ?_
    exact congrArg (· * l0 (ix2 0 m)) (pay11_apply x f m0 m1 m)
  · refine (shapeCast_a_1a_apply _ shapeCasts_S2048_S1x2048 0 m).trans ?_
    refine (Ideal.multiReduction_add_single (k0_pay12 x f m0) 0x00000000#32 reduces_S512x2048_S2048 _ _
      (ix1 m)).trans ?_
    refine Finset.sum_congr rfl fun k _ => ?_
    exact (congrArg (k0_pay12 x f m0) (reduce_lift m k)).trans (pay12_apply x f m0 k m)

/-- The tile's contribution to the weighted sum: the exponentials contracted with the tile over its positions. -/
theorem pay14_apply (x : Vec Ideal S1x128x512 .f32) (f : Vec Ideal S1x2048x128 .bf16) (m0 : Vec Ideal S1x2048 .f32)
    (m : Fin 2048) (c : Fin 128) :
    k0_pay14 x f m0 (ix2 m c) = ∑ j : Fin 512, Ideal.exp (sc x f j m - newMax x f m0 m) * x (ix3 0 c j) := by
  unfold k0_pay14
  refine (Ideal.matmul_constant_zero_apply dot_S512x2048_S128x512_S2048x128_0_1_1_0_n_n none
    (truncf .bf16 (k0_pay12 x f m0) bitsLt_bf16_f32) (k0_pay8 x) (ix2 m c)).trans ?_
  rw [← Equiv.sum_comp (contrEquiv1 dot_S512x2048_S128x512_S2048x128_0_1_1_0_n_n 512 rfl rfl).symm]
  refine Finset.sum_congr rfl fun j _ => ?_
  rw [dotAcc_lhsIdx, dotAcc_rhsIdx, pay8_apply]
  exact congrArg (· * x (ix3 0 c j)) (pay12_apply x f m0 j m)

/-- The rescaling factor as a column. -/
theorem pay15_apply (x : Vec Ideal S1x128x512 .f32) (f : Vec Ideal S1x2048x128 .bf16) (m0 m1 : Vec Ideal S1x2048 .f32)
    (m : Fin 2048) : k0_pay15 x f m0 m1 (ix2 m 0) = Ideal.exp (m1 (ix2 0 m) - newMax x f m0 m) := by
  unfold k0_pay15
  exact (transpose_1a_a1_apply _ transposes_S1x2048_p1_0_S2048x1 m 0).trans (pay11_apply x f m0 m1 m)

/-- The stored weighted sum: the column times the old sum, along the channels, plus the contribution. -/
theorem pay1_apply (v30 : FVec Ideal S2048x128 .f32) (v31 : FVec Ideal S2048x1 .f32) (v32 : Vec Ideal S2048x128 .f32)
    (m : Fin 2048) (c : Fin 128) :
    k0_pay1 v30 v31 v32 (ix2 m c) = v31 (ix2 m 0) * v32 (ix2 m c) + v30 (ix2 m c) := by
  unfold k0_pay1
  rw [shapeCast_self]
  refine (addf_apply _ v30 (ix2 m c)).trans ?_
  refine congrArg (· + v30 (ix2 m c)) ?_
  refine (mulf_apply _ v32 (ix2 m c)).trans ?_
  exact congrArg (· * v32 (ix2 m c)) (broadcastTo_a1_ab_apply v31 broadcasts_S2048x1_S2048x128 m c)

/-! ### The tile as one step of the one-pass evaluation -/

/-- The stored running maximum of token `m` is the first component of the step on that token's scores. -/
theorem pay2_pay10_eq_step (x : Vec Ideal S1x128x512 .f32) (f : Vec Ideal S1x2048x128 .bf16)
    (m0 l0 : Vec Ideal S1x2048 .f32) (a0 : Vec Ideal S2048x128 .f32) (m : Fin 2048) (c : Fin 128) :
    k0_pay2 (k0_pay10 x f m0) (ix2 0 m)
      = (step (fun j : Fin 512 => sc x f j m) (fun j : Fin 512 => x (ix3 0 c j))
          (m0 (ix2 0 m), l0 (ix2 0 m), a0 (ix2 m c))).1 := by
  unfold k0_pay2
  rw [shapeCast_self]
  exact pay10_apply x f m0 m

/-- The stored denominator is the second component. -/
theorem pay13_eq_step (x : Vec Ideal S1x128x512 .f32) (f : Vec Ideal S1x2048x128 .bf16)
    (m0 l0 : Vec Ideal S1x2048 .f32) (a0 : Vec Ideal S2048x128 .f32) (m : Fin 2048) (c : Fin 128) :
    k0_pay13 x f m0 m0 l0 (ix2 0 m)
      = (step (fun j : Fin 512 => sc x f j m) (fun j : Fin 512 => x (ix3 0 c j))
          (m0 (ix2 0 m), l0 (ix2 0 m), a0 (ix2 m c))).2.1 :=
  pay13_apply x f m0 m0 l0 m

/-- The stored weighted sum of token `m` and channel `c` is the third component. -/
theorem pay1_eq_step (x : Vec Ideal S1x128x512 .f32) (f : Vec Ideal S1x2048x128 .bf16)
    (m0 l0 : Vec Ideal S1x2048 .f32) (a0 : Vec Ideal S2048x128 .f32) (m : Fin 2048) (c : Fin 128) :
    k0_pay1 (k0_pay14 x f m0) (k0_pay15 x f m0 m0) a0 (ix2 m c)
      = (step (fun j : Fin 512 => sc x f j m) (fun j : Fin 512 => x (ix3 0 c j))
          (m0 (ix2 0 m), l0 (ix2 0 m), a0 (ix2 m c))).2.2 :=
  (pay1_apply _ _ a0 m c).trans
    (congrArg₂ (fun p q => p * a0 (ix2 m c) + q) (pay15_apply x f m0 m0 m) (pay14_apply x f m0 m c))

end Cert.KernelIdeal.PayValue

end
-- ==== Proof.Pay0Final.lean ====
/-
  The first kernel's initial state and its two final stores read at an index: the state starts at
  (minus infinity, 0, 0); the results are the weighted sum over the denominator, and the running maximum plus
  the logarithm of the denominator.
-/
import proofs.«159953_j57449482551604_2_alg».proof.Proof.Gen.KernelIdeal.Skeleton
import proofs.«159953_j57449482551604_2_alg».proof.Proof.Spec
import proofs.«159953_j57449482551604_2_alg».proof.Proof.Pay0Consts
import proofs.«159953_j57449482551604_2_alg».proof.Proof.Pay0Layout
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-! ### The initial state -/

/-- The running maximum starts at minus infinity. -/
theorem pay5_apply (i : S1x2048.Idx) : k0_pay5 (F := Ideal) i = ⊥ := by
  unfold k0_pay5
  rw [shapeCast_self]
  exact ofBits_neg_inf

/-- The denominator starts at zero. -/
theorem pay6_apply (i : S1x2048.Idx) : k0_pay6 (F := Ideal) i = 0 := by
  unfold k0_pay6
  rw [shapeCast_self]
  exact ofBits_zero

/-- The weighted sum starts at zero. -/
theorem pay7_apply (i : S2048x128.Idx) : k0_pay7 (F := Ideal) i = 0 := by
  unfold k0_pay7
  rw [shapeCast_self]
  exact ofBits_zero

/-! ### The final stores -/

/-- The first result: the weighted sum of token `m` and channel `c` over the token's denominator. -/
theorem pay3_apply (l : Vec Ideal S1x2048 .f32) (a : Vec Ideal S2048x128 .f32) (m : Fin 2048) (c : Fin 128) :
    k0_pay3 l a (ix3 0 m c) = Ideal.div (a (ix2 m c)) (l (ix2 0 m)) := by
  unfold k0_pay3
  refine (shapeCast_ab_1ab_apply _ shapeCasts_S2048x128_S1x2048x128 0 m c).trans ?_
  refine (divf_apply a _ (ix2 m c)).trans ?_
  refine congrArg (Ideal.div (a (ix2 m c))) ?_
  refine (broadcastTo_a1_ab_apply _ broadcasts_S2048x1_S2048x128 m c).trans ?_
  exact transpose_1a_a1_apply l transposes_S1x2048_p1_0_S2048x1 m 0

/-- The second result: the running maximum of token `m` plus the logarithm of its denominator. -/
theorem pay4_apply (mm l : Vec Ideal S1x2048 .f32) (m : Fin 2048) :
    k0_pay4 mm l (ix3 0 0 m) = mm (ix2 0 m) + Ideal.log (l (ix2 0 m)) := by
  unfold k0_pay4
  exact shapeCast_ab_1ab_apply _ shapeCasts_S1x2048_S1x1x2048 0 0 m

end Cert.KernelIdeal.PayValue

end
-- ==== Proof.K0State.lean ====
/-
  The first kernel's running state is the specification's one-pass evaluation. The grid is 4 batches by 8 tiles; the
  state (running maximum, denominator, weighted sum) is reset at a batch's first tile and updated once per tile from
  the spatial window's block (512 positions of the batch) and the text window's block (the batch's text). Read at a
  token and a channel, one update is one step of the one-pass evaluation on the token's 512 scores against the tile
  and the channel's 512 values, so after tile k of batch b the state is the evaluation's state after k + 1 tiles; after
  the last tile the two result blocks are the weighted sum over the denominator and the maximum plus the logarithm of
  the denominator.
-/
import proofs.«159953_j57449482551604_2_alg».proof.Proof.K0Dat
import proofs.«159953_j57449482551604_2_alg».proof.Proof.Geom0
import proofs.«159953_j57449482551604_2_alg».proof.Proof.HostRead
import proofs.«159953_j57449482551604_2_alg».proof.Proof.Pay0Score
import proofs.«159953_j57449482551604_2_alg».proof.Proof.Pay0Step
import proofs.«159953_j57449482551604_2_alg».proof.Proof.Pay0Final
import proofs.«159953_j57449482551604_2_alg».proof.Proof.Spec
import Idealize.ShloMosaic.Lib.ValueIdx

noncomputable section

namespace Cert.KernelIdeal.Hand

open Cert.KernelIdeal Cert.KernelIdeal.Gen Cert.KernelIdeal.PayValue
open Idealize.ShloMosaic Idealize.ShloMosaic.TcCoe Idealize.ShloMosaic.ValueIdx Idealize.SL.Sem
open Cert.Lib.OnlineSoftmax (step run run_succ run_zero)
open scoped BigOperators

/-! ### One update and the reset state, read at a token and a channel -/

/-- The three entries of a state that concern token j and channel ch: its running maximum, its denominator, and its
    weighted sum at that channel. -/
def tri (s : St Ideal) (j : Fin 2048) (ch : Fin 128) : EReal × EReal × EReal :=
  ((s.1 (ix2 0 j) : EReal), (s.2.1 (ix2 0 j) : EReal), (s.2.2 (ix2 j ch) : EReal))

/-- One tile's update, read at a token and a channel, is one step of the one-pass evaluation on the token's scores
    against the tile and the channel's values on the tile. -/
theorem tri_stepF (x : Vec Ideal S1x128x512 .f32) (f : Vec Ideal S1x2048x128 .bf16) (s : St Ideal)
    (j : Fin 2048) (ch : Fin 128) :
    tri (stepF x f s) j ch
      = step (fun p : Fin 512 => sc x f p j) (fun p : Fin 512 => (x (ix3 0 ch p) : EReal)) (tri s j ch) :=
  Prod.ext (pay2_pay10_eq_step x f s.1 s.2.1 s.2.2 j ch)
    (Prod.ext (pay13_eq_step x f s.1 s.2.1 s.2.2 j ch) (pay1_eq_step x f s.1 s.2.1 s.2.2 j ch))

/-- The reset state is minus infinity, zero, zero at every token and channel. -/
theorem tri_initF (j : Fin 2048) (ch : Fin 128) : tri (initF (F := Ideal)) j ch = (⊥, 0, 0) :=
  Prod.ext (pay5_apply (ix2 0 j)) (Prod.ext (pay6_apply (ix2 0 j)) (pay7_apply (ix2 j ch)))

/-! ### The blocks of the two input windows, by batch and tile -/

/-- A grid point below 32 is a point of the first grid. -/
theorem lt_N0 {n : ℕ} (h : n < 32) : n < cfg0.N := N0_eq ▸ h

/-- The running state does not depend on how its point is written. -/
theorem stAt_congr {F : FTy → Type} [FloatOps F]
    (V : (c : Dev nD) → (b : Ref sig .tc) → Buf (Elt F) ((c : Thread nD τ).loc b)) (c : Dev nD)
    {n n' : ℕ} (h : n = n') (hn : n < cfg0.N) (hn' : n' < cfg0.N) : stAt V c n hn = stAt V c n' hn' := by
  subst h; rfl

/-- The specification's state does not depend on how its tile count is written. -/
theorem st_congr (Fs : Cert.Spec.SArr) (Ft : Cert.Spec.TArr) (b : Fin 4) (j : Fin 2048) (ch : Fin 128)
    {k k' : ℕ} (h : k = k') (hk : k ≤ 8) (hk' : k' ≤ 8) :
    Cert.Spec.st Fs Ft b j ch k hk = Cert.Spec.st Fs Ft b j ch k' hk' := by
  subst h; rfl

section Region0

/-- Every core's buffer contents when the first kernel's region is entered: the launch memory after the host
    operations before it. -/
abbrev Vin (m : (ℓ : Loc nD τ sig) → Buf (Elt Ideal) ℓ) :
    (c : Dev nD) → (b : Ref sig .tc) → Buf (Elt Ideal) ((c : Thread nD τ).loc b) :=
  fun c b => V1 (F := Ideal) m c b

/-- The spatial argument on core c, by batch, channel and position. -/
abbrev FsIn (m : (ℓ : Loc nD τ sig) → Buf (Elt Ideal) ℓ) (c : Dev nD) : Cert.Spec.SArr :=
  Cert.Spec.FsOf (m ((c : Thread nD τ).loc main_arg0))

/-- The text argument on core c, by batch, token and channel. -/
abbrev FtIn (m : (ℓ : Loc nD τ sig) → Buf (Elt Ideal) ℓ) (c : Dev nD) : Cert.Spec.TArr :=
  Cert.Spec.FtOf (m ((c : Thread nD τ).loc main_arg1))

variable (m : (ℓ : Loc nD τ sig) → Buf (Elt Ideal) ℓ) (c : Dev nD)

/-- The spatial window's block at tile k of batch b: channel ch, position p of the tile is the spatial array at
    batch b, channel ch, position 512 k + p. -/
theorem iblk0_0_apply (t : Fin cfg0.N) (b : Fin 4) (k : Fin 8) (ht : t.val = 8 * b.val + k.val) (ch : Fin 128)
    (p : Fin 512) :
    (iblk0 (Vin m) c 0 t : S1x128x512.Idx → EReal) (ix3 0 ch p) = Cert.Spec.vT (FsIn m c) b ch k p := by
  unfold iblk0
  refine (blk0_0_apply t (V1 (F := Ideal) m c main_v0 : S4x128x4096.Idx → EReal) ch p).trans ?_
  have e1 : (⟨t.val / 8, by have := lt32_0 t; omega⟩ : Fin 4) = b := Fin.ext (by show t.val / 8 = b.val; omega)
  have e2 : (⟨512 * (t.val % 8) + p.val, by omega⟩ : Fin 4096) = Cert.Spec.tix k p :=
    Fin.ext (by show 512 * (t.val % 8) + p.val = 512 * k.val + p.val; omega)
  rw [e1, e2]
  exact V1_main_v0_apply m c b ch (Cert.Spec.tix k p)

/-- The text window's block at any tile of batch b: token j, channel ch is the text array at batch b there. -/
theorem iblk0_1_apply (t : Fin cfg0.N) (b : Fin 4) (k : Fin 8) (ht : t.val = 8 * b.val + k.val) (j : Fin 2048)
    (ch : Fin 128) :
    (iblk0 (Vin m) c 1 t : S1x2048x128.Idx → EReal) (ix3 0 j ch) = (FtIn m c) b j ch := by
  unfold iblk0
  refine (blk0_1_apply t (V1 (F := Ideal) m c main_v1 : S4x2048x128.Idx → EReal) j ch).trans ?_
  have e1 : (⟨t.val / 8, by have := lt32_0 t; omega⟩ : Fin 4) = b := Fin.ext (by show t.val / 8 = b.val; omega)
  rw [e1]
  exact V1_main_v1_apply m c b j ch

/-- The scores of the block pair at tile k of batch b are the specification's scores of that tile. -/
theorem sc_iblk0 (t : Fin cfg0.N) (b : Fin 4) (k : Fin 8) (ht : t.val = 8 * b.val + k.val) (j : Fin 2048) :
    (fun p : Fin 512 => sc (iblk0 (Vin m) c 0 t) (iblk0 (Vin m) c 1 t) p j) = Cert.Spec.sT (FsIn m c) (FtIn m c) b j k := by
  funext p
  unfold sc
  show _ = (∑ c' : Fin 128, (FsIn m c) b c' (Cert.Spec.tix k p) * (FtIn m c) b j c') * ((1 / 64 : ℝ) : EReal)
  refine congrArg (· * ((1 / 64 : ℝ) : EReal)) (Finset.sum_congr rfl fun c' _ => ?_)
  rw [iblk0_0_apply m c t b k ht c' p, iblk0_1_apply m c t b k ht j c']
  rfl

/-- The values of channel ch on the block at tile k of batch b are the specification's values of that tile. -/
theorem v_iblk0 (t : Fin cfg0.N) (b : Fin 4) (k : Fin 8) (ht : t.val = 8 * b.val + k.val) (ch : Fin 128) :
    (fun p : Fin 512 => ((iblk0 (Vin m) c 0 t : S1x128x512.Idx → EReal) (ix3 0 ch p) : EReal)) = Cert.Spec.vT (FsIn m c) b ch k :=
  funext fun p => iblk0_0_apply m c t b k ht ch p

/-! ### The running state is the one-pass evaluation -/

/-- After tile k of batch b the running state, read at a token and a channel, is the one-pass evaluation of the
    token's scores and the channel's values over the batch's first k + 1 tiles: the state is reset at a batch's
    first tile and updated once per tile. -/
theorem stAt_run (b : Fin 4) (j : Fin 2048) (ch : Fin 128) :
    ∀ (k : ℕ) (hk : k < 8),
      tri (stAt (Vin m) c (8 * b.val + k) (lt_N0 (by omega))) j ch = Cert.Spec.st (FsIn m c) (FtIn m c) b j ch (k + 1) (by omega) := by
  intro k
  induction k with
  | zero =>
    intro hk
    have hn : 8 * b.val + 0 < cfg0.N := lt_N0 (by omega)
    have h0 := stAt_first (Vin m) c ⟨8 * b.val + 0, hn⟩ (by show (8 * b.val + 0) % 8 = 0; omega)
    refine (congrArg (tri · j ch) h0).trans ?_
    rw [tri_stepF, tri_initF, sc_iblk0 m c ⟨8 * b.val + 0, hn⟩ b ⟨0, hk⟩ rfl j,
      v_iblk0 m c ⟨8 * b.val + 0, hn⟩ b ⟨0, hk⟩ rfl ch]
    rfl
  | succ k ih =>
    intro hk
    have hn : 8 * b.val + (k + 1) < cfg0.N := lt_N0 (by omega)
    have h1 := stAt_next (Vin m) c ⟨8 * b.val + (k + 1), hn⟩ (by show ¬(8 * b.val + (k + 1)) % 8 = 0; omega)
    refine (congrArg (tri · j ch) h1).trans ?_
    rw [tri_stepF, sc_iblk0 m c ⟨8 * b.val + (k + 1), hn⟩ b ⟨k + 1, hk⟩ rfl j,
      v_iblk0 m c ⟨8 * b.val + (k + 1), hn⟩ b ⟨k + 1, hk⟩ rfl ch,
      stAt_congr (Vin m) c (show 8 * b.val + (k + 1) - 1 = 8 * b.val + k by omega) _ (lt_N0 (by omega)),
      ih (by omega)]
    rfl

/-- The running state after point t, read at token j and channel ch, is the specification's state of batch t / 8
    after t % 8 + 1 tiles. -/
theorem stAt_spec (t : Fin cfg0.N) (j : Fin 2048) (ch : Fin 128) :
    (((stAt (Vin m) c t.val t.isLt).1 (ix2 0 j) : EReal), ((stAt (Vin m) c t.val t.isLt).2.1 (ix2 0 j) : EReal),
        ((stAt (Vin m) c t.val t.isLt).2.2 (ix2 j ch) : EReal))
      = Cert.Spec.st (FsIn m c) (FtIn m c) ⟨t.val / 8, by have := lt32_0 t; omega⟩ j ch (t.val % 8 + 1) (by omega) := by
  have h := stAt_run m c ⟨t.val / 8, by have := lt32_0 t; omega⟩ j ch (t.val % 8) (by omega)
  rw [stAt_congr (Vin m) c (show 8 * (t.val / 8) + t.val % 8 = t.val by omega) _ t.isLt] at h
  exact h

/-! ### The two result blocks after a batch's last tile -/

/-- After a batch's last tile the specification's state is the one after all 8 tiles. -/
theorem stAt_last (t : Fin cfg0.N) (h7 : t.val % 8 = 7) (j : Fin 2048) (ch : Fin 128) :
    tri (stAt (Vin m) c t.val t.isLt) j ch
      = Cert.Spec.st (FsIn m c) (FtIn m c) ⟨t.val / 8, by have := lt32_0 t; omega⟩ j ch 8 le_rfl :=
  (stAt_spec m c t j ch).trans (st_congr _ _ _ j ch (by omega) _ _)

/-- The first result's block after a batch's last tile: the weighted sum over the denominator after all 8 tiles. -/
theorem out2F_spec (t : Fin cfg0.N) (h7 : t.val % 8 = 7) (j : Fin 2048) (ch : Fin 128) :
    (out2F (stAt (Vin m) c t.val t.isLt) : S1x2048x128.Idx → EReal) (ix3 0 j ch)
      = Cert.Spec.kerFt (FsIn m c) (FtIn m c) ⟨t.val / 8, by have := lt32_0 t; omega⟩ j ch := by
  have h := stAt_last m c t h7 j ch
  unfold out2F Cert.Spec.kerFt
  rw [pay3_apply, ← h]
  rfl

/-- The second result's block after a batch's last tile: the running maximum plus the logarithm of the denominator
    after all 8 tiles (neither depends on the channel). -/
theorem out3F_spec (t : Fin cfg0.N) (h7 : t.val % 8 = 7) (j : Fin 2048) :
    (out3F (stAt (Vin m) c t.val t.isLt) : S1x1x2048.Idx → EReal) (ix3 0 0 j)
      = Cert.Spec.lse (FsIn m c) (FtIn m c) ⟨t.val / 8, by have := lt32_0 t; omega⟩ j := by
  have h := stAt_last m c t h7 j 0
  unfold out3F Cert.Spec.lse
  rw [pay4_apply, ← h]
  rfl

end Region0

end Cert.KernelIdeal.Hand

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.Math1.lean ====
/-
  Tiles and positions, and the reality of the scores.

  The 4096 positions are 8 tiles of 512: position n is position n % 512 of tile n / 512, so a sum (in any
  commutative additive monoid) or a supremum taken tile by tile is the sum or supremum over all positions.
  When both argument arrays hold real numbers only, every score is a real number: a finite sum of products of
  reals, times the real 1/64.
-/
import proofs.«159953_j57449482551604_2_alg».proof.Proof.Spec
import proofs.«159953_j57449482551604_2_alg».proof.Proof.LibRealSums

noncomputable section

namespace Cert.Spec

open Idealize.ShloMosaic Cert.Lib.OnlineSoftmax Cert.RealSums
open scoped BigOperators

/-! ### Tiles and positions -/

/-- Every position is a position of a tile. -/
theorem eq_tix (n : Fin 4096) :
    n = tix ⟨n.val / 512, by omega⟩ ⟨n.val % 512, by omega⟩ := by
  apply Fin.ext
  show n.val = 512 * (n.val / 512) + n.val % 512
  omega

/-- The pairs (tile, position in the tile) are the 4096 positions. -/
def tileEquiv : Fin 8 × Fin 512 ≃ Fin 4096 where
  toFun x := tix x.1 x.2
  invFun n := (⟨n.val / 512, by omega⟩, ⟨n.val % 512, by omega⟩)
  left_inv x := by
    obtain ⟨t, j⟩ := x
    apply Prod.ext
    · apply Fin.ext
      show (512 * t.val + j.val) / 512 = t.val
      omega
    · apply Fin.ext
      show (512 * t.val + j.val) % 512 = j.val
      omega
  right_inv n := (eq_tix n).symm

/-- A sum taken tile by tile is the sum over all positions. -/
theorem sum_tix {β : Type*} [AddCommMonoid β] (g : Fin 4096 → β) :
    (∑ t : Fin 8, ∑ j : Fin 512, g (tix t j)) = ∑ n : Fin 4096, g n := by
  rw [← Equiv.sum_comp tileEquiv g, Fintype.sum_prod_type]
  rfl

/-- A supremum taken tile by tile is the supremum over all positions. -/
theorem sup_tix (g : Fin 4096 → EReal) :
    (Finset.univ.sup fun t : Fin 8 => Finset.univ.sup fun j : Fin 512 => g (tix t j))
      = Finset.univ.sup g := by
  apply le_antisymm
  · exact Finset.sup_le fun t _ => Finset.sup_le fun j _ => Finset.le_sup (Finset.mem_univ (tix t j))
  · refine Finset.sup_le fun n _ => ?_
    rw [eq_tix n]
    exact le_trans
      (Finset.le_sup (f := fun j : Fin 512 => g (tix ⟨n.val / 512, by omega⟩ j))
        (Finset.mem_univ (⟨n.val % 512, by omega⟩ : Fin 512)))
      (Finset.le_sup (f := fun t : Fin 8 => Finset.univ.sup fun j : Fin 512 => g (tix t j))
        (Finset.mem_univ (⟨n.val / 512, by omega⟩ : Fin 8)))

/-! ### The scores are real -/

/-- An extended real that is neither infinity is real. -/
theorem isReal_of_ne {x : EReal} (h : x ≠ ⊤ ∧ x ≠ ⊥) : IsReal x :=
  ⟨x.toReal, (EReal.coe_toReal h.1 h.2).symm⟩

theorem isReal_ne_top {x : EReal} (h : IsReal x) : x ≠ ⊤ := by
  obtain ⟨r, rfl⟩ := h
  exact EReal.coe_ne_top r

theorem isReal_ne_bot {x : EReal} (h : IsReal x) : x ≠ ⊥ := by
  obtain ⟨r, rfl⟩ := h
  exact EReal.coe_ne_bot r

variable {Fs : SArr} {Ft : TArr}

/-- With real arguments every score is real. -/
theorem score_isReal (h : Finite Fs Ft) (b : Fin 4) (n : Fin 4096) (m : Fin 2048) :
    IsReal (score Fs Ft b n m) :=
  IsReal.mul
    (isReal_sum _ _ fun c _ => IsReal.mul (isReal_of_ne (h.1 b c n)) (isReal_of_ne (h.2 b m c)))
    (isReal_coe _)

theorem score_ne_top (h : Finite Fs Ft) (b : Fin 4) (n : Fin 4096) (m : Fin 2048) :
    score Fs Ft b n m ≠ ⊤ := isReal_ne_top (score_isReal h b n m)

theorem score_ne_bot (h : Finite Fs Ft) (b : Fin 4) (n : Fin 4096) (m : Fin 2048) :
    score Fs Ft b n m ≠ ⊥ := isReal_ne_bot (score_isReal h b n m)

/-- The sum of the real exponentials of a token's scores over all positions. -/
def expSum (Fs : SArr) (Ft : TArr) (b : Fin 4) (m : Fin 2048) : ℝ :=
  ∑ n : Fin 4096, expR (score Fs Ft b n m)

/-- That sum is positive: each term is the exponential of a real number. -/
theorem expSum_pos (h : Finite Fs Ft) (b : Fin 4) (m : Fin 2048) : 0 < expSum Fs Ft b m :=
  Finset.sum_pos (fun n _ => expR_pos (score_ne_top h b n m) (score_ne_bot h b n m))
    ⟨0, Finset.mem_univ _⟩

/-- The tile-by-tile sum of the real exponentials is the same number. -/
theorem expSum_tiles (b : Fin 4) (m : Fin 2048) :
    (∑ t : Fin 8, ∑ j : Fin 512, expR (sT Fs Ft b m t j)) = expSum Fs Ft b m :=
  sum_tix fun n => expR (score Fs Ft b n m)

end Cert.Spec

end
-- ==== Proof.Math2.lean ====
/-
  The first kernel's result is the reference's.

  For a fixed batch, token and channel the first kernel runs the one-pass evaluation over the 8 tiles of the
  token's scores, with the channel's spatial values. All scores are real, so the quotient of the two running sums
  after the last tile is the softmax-weighted sum of the values taken with the maximum and the denominator over
  all tiles; tile by tile these are the maximum and the denominator over all 4096 positions, and the double sum
  is the sum over all positions: the reference's contraction of the attention weights with the spatial values.

  The running maximum and the running denominator never look at the values, so they are the same for every
  channel.
-/
import proofs.«159953_j57449482551604_2_alg».proof.Proof.Math1

noncomputable section

namespace Cert.Spec

open Idealize.ShloMosaic Cert.Lib.OnlineSoftmax Cert.RealSums
open scoped BigOperators

variable {Fs : SArr} {Ft : TArr}

/-- Tile by tile, the maximum of a token's scores is the maximum over all positions. -/
theorem sup_sT (b : Fin 4) (m : Fin 2048) :
    (Finset.univ.sup fun t : Fin 8 => Finset.univ.sup (sT Fs Ft b m t)) = colMax Fs Ft b m :=
  sup_tix fun n => score Fs Ft b n m

/-- Tile by tile, the denominator of a token is the denominator over all positions. -/
theorem sum_sT (b : Fin 4) (m : Fin 2048) :
    (∑ t : Fin 8, ∑ j : Fin 512, Ideal.exp (sT Fs Ft b m t j - colMax Fs Ft b m)) = colSum Fs Ft b m :=
  sum_tix fun n => Ideal.exp (score Fs Ft b n m - colMax Fs Ft b m)

/-- The first kernel's quotient after the 8 tiles is the reference's contraction. -/
theorem kerFt_eq_refFt (h : Finite Fs Ft) (b : Fin 4) (m : Fin 2048) (c : Fin 128) :
    kerFt Fs Ft b m c = refFt Fs Ft b m c := by
  have hrun := online_eq_softmax (sT Fs Ft b m) (vT Fs b c) 8 (by norm_num) le_rfl
    (fun t j => score_ne_top h b (tix t j) m) (fun t j => h.1 b c (tix t j))
    ⟨0, score_ne_bot h b (tix 0 0) m⟩ (fun t ht => absurd t.isLt (by omega))
  rw [sup_sT, sum_sT] at hrun
  show Ideal.div (run (sT Fs Ft b m) (vT Fs b c) 8 le_rfl).2.2 (run (sT Fs Ft b m) (vT Fs b c) 8 le_rfl).2.1
    = ∑ n : Fin 4096, attn Fs Ft b n m * Fs b c n
  rw [hrun]
  exact sum_tix fun n => attn Fs Ft b n m * Fs b c n

/-! ### The running maximum and denominator do not depend on the channel -/

theorem step_fst {J : Type*} [Fintype J] (s v : J → EReal) (x : EReal × EReal × EReal) :
    (step s v x).1 = max x.1 (Finset.univ.sup s) := rfl

theorem step_snd_fst {J : Type*} [Fintype J] (s v : J → EReal) (x : EReal × EReal × EReal) :
    (step s v x).2.1 = Ideal.exp (x.1 - max x.1 (Finset.univ.sup s)) * x.2.1
      + ∑ j, Ideal.exp (s j - max x.1 (Finset.univ.sup s)) := rfl

/-- After any number of tiles the running maximum and the running denominator are the same for two channels:
    a tile's update of these two components reads the scores and the two components only. -/
theorem st_fst_indep (b : Fin 4) (m : Fin 2048) (c c' : Fin 128) (k : ℕ) (hk : k ≤ 8) :
    (st Fs Ft b m c k hk).1 = (st Fs Ft b m c' k hk).1 ∧
      (st Fs Ft b m c k hk).2.1 = (st Fs Ft b m c' k hk).2.1 := by
  induction k with
  | zero => exact ⟨rfl, rfl⟩
  | succ k ih =>
    obtain ⟨h1, h2⟩ := ih (Nat.le_of_succ_le hk)
    unfold st at h1 h2 ⊢
    rw [run_succ, run_succ, step_fst, step_fst, step_snd_fst, step_snd_fst, h1, h2]
    exact ⟨rfl, rfl⟩

end Cert.Spec

end
-- ==== Proof.Math3.lean ====
/-
  The second kernel's result is the reference's.

  Fix a batch and a token, and let S be the sum over all positions of the real exponentials of the token's scores;
  S is positive. The reference's attention weight at a position is exp (score - M) / L with M the largest score, a
  real number, and L = S * exp (-M): the weight is exp (score) / S. The first kernel's state after the 8 tiles is
  (m, l, .) with m real and exp m * l = S, so l is positive, and m + log l = log (exp m * l) = log S: the second
  kernel's exp (score - lse) is exp (score) / S as well. The two contractions over the tokens then differ by the
  order of the two factors of each term.
-/
import proofs.«159953_j57449482551604_2_alg».proof.Proof.Math1

noncomputable section

namespace Cert.Spec

open Idealize.ShloMosaic Cert.Lib.OnlineSoftmax Cert.RealSums
open scoped BigOperators

variable {Fs : SArr} {Ft : TArr}

/-- The largest score of a token is a real number. -/
theorem colMax_real (h : Finite Fs Ft) (b : Fin 4) (m : Fin 2048) :
    ∃ M : ℝ, colMax Fs Ft b m = (M : EReal) := by
  have ht : colMax Fs Ft b m ≠ ⊤ := sup_ne_top _ _ fun n => score_ne_top h b n m
  have hb : colMax Fs Ft b m ≠ ⊥ :=
    ne_of_gt (lt_of_lt_of_le (bot_lt_iff_ne_bot.2 (score_ne_bot h b 0 m))
      (Finset.le_sup (f := fun n : Fin 4096 => score Fs Ft b n m) (Finset.mem_univ 0)))
  exact ⟨_, (EReal.coe_toReal ht hb).symm⟩

/-- The reference's attention weight is the real exponential of the score over the sum of all of them. -/
theorem attn_eq (h : Finite Fs Ft) (b : Fin 4) (n : Fin 4096) (m : Fin 2048) :
    attn Fs Ft b n m = ((expR (score Fs Ft b n m) / expSum Fs Ft b m : ℝ) : EReal) := by
  obtain ⟨M, hM⟩ := colMax_real h b m
  have hterm : ∀ n', Ideal.exp (score Fs Ft b n' m - (M : EReal))
      = ((expR (score Fs Ft b n' m) * Real.exp (-M) : ℝ) : EReal) :=
    fun n' => exp_sub_coe (score_ne_top h b n' m) M
  have hL : colSum Fs Ft b m = ((expSum Fs Ft b m * Real.exp (-M) : ℝ) : EReal) := by
    unfold colSum expSum
    rw [hM, Finset.sum_mul, coe_finset_sum]
    exact Finset.sum_congr rfl fun n' _ => hterm n'
  have hS := expSum_pos h b m
  have hL0 : expSum Fs Ft b m * Real.exp (-M) ≠ 0 := mul_ne_zero hS.ne' (Real.exp_pos _).ne'
  unfold attn
  rw [hL, hM, hterm n, Ideal.div_coe hL0, ← EReal.coe_mul]
  congr 1
  have heM : Real.exp (-M) ≠ 0 := (Real.exp_pos (-M)).ne'
  have hS0 : expSum Fs Ft b m ≠ 0 := hS.ne'
  field_simp

/-- The first kernel's second result is the logarithm of the sum of the real exponentials of the scores. -/
theorem lse_eq (h : Finite Fs Ft) (b : Fin 4) (m : Fin 2048) :
    lse Fs Ft b m = ((Real.log (expSum Fs Ft b m) : ℝ) : EReal) := by
  obtain ⟨μ, l, a, hrun, hμt, hμb, hl, -⟩ :=
    run_invariant (sT Fs Ft b m) (vT Fs b 0)
      (fun t j => score_ne_top h b (tix t j) m) (fun t j => h.1 b 0 (tix t j))
      (fun _ => ⟨0, score_ne_bot h b (tix _ 0) m⟩) 8 le_rfl
  rw [sum_lt_of_masked _ 8 (fun t ht => absurd t.isLt (by omega)), expSum_tiles] at hl
  obtain ⟨m', rfl⟩ : ∃ m' : ℝ, μ = (m' : EReal) :=
    ⟨μ.toReal, (EReal.coe_toReal hμt (hμb (by norm_num))).symm⟩
  rw [expR_coe] at hl
  have hS := expSum_pos h b m
  have hc : Real.exp m' * Real.exp (-m') = 1 := by
    rw [← Real.exp_add, add_neg_cancel, Real.exp_zero]
  have hl' : l = expSum Fs Ft b m * Real.exp (-m') := by
    linear_combination Real.exp (-m') * hl - l * hc
  have hlpos : 0 < l := by
    rw [hl']
    exact mul_pos hS (Real.exp_pos _)
  have hlog : Real.log (expSum Fs Ft b m) = m' + Real.log l := by
    rw [← hl, Real.log_mul (Real.exp_pos m').ne' hlpos.ne', Real.log_exp]
  show (run (sT Fs Ft b m) (vT Fs b 0) 8 le_rfl).1
      + Ideal.log (run (sT Fs Ft b m) (vT Fs b 0) 8 le_rfl).2.1 = _
  rw [hrun]
  show (m' : EReal) + Ideal.log (l : EReal) = _
  rw [Ideal.log_coe, if_neg (not_le.2 hlpos), ← EReal.coe_add, hlog]

/-- The second kernel's weight exp (score - lse) is the same quotient. -/
theorem exp_sub_lse_eq (h : Finite Fs Ft) (b : Fin 4) (n : Fin 4096) (m : Fin 2048) :
    Ideal.exp (score Fs Ft b n m - lse Fs Ft b m)
      = ((expR (score Fs Ft b n m) / expSum Fs Ft b m : ℝ) : EReal) := by
  rw [lse_eq h, exp_sub_coe (score_ne_top h b n m), Real.exp_neg, Real.exp_log (expSum_pos h b m),
    div_eq_mul_inv]

/-- The second kernel's contraction plus the residual is the reference's. -/
theorem kerFs_eq_refFs (h : Finite Fs Ft) (b : Fin 4) (c : Fin 128) (n : Fin 4096) :
    kerFs Fs Ft b c n = refFs Fs Ft b c n := by
  unfold kerFs refFs
  congr 1
  refine Finset.sum_congr rfl fun m _ => ?_
  rw [exp_sub_lse_eq h, attn_eq h, mul_comm]

end Cert.Spec

end
-- ==== Proof.Math.lean ====
/-
  The pure mathematics of the bidirectional attention: both kernels' results, written index by index, are the
  reference's (Math2: the first result, and the independence of the running maximum and denominator from the
  channel; Math3: the second result; Math1: tiles and positions, reality of the scores).
-/
import proofs.«159953_j57449482551604_2_alg».proof.Proof.Math1
import proofs.«159953_j57449482551604_2_alg».proof.Proof.Math2
import proofs.«159953_j57449482551604_2_alg».proof.Proof.Math3
-- ==== Proof.Bridge.lean ====
/-
  The two results of the kernel program as functions of the two argument arrays. The first result is what the
  first kernel leaves in its first output array: batch by batch the block written back at the last tile, which is the
  running weighted sum over the running denominator after all 8 tiles, and that is the softmax-weighted sum of the
  reference. The second is the closing reshape of what the second kernel leaves: entry by entry the spatial value plus
  the contraction over the tokens with exp (score - lse), where lse is what the first kernel left in its second output
  array; with lse = max + log (denominator) this is the reference's softmax weight.
-/
import proofs.«159953_j57449482551604_2_alg».proof.Proof.Outs
import proofs.«159953_j57449482551604_2_alg».proof.Proof.K0Final
import proofs.«159953_j57449482551604_2_alg».proof.Proof.K1Final
import proofs.«159953_j57449482551604_2_alg».proof.Proof.K0State
import proofs.«159953_j57449482551604_2_alg».proof.Proof.HostRead
import proofs.«159953_j57449482551604_2_alg».proof.Proof.Math

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (c : Dev nD)

/-- The first result: the updated text features as the reference states them. -/
theorem out_ft (h : Cert.Spec.Finite (FsIn m c) (FtIn m c)) :
    V4 (F := Ideal) m (outs m) c main_v2_0 = fun i => Cert.Spec.refFt (FsIn m c) (FtIn m c) (i 0) (i 1) (i 2) := by
  rw [V4_main_v2_0_eq, outs_v2_0]
  unfold o2a
  rw [final0_2]
  funext i
  obtain ⟨b, j, ch, rfl⟩ : ∃ (b : Fin 4) (j : Fin 2048) (ch : Fin 128), i = ix3 b j ch := ⟨i 0, i 1, i 2, eq_ix3 i⟩
  show (out2F (stAt (Vin m) c (8 * b.val + 7) (lastTile_lt b)) : S1x2048x128.Idx → EReal) (ix3 0 j ch)
    = Cert.Spec.refFt (FsIn m c) (FtIn m c) b j ch
  refine (out2F_spec m c ⟨8 * b.val + 7, lastTile_lt b⟩ (by show (8 * b.val + 7) % 8 = 7; omega) j ch).trans ?_
  have hb : (⟨(8 * b.val + 7) / 8, by have := b.isLt; omega⟩ : Fin 4) = b := Fin.ext (by show (8 * b.val + 7) / 8 = b.val; omega)
  refine (congrArg (fun b' => Cert.Spec.kerFt (FsIn m c) (FtIn m c) b' j ch) hb).trans ?_
  exact Cert.Spec.kerFt_eq_refFt h b j ch

/-- The spatial array is not one of the first kernel's results. -/
theorem v0_ne_v2_0 : (Proc.devRef .tc main_v0 : DevRef τ sig) ≠ Proc.devRef .tc main_v2_0 :=
  StableHlo.devRef_ne_of_ne (by decide)
theorem v0_ne_v2_1 : (Proc.devRef .tc main_v0 : DevRef τ sig) ≠ Proc.devRef .tc main_v2_1 :=
  StableHlo.devRef_ne_of_ne (by decide)
/-- Nor is the text array. -/
theorem v1_ne_v2_0 : (Proc.devRef .tc main_v1 : DevRef τ sig) ≠ Proc.devRef .tc main_v2_0 :=
  StableHlo.devRef_ne_of_ne (by decide)
theorem v1_ne_v2_1 : (Proc.devRef .tc main_v1 : DevRef τ sig) ≠ Proc.devRef .tc main_v2_1 :=
  StableHlo.devRef_ne_of_ne (by decide)

/-- The spatial array as the second kernel finds it is the reshaped argument. -/
theorem inX_eq (b : Fin 4) (ch : Fin 128) (n : Fin 4096) : inX (V2g m) c (ix3 b ch n) = FsIn m c b ch n := by
  have e : W2g m c main_v0 = V1 (F := Ideal) m c main_v0 := by
    show Function.update (Function.update (V1 m c) main_v2_0 (o2a m c)) main_v2_1 (o2b m c) main_v0 = _
    rw [Function.update_of_ne v0_ne_v2_1, Function.update_of_ne v0_ne_v2_0]
  show (W2g m c main_v0 : S4x128x4096.Idx → EReal) (ix3 b ch n) = _
  rw [e]
  exact V1_main_v0_apply m c b ch n

/-- The text array as the second kernel finds it is the argument. -/
theorem inY_eq (b : Fin 4) (t : Fin 2048) (ch : Fin 128) : inY (V2g m) c (ix3 b t ch) = FtIn m c b t ch := by
  have e : W2g m c main_v1 = V1 (F := Ideal) m c main_v1 := by
    show Function.update (Function.update (V1 m c) main_v2_0 (o2a m c)) main_v2_1 (o2b m c) main_v1 = _
    rw [Function.update_of_ne v1_ne_v2_1, Function.update_of_ne v1_ne_v2_0]
  show (W2g m c main_v1 : S4x2048x128.Idx → EReal) (ix3 b t ch) = _
  rw [e]
  exact V1_main_v1_apply m c b t ch

/-- The rows the second kernel subtracts are the first kernel's second result: maximum plus log-denominator. -/
theorem inE_eq (b : Fin 4) (t : Fin 2048) : inE (V2g m) c (ix3 b 0 t) = Cert.Spec.lse (FsIn m c) (FtIn m c) b t := by
  have e : W2g m c main_v2_1 = o2b m c := by
    show Function.update (Function.update (V1 m c) main_v2_0 (o2a m c)) main_v2_1 (o2b m c) main_v2_1 = _
    rw [Function.update_self]
  show (W2g m c main_v2_1 : S4x1x2048.Idx → EReal) (ix3 b 0 t) = _
  rw [e]
  unfold o2b
  rw [final0_3]
  show (out3F (stAt (Vin m) c (8 * b.val + 7) (lastTile_lt b)) : S1x1x2048.Idx → EReal) (ix3 0 0 t) = _
  refine (out3F_spec m c ⟨8 * b.val + 7, lastTile_lt b⟩ (by show (8 * b.val + 7) % 8 = 7; omega) t).trans ?_
  have hb : (⟨(8 * b.val + 7) / 8, by have := b.isLt; omega⟩ : Fin 4) = b := Fin.ext (by show (8 * b.val + 7) / 8 = b.val; omega)
  exact congrArg (fun b' => Cert.Spec.lse (FsIn m c) (FtIn m c) b' t) hb

/-- The second result: the updated spatial features as the reference states them. -/
theorem out_fs (h : Cert.Spec.Finite (FsIn m c) (FtIn m c)) :
    V4 (F := Ideal) m (outs m) c main_v4
      = fun i => Cert.Spec.refFs (FsIn m c) (FtIn m c) (i 0) (i 1) ⟨64 * (i 2).val + (i 3).val, by
          have h2 : (i 2).val < 64 := (i 2).isLt
          have h3 : (i 3).val < 64 := (i 3).isLt
          omega⟩ := by
  funext i
  obtain ⟨b, ch, hh, w, rfl⟩ : ∃ (b : Fin 4) (ch : Fin 128) (hh w : Fin 64), i = ix4 b ch hh w := ⟨i 0, i 1, i 2, i 3, eq_ix4 i⟩
  refine (V4_main_v4_apply m (outs m) c b ch hh w).trans ?_
  rw [outs_v3]
  unfold o3
  rw [final1_3]
  have hn : 64 * hh.val + w.val < 4096 := by omega
  refine Eq.trans ?_ (Cert.Spec.kerFs_eq_refFs h b ch ⟨64 * hh.val + w.val, hn⟩)
  show inX (V2g m) c (ix3 b ch (⟨64 * hh.val + w.val, hn⟩ : Fin 4096)) + ∑ t : Fin 2048, inY (V2g m) c (ix3 b t ch) * Ideal.exp ((∑ c' : Fin 128, inX (V2g m) c (ix3 b c' (⟨64 * hh.val + w.val, hn⟩ : Fin 4096)) * inY (V2g m) c (ix3 b t c')) * ((1 / 64 : ℝ) : EReal) - inE (V2g m) c (ix3 b 0 t)) = _
  unfold Cert.Spec.kerFs Cert.Spec.score
  rw [inX_eq]
  refine congrArg (_ + ·) (Finset.sum_congr rfl fun t _ => ?_)
  rw [inY_eq, inE_eq, Finset.sum_congr rfl fun c' _ => by rw [inX_eq, inY_eq]]

end Cert.KernelIdeal.Hand

end
-- ==== Proof.RefConst.lean ====
/-
  The float constants the reference spells, as the extended reals their patterns denote: 4096, whose square
  root 64 divides the scores; minus infinity, where the maximum over the positions starts; plus infinity, the
  bound in "every input entry is finite".
-/
import Idealize.ShloMosaic.PureOps.Ideal
import Idealize.ShloMosaic.PureOps.Ideal.Laws

noncomputable section

namespace Cert.ReferenceIdeal.RefValue

open Idealize.ShloMosaic

/-- The pattern of `4096.0` denotes the real 4096. -/
theorem ofBits_4096 : Ideal.ofBits .f32 0x45800000#32 = ((4096 : ℝ) : EReal) := by
  simp [Ideal.ofBits, Ideal.ieee, -EReal.coe_mul]; norm_num

/-- The pattern of `-inf` denotes the bottom element. -/
theorem ofBits_neg_inf : Ideal.ofBits .f32 0xFF800000#32 = ⊥ := by
  simp [Ideal.ofBits, Ideal.ieee]

/-- The pattern of `+inf` denotes the top element. -/
theorem ofBits_pos_inf : Ideal.ofBits .f32 0x7F800000#32 = ⊤ := by
  simp [Ideal.ofBits, Ideal.ieee]

/-- The square root of 4096 is 64. -/
theorem sqrt_4096 : Ideal.sqrt ((4096 : ℝ) : EReal) = ((64 : ℝ) : EReal) := by
  rw [Ideal.sqrt_coe, if_neg (by norm_num)]
  congr 1
  rw [show (4096 : ℝ) = 64 ^ 2 by norm_num, Real.sqrt_sq (by norm_num)]

/-- Dividing by the square root of the pattern of `4096.0` is multiplying by 1/64. -/
theorem div_sqrt_4096 (a : EReal) :
    Ideal.div a (Ideal.sqrt (Ideal.ofBits .f32 0x45800000#32)) = a * ((1 / 64 : ℝ) : EReal) := by
  rw [ofBits_4096, sqrt_4096, Ideal.div_coe (by norm_num)]

end Cert.ReferenceIdeal.RefValue

end
-- ==== Proof.RefRead1.lean ====
/-
  The reference up to the scaled scores, read at coordinates.  The spatial array is transposed to put the
  channel last and its two spatial axes are flattened row-major, so token n of batch b holds, at channel c,
  the spatial entry at row n / 64 and column n % 64.  The scores contract the channel against the text
  array and are divided by the square root of 4096, that is multiplied by 1/64.
-/
import proofs.«159953_j57449482551604_2_alg».proof.Proof.Gen.ReferenceIdeal.Read
import proofs.«159953_j57449482551604_2_alg».proof.Proof.SpecIdx
import proofs.«159953_j57449482551604_2_alg».proof.Proof.RefConst
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.Spec
open scoped BigOperators

variable (x : (⟨S4x128x64x64, .f32⟩ : BufTy).Contents (Elt Ideal))
  (y : (⟨S4x2048x128, .f32⟩ : BufTy).Contents (Elt Ideal))

/-- Token n of batch b at channel c is the spatial entry (b, c, n / 64, n % 64). -/
theorem tokens_apply (b : Fin 4) (n : Fin 4096) (c : Fin 128) :
    val_main_v1 (F := Ideal) x (ix3 b n c) = FsOf x b c n := by
  rw [val_main_v1_apply, val_main_v0_apply]
  show x _ = x _
  refine congrArg x (funext fun a => Fin.ext ?_)
  have hb := b.isLt
  have hn := n.isLt
  have hc := c.isLt
  match a with
  | ⟨0, _⟩ => show ((b.val * 4096 + n.val) * 128 + c.val) / 524288 = b.val; omega
  | ⟨1, _⟩ => show ((b.val * 4096 + n.val) * 128 + c.val) % 128 = c.val; omega
  | ⟨2, _⟩ => show ((b.val * 4096 + n.val) * 128 + c.val) / 8192 % 64 = n.val / 64; omega
  | ⟨3, _⟩ => show ((b.val * 4096 + n.val) * 128 + c.val) / 128 % 64 = n.val % 64; omega

/-- The raw score of position n against token m is the contraction over the channels. -/
theorem raw_apply (b : Fin 4) (n : Fin 4096) (m : Fin 2048) :
    val_main_v2 (F := Ideal) x y (ix3 b n m) = ∑ c : Fin 128, FsOf x b c n * FtOf y b m c := by
  rw [val_main_v2_apply]
  refine Finset.sum_congr rfl fun c _ => ?_
  have hl : lidx_main_v2 (ix3 b n m) c = ix3 b n c :=
    funext fun a => Fin.ext (by match a with | ⟨0, _⟩ => rfl | ⟨1, _⟩ => rfl | ⟨2, _⟩ => rfl)
  have hr : ridx_main_v2 (ix3 b n m) c = ix3 b m c :=
    funext fun a => Fin.ext (by match a with | ⟨0, _⟩ => rfl | ⟨1, _⟩ => rfl | ⟨2, _⟩ => rfl)
  rw [hl, hr, tokens_apply]
  rfl

/-- The divisor, everywhere: the square root of the pattern of `4096.0`. -/
theorem divisor_apply (i : S4x4096x2048.Idx) :
    val_main_v4 (F := Ideal) i = Ideal.sqrt (Ideal.ofBits .f32 0x45800000#32) := by
  rw [val_main_v4_apply, val_main_v3_apply, val_main_cst_apply]
  rfl

/-- The scaled score. -/
theorem scaled_apply (b : Fin 4) (n : Fin 4096) (m : Fin 2048) :
    val_main_v5 (F := Ideal) x y (ix3 b n m) = score (FsOf x) (FtOf y) b n m := by
  rw [val_main_v5_apply, raw_apply, divisor_apply]
  show Ideal.div _ _ = _
  rw [div_sqrt_4096]
  rfl

end Cert.ReferenceIdeal.RefValue

end
-- ==== Proof.RefRead2.lean ====
/-
  The reference's softmax over the positions, read at coordinates.  For every batch and token the largest
  scaled score over the 4096 positions is a maximum folded from minus infinity (and then once more compared
  with minus infinity, which changes nothing); the exponentials of the scores less that maximum are summed
  from zero; each exponential is divided by the sum.
-/
import proofs.«159953_j57449482551604_2_alg».proof.Proof.RefRead1
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Spec
open scoped BigOperators

variable (x : (⟨S4x128x64x64, .f32⟩ : BufTy).Contents (Elt Ideal))
  (y : (⟨S4x2048x128, .f32⟩ : BufTy).Contents (Elt Ideal))

/-- Dropping the position axis of [4, 4096, 2048] leaves [4, 2048]. -/
theorem reduces_positions : S4x4096x2048.Reduces [1] S4x2048 := by decide

/-- The index (b, m) with position k put back on the dropped axis is (b, k, m). -/
theorem lift_positions (b : Fin 4) (m : Fin 2048) (k : Fin (S4x4096x2048.size 1)) :
    reduces_positions.lift (ix2 b m) k = ix3 b (⟨k.val, k.isLt⟩ : Fin 4096) m := by
  funext c; apply Fin.ext
  match c with
  | ⟨0, _⟩ => rfl
  | ⟨1, _⟩ => rfl
  | ⟨2, _⟩ => rfl

/-- The maximum over the positions, folded from minus infinity, is the supremum of the scaled scores. -/
theorem colmax_apply (b : Fin 4) (m : Fin 2048) :
    val_main_v6 (F := Ideal) x y (ix2 b m) = colMax (FsOf x) (FtOf y) b m := by
  unfold val_main_v6
  rw [Host.reduce_eq_fold_single FloatOps.maximumf _ _ reducesTo_S4x4096x2048_S4x2048_d1 reduces_positions h_S_
    (ix2 b m)]
  have hf : (val_main_v5 (F := Ideal) x y ∘ reduces_positions.lift (ix2 b m))
      = fun k : Fin 4096 => score (FsOf x) (FtOf y) b k m := funext fun k => by
    show val_main_v5 (F := Ideal) x y (reduces_positions.lift (ix2 b m) k) = _
    rw [lift_positions, scaled_apply]
    rfl
  have h0 : val_main_cst_0 (F := Ideal) (Shape.Idx.first h_S_) = (⊥ : EReal) := ofBits_neg_inf
  refine Eq.trans ?_
    (Cert.Lib.OnlineSoftmax.univ_fold_max_eq_sup fun k : Fin 4096 => score (FsOf x) (FtOf y) b k m)
  rw [h0]
  exact congrArg (fun f => Finset.fold max (⊥ : EReal) f (Finset.univ : Finset (Fin 4096))) hf

/-- The array of minus infinities the maximum is compared with once more. -/
theorem floor_apply (i : S4x2048.Idx) : val_main_v7 (F := Ideal) i = (⊥ : EReal) := by
  rw [val_main_v7_apply, val_main_cst_1_apply]
  exact ofBits_neg_inf

/-- Comparing with minus infinity leaves the maximum. -/
theorem colmax'_apply (b : Fin 4) (m : Fin 2048) :
    val_main_v8 (F := Ideal) x y (ix2 b m) = colMax (FsOf x) (FtOf y) b m := by
  rw [val_main_v8_apply, floor_apply, colmax_apply]
  exact max_bot_left _

/-- The maximum, copied along the positions. -/
theorem colmaxAlong_apply (b : Fin 4) (n : Fin 4096) (m : Fin 2048) :
    val_main_v10 (F := Ideal) x y (ix3 b n m) = colMax (FsOf x) (FtOf y) b m := by
  rw [val_main_v10_apply, val_main_v9_apply]
  have hi : idx_main_v9 (idx_main_v10 (ix3 b n m)) = ix2 b m :=
    funext fun a => Fin.ext (by match a with | ⟨0, _⟩ => rfl | ⟨1, _⟩ => rfl)
  rw [hi, colmax'_apply]

/-- The exponential of the score less the maximum. -/
theorem expo_apply (b : Fin 4) (n : Fin 4096) (m : Fin 2048) :
    val_main_v12 (F := Ideal) x y (ix3 b n m)
      = Ideal.exp (score (FsOf x) (FtOf y) b n m - colMax (FsOf x) (FtOf y) b m) := by
  rw [val_main_v12_apply, val_main_v11_apply, scaled_apply, colmaxAlong_apply]
  rfl

/-- The softmax denominator: the exponentials summed over the positions, from zero. -/
theorem colsum_apply (b : Fin 4) (m : Fin 2048) :
    val_main_v13 (F := Ideal) x y (ix2 b m) = colSum (FsOf x) (FtOf y) b m := by
  rw [val_main_v13_apply, val_main_cst_2_apply]
  show Ideal.ofBits .f32 0x00000000#32 + _ = _
  rw [Ideal.ofBits_zero_f32, zero_add]
  refine Finset.sum_congr rfl fun k _ => ?_
  have hi : idx_main_v13 (ix2 b m) k = ix3 b k m :=
    funext fun a => Fin.ext (by match a with | ⟨0, _⟩ => rfl | ⟨1, _⟩ => rfl | ⟨2, _⟩ => rfl)
  rw [hi, expo_apply]

/-- The denominator, copied along the positions. -/
theorem colsumAlong_apply (b : Fin 4) (n : Fin 4096) (m : Fin 2048) :
    val_main_v15 (F := Ideal) x y (ix3 b n m) = colSum (FsOf x) (FtOf y) b m := by
  rw [val_main_v15_apply, val_main_v14_apply]
  have hi : idx_main_v14 (idx_main_v15 (ix3 b n m)) = ix2 b m :=
    funext fun a => Fin.ext (by match a with | ⟨0, _⟩ => rfl | ⟨1, _⟩ => rfl)
  rw [hi, colsum_apply]

/-- The attention weight. -/
theorem weight_apply (b : Fin 4) (n : Fin 4096) (m : Fin 2048) :
    val_main_v16 (F := Ideal) x y (ix3 b n m) = attn (FsOf x) (FtOf y) b n m := by
  rw [val_main_v16_apply, expo_apply, colsumAlong_apply]
  rfl

end Cert.ReferenceIdeal.RefValue

end
-- ==== Proof.RefRead3.lean ====
/-
  The reference's two results, read at coordinates and as whole arrays.  The updated text features contract
  the attention weights with the tokens over the positions.  The update of the spatial features contracts the
  weights with the text array over the tokens; it is cut back into rows and columns (position n = 64 h + w),
  transposed to put the channel second, and added to the spatial array.
-/
import proofs.«159953_j57449482551604_2_alg».proof.Proof.RefRead2

noncomputable section

namespace Cert.ReferenceIdeal.RefValue

open Cert.ReferenceIdeal Cert.ReferenceIdeal.Gen Cert.ReferenceIdeal.Read
open Idealize.ShloMosaic Idealize.ShloMosaic.ValueIdx Cert.Spec
open scoped BigOperators

variable (x : (⟨S4x128x64x64, .f32⟩ : BufTy).Contents (Elt Ideal))
  (y : (⟨S4x2048x128, .f32⟩ : BufTy).Contents (Elt Ideal))

/-- The updated text features at (b, m, c). -/
theorem textOut_apply (b : Fin 4) (m : Fin 2048) (c : Fin 128) :
    val_main_v17 (F := Ideal) x y (ix3 b m c) = refFt (FsOf x) (FtOf y) b m c := by
  rw [val_main_v17_apply]
  refine Finset.sum_congr rfl fun n _ => ?_
  have hl : lidx_main_v17 (ix3 b m c) n = ix3 b n m :=
    funext fun a => Fin.ext (by match a with | ⟨0, _⟩ => rfl | ⟨1, _⟩ => rfl | ⟨2, _⟩ => rfl)
  have hr : ridx_main_v17 (ix3 b m c) n = ix3 b n c :=
    funext fun a => Fin.ext (by match a with | ⟨0, _⟩ => rfl | ⟨1, _⟩ => rfl | ⟨2, _⟩ => rfl)
  rw [hl, hr, weight_apply, tokens_apply]

/-- The spatial update at token n, before it is cut back into rows and columns. -/
theorem spatialUpd_apply (b : Fin 4) (n : Fin 4096) (c : Fin 128) :
    val_main_v18 (F := Ideal) x y (ix3 b n c)
      = ∑ m : Fin 2048, attn (FsOf x) (FtOf y) b n m * FtOf y b m c := by
  rw [val_main_v18_apply]
  refine Finset.sum_congr rfl fun m _ => ?_
  have hl : lidx_main_v18 (ix3 b n c) m = ix3 b n m :=
    funext fun a => Fin.ext (by match a with | ⟨0, _⟩ => rfl | ⟨1, _⟩ => rfl | ⟨2, _⟩ => rfl)
  have hr : ridx_main_v18 (ix3 b n c) m = ix3 b m c :=
    funext fun a => Fin.ext (by match a with | ⟨0, _⟩ => rfl | ⟨1, _⟩ => rfl | ⟨2, _⟩ => rfl)
  rw [hl, hr, weight_apply]
  rfl

/-- The spatial update at (b, c, h, w) is the one at token 64 h + w. -/
theorem spatialUpdAt_apply (b : Fin 4) (c : Fin 128) (h w : Fin 64) :
    val_main_v20 (F := Ideal) x y (ix4 b c h w)
      = ∑ m : Fin 2048, attn (FsOf x) (FtOf y) b ⟨64 * h.val + w.val, by omega⟩ m * FtOf y b m c := by
  rw [val_main_v20_apply, val_main_v19_apply]
  have hi : idx_main_v19 (idx_main_v20 (ix4 b c h w)) = ix3 b (⟨64 * h.val + w.val, by omega⟩ : Fin 4096) c := by
    refine funext fun a => Fin.ext ?_
    have hb := b.isLt
    have hc := c.isLt
    have hh := h.isLt
    have hw := w.isLt
    match a with
    | ⟨0, _⟩ => show (((b.val * 64 + h.val) * 64 + w.val) * 128 + c.val) / 524288 = b.val; omega
    | ⟨1, _⟩ => show (((b.val * 64 + h.val) * 64 + w.val) * 128 + c.val) / 128 % 4096 = 64 * h.val + w.val; omega
    | ⟨2, _⟩ => show (((b.val * 64 + h.val) * 64 + w.val) * 128 + c.val) % 128 = c.val; omega
  rw [hi, spatialUpd_apply]

/-- The spatial entry (b, c, h, w) is the one at position 64 h + w. -/
theorem spatial_at (b : Fin 4) (c : Fin 128) (h w : Fin 64) :
    x (ix4 b c h w) = FsOf x b c ⟨64 * h.val + w.val, by omega⟩ := by
  show x _ = x _
  refine congrArg x (funext fun a => Fin.ext ?_)
  have hh := h.isLt
  have hw := w.isLt
  match a with
  | ⟨0, _⟩ => rfl
  | ⟨1, _⟩ => rfl
  | ⟨2, _⟩ => show h.val = (64 * h.val + w.val) / 64; omega
  | ⟨3, _⟩ => show w.val = (64 * h.val + w.val) % 64; omega

/-- The updated spatial features at (b, c, h, w). -/
theorem spatialOut_apply (b : Fin 4) (c : Fin 128) (h w : Fin 64) :
    val_main_v21 (F := Ideal) x y (ix4 b c h w)
      = refFs (FsOf x) (FtOf y) b c ⟨64 * h.val + w.val, by omega⟩ := by
  rw [val_main_v21_apply, spatialUpdAt_apply, spatial_at x b c h w]
  rfl

/-- The reference's first result, whole. -/
theorem spatialOut_eq :
    val_main_v21 (F := Ideal) x y
      = fun i => refFs (FsOf x) (FtOf y) (i 0) (i 1)
          ⟨64 * (i 2).val + (i 3).val, by
            have h2 : (i 2).val < 64 := (i 2).isLt
            have h3 : (i 3).val < 64 := (i 3).isLt
            omega⟩ := by
  funext i
  exact (congrArg (val_main_v21 (F := Ideal) x y) (eq_ix4 i)).trans
    (spatialOut_apply x y (i 0) (i 1) (i 2) (i 3))

/-- The reference's second result, whole. -/
theorem textOut_eq :
    val_main_v17 (F := Ideal) x y = fun i => refFt (FsOf x) (FtOf y) (i 0) (i 1) (i 2) := by
  funext i
  exact (congrArg (val_main_v17 (F := Ideal) x y) (eq_ix3 i)).trans (textOut_apply x y (i 0) (i 1) (i 2))

end Cert.ReferenceIdeal.RefValue

end
-- ==== Proof.InputsFinite.lean ====
/-
  Finiteness of the inputs.  The precondition compares the absolute value of every entry of both argument
  arrays with plus infinity and conjoins all the comparisons; when it holds, every entry is a real number:
  an extended real whose absolute value is below plus infinity is neither infinity.
-/
import proofs.«159953_j57449482551604_2_alg».proof.Pre_finite_inputs
import proofs.«159953_j57449482551604_2_alg».proof.Proof.SpecIdx
import proofs.«159953_j57449482551604_2_alg».proof.Proof.RefConst
import Idealize.ShloMosaic.Lib.ReduceAll
import Idealize.ShloMosaic.Lib.ValueIdx
import Idealize.ShloMosaic.PureOps.Ideal.Laws

noncomputable section

namespace Cert.InputsFinite

open Idealize.ShloMosaic Idealize.ShloMosaic.ValueIdx Cert.Spec
open Cert.ReferenceIdeal.RefValue (ofBits_pos_inf)

/-- An extended real whose absolute value compares below the pattern of `+inf` is a real number. -/
theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) : a ≠ ⊤ ∧ a ≠ ⊥ := by
  rw [Ideal.hostAbsf_def, Ideal.cmpf_def, Ideal.absf_def, Ideal.ofBits_def, ofBits_pos_inf] at h
  induction a using EReal.rec with
  | bot => simp [Ideal.cmp] at h
  | coe r => exact ⟨EReal.coe_ne_top r, EReal.coe_ne_bot r⟩
  | top => simp [Ideal.cmp] at h

/-- The scalar shape has one index. -/
instance : Subsingleton (Cert.Pre_finite_inputs.S_).Idx := ⟨fun _ _ => funext fun d => d.elim0⟩

/-- Under the precondition every entry of both argument arrays is a real number. -/
theorem finite_of_pre [Cert.Pre_finite_inputs.Facts]
    (x : (⟨4, ![4, 128, 64, 64]⟩ : Shape).Idx → EReal) (y : (⟨3, ![4, 2048, 128]⟩ : Shape).Idx → EReal)
    (hpre : Cert.Pre_finite_inputs.fn (F := Ideal) x y = fun _ => 1#1) :
    Finite (FsOf x) (FtOf y) := by
  have h := congrFun hpre ix0
  dsimp only [Cert.Pre_finite_inputs.fn] at h
  obtain ⟨h1, h2⟩ := IntOp.andi_eq_one.1 h
  have e1 := Host.reduce_andi_all _ _ _ _ ix0 h1
  have e2 := Host.reduce_andi_all _ _ _ _ ix0 h2
  exact ⟨fun b c n => real_of_abs_lt_inf _ (e1 _), fun b m c => real_of_abs_lt_inf _ (e2 _)⟩

end Cert.InputsFinite

end
-- ==== Proof.RefRead.lean ====
/-
  The reference side, gathered: the reference's two results as functions of the two argument arrays, index by
  index (RefRead1 to RefRead3: the tokens and scaled scores, the softmax over the positions, the two
  contractions and the residual), and the finiteness of the argument arrays under the precondition
  (InputsFinite).
-/
import proofs.«159953_j57449482551604_2_alg».proof.Proof.Gen.ReferenceIdeal.Read
import proofs.«159953_j57449482551604_2_alg».proof.Proof.Spec
import proofs.«159953_j57449482551604_2_alg».proof.Proof.RefRead3
import proofs.«159953_j57449482551604_2_alg».proof.Proof.InputsFinite
-- ==== Proof.lean ====
/-
  The certificate of the two-kernel bidirectional attention against its reference.

  The three frames. The word-level kernel program and its idealization are the same printed text; one proof of the
  run, written for any float instance, serves both: @main is two host operations, the two pallas_calls and a closing
  reshape; every weakly fair execution ends without a fault with the argument arrays unchanged. The reference is a
  straight line of host operations, whose run is generated.

  The value claim, on the extended reals under finite inputs. The first kernel sweeps the 8 tiles of 512 spatial
  positions of a batch keeping, for each of the 2048 tokens, the running maximum m of the scaled scores, the running
  denominator l = Σ exp (score - m) and, for each channel, the running weighted sum a = Σ exp (score - m) · value; it
  ends with a / l and m + log l. The running-maximum evaluation equals the one-pass softmax: a / l is the
  softmax-weighted sum over all 4096 positions, and exp (score - (m + log l)) is the softmax weight itself, which
  the second kernel contracts with the text features and adds to the spatial features. The reference computes the same
  two contractions of the same weights; the scale 1/64 is the reference's division by sqrt 4096.
-/
import proofs.«159953_j57449482551604_2_alg».proof.Defs
import proofs.«159953_j57449482551604_2_alg».proof.Proof.Gen.Kernel
import proofs.«159953_j57449482551604_2_alg».proof.Proof.Gen.KernelIdeal
import proofs.«159953_j57449482551604_2_alg».proof.Proof.Gen.ReferenceIdeal
import proofs.«159953_j57449482551604_2_alg».proof.Proof.Gen.Pre_finite_inputs
import proofs.«159953_j57449482551604_2_alg».proof.Proof.Run
import proofs.«159953_j57449482551604_2_alg».proof.Proof.Kb.Run
import proofs.«159953_j57449482551604_2_alg».proof.Proof.Bridge
import proofs.«159953_j57449482551604_2_alg».proof.Proof.RefRead

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) := fun m ρ _ =>
  (θ_run Cert.Kernel.defs _ _).mono (fun _ h c => ⟨(h c).2.2.1, (h c).2.2.2⟩) (Cert.Kernel.Hand.run_main (F := Bits) m ρ)

/-- So does its idealization. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => ⟨(h c).2.2.1, (h c).2.2.2⟩) (Cert.KernelIdeal.Hand.run_main (F := Ideal) m ρ)

/-- The reference's frame is its generated run with the results dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- Both idealized programs end with the two results at the reference's functions of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.V4 (F := Ideal) m (Cert.KernelIdeal.Hand.outs m) c Cert.KernelIdeal.main_v4,
    fun c => Cert.KernelIdeal.Gen.V4 (F := Ideal) m (Cert.KernelIdeal.Hand.outs m) c Cert.KernelIdeal.main_v2_0,
    Cert.KernelIdeal.Hand.run_main (F := Ideal) m ρ, ?_⟩
  refine (θ_run Cert.ReferenceIdeal.defs _ _).mono (fun _ h c => ⟨?_, ?_, (h c).2.2⟩) (Cert.ReferenceIdeal.Value.run (F := Ideal) m' ρ')
  · have hfin := Cert.InputsFinite.finite_of_pre _ _ (hpre c)
    rw [(h c).1, Cert.ReferenceIdeal.Read.val_main_v21_eq, Cert.ReferenceIdeal.RefValue.spatialOut_eq, (hagree c).1, (hagree c).2]
    exact (Cert.KernelIdeal.Hand.out_fs m c hfin).symm
  · have hfin := Cert.InputsFinite.finite_of_pre _ _ (hpre c)
    rw [(h c).2.1, Cert.ReferenceIdeal.Read.val_main_v17_eq, Cert.ReferenceIdeal.RefValue.textOut_eq, (hagree c).1, (hagree c).2]
    exact (Cert.KernelIdeal.Hand.out_ft m c hfin).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
